-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x64 .f32) (main_arg11 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S50000x64 : Shape := ⟨2, ![50000, 64]⟩
abbrev S5000x64 : Shape := ⟨2, ![5000, 64]⟩
abbrev S650000x64 : Shape := ⟨2, ![650000, 64]⟩
abbrev S1x64 : Shape := ⟨2, ![1, 64]⟩

abbrev nBuf : Space → Nat
  | .hbm => 138
  | .vmem => 39
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S1x600000, .i32⟩
  | 13 => ⟨S600000, .i32⟩
  | 14 => ⟨S1x600000, .i32⟩
  | 15 => ⟨S600000, .i32⟩
  | 16 => ⟨S50000, .i32⟩
  | 17 => ⟨S650000, .i32⟩
  | 18 => ⟨S650000, .i32⟩
  | 19 => ⟨S_, .f32⟩
  | 20 => ⟨S650000, .f32⟩
  | 21 => ⟨S_, .f32⟩
  | 22 => ⟨S50000, .f32⟩
  | 23 => ⟨S650000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S650000, .i32⟩
  | 35 => ⟨S650000, .i1⟩
  | 36 => ⟨S_, .i32⟩
  | 37 => ⟨S650000, .i32⟩
  | 38 => ⟨S650000, .i32⟩
  | 39 => ⟨S650000, .i32⟩
  | 40 => ⟨S650000x1, .i32⟩
  | 41 => ⟨S650000, .f32⟩
  | 42 => ⟨S_, .i32⟩
  | 43 => ⟨S650000, .i32⟩
  | 44 => ⟨S650000, .i1⟩
  | 45 => ⟨S_, .i32⟩
  | 46 => ⟨S650000, .i32⟩
  | 47 => ⟨S650000, .i32⟩
  | 48 => ⟨S650000, .i32⟩
  | 49 => ⟨S650000x1, .i32⟩
  | 50 => ⟨S650000, .f32⟩
  | 51 => ⟨S650000, .f32⟩
  | 52 => ⟨S50000x128, .f32⟩
  | 53 => ⟨S_, .i32⟩
  | 54 => ⟨S650000, .i32⟩
  | 55 => ⟨S650000, .i1⟩
  | 56 => ⟨S_, .i32⟩
  | 57 => ⟨S650000, .i32⟩
  | 58 => ⟨S650000, .i32⟩
  | 59 => ⟨S650000, .i32⟩
  | 60 => ⟨S650000x1, .i32⟩
  | 61 => ⟨S650000x128, .f32⟩
  | 62 => ⟨S650000x1, .f32⟩
  | 63 => ⟨S650000x128, .f32⟩
  | 64 => ⟨S650000x128, .f32⟩
  | 65 => ⟨S_, .f32⟩
  | 66 => ⟨S50000x128, .f32⟩
  | 67 => ⟨S650000x1, .i32⟩
  | 68 => ⟨S50000x128, .f32⟩
  | 69 => ⟨S1x128, .f32⟩
  | 70 => ⟨S50000x128, .f32⟩
  | 71 => ⟨S50000x128, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S50000x128, .f32⟩
  | 85 => ⟨S50000x128, .f32⟩
  | 86 => ⟨S_, .i32⟩
  | 87 => ⟨S650000, .i32⟩
  | 88 => ⟨S650000, .i1⟩
  | 89 => ⟨S_, .i32⟩
  | 90 => ⟨S650000, .i32⟩
  | 91 => ⟨S650000, .i32⟩
  | 92 => ⟨S650000, .i32⟩
  | 93 => ⟨S650000x1, .i32⟩
  | 94 => ⟨S650000x128, .f32⟩
  | 95 => ⟨S650000x1, .f32⟩
  | 96 => ⟨S650000x128, .f32⟩
  | 97 => ⟨S650000x128, .f32⟩
  | 98 => ⟨S_, .f32⟩
  | 99 => ⟨S50000x128, .f32⟩
  | 100 => ⟨S650000x1, .i32⟩
  | 101 => ⟨S50000x128, .f32⟩
  | 102 => ⟨S1x128, .f32⟩
  | 103 => ⟨S50000x128, .f32⟩
  | 104 => ⟨S50000x128, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S1x128, .f32⟩
  | 114 => ⟨S1x128, .f32⟩
  | 115 => ⟨S1x128, .f32⟩
  | 116 => ⟨S1x128, .f32⟩
  | 117 => ⟨S50000x128, .f32⟩
  | 118 => ⟨S50000x64, .f32⟩
  | 119 => ⟨S_, .i32⟩
  | 120 => ⟨S650000, .i32⟩
  | 121 => ⟨S650000, .i1⟩
  | 122 => ⟨S_, .i32⟩
  | 123 => ⟨S650000, .i32⟩
  | 124 => ⟨S650000, .i32⟩
  | 125 => ⟨S650000, .i32⟩
  | 126 => ⟨S650000x1, .i32⟩
  | 127 => ⟨S650000x64, .f32⟩
  | _ => ⟨S50000x128, .f32⟩

abbrev hbmTy0_1 (i : Nat) : BufTy := match i % 128 with
  | 0 => ⟨S650000x1, .f32⟩
  | 1 => ⟨S650000x64, .f32⟩
  | 2 => ⟨S650000x64, .f32⟩
  | 3 => ⟨S_, .f32⟩
  | 4 => ⟨S50000x64, .f32⟩
  | 5 => ⟨S650000x1, .i32⟩
  | 6 => ⟨S50000x64, .f32⟩
  | 7 => ⟨S1x64, .f32⟩
  | 8 => ⟨S50000x64, .f32⟩
  | 9 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x64, .f32⟩
  | .local _ .vmem, ⟨37, _⟩ => ⟨S5000x64, .f32⟩
  | .local _ .vmem, ⟨38, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47_0 : Ref sig .tc := ⟨.hbm, 72, rfl⟩
abbrev main_v47_1 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74_0 : Ref sig .tc := ⟨.hbm, 105, rfl⟩
abbrev main_v74_1 : Ref sig .tc := ⟨.hbm, 106, rfl⟩
abbrev main_cst_14 : Ref sig .tc := ⟨.hbm, 107, rfl⟩
abbrev main_v75 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_16 : Ref sig .tc := ⟨.hbm, 119, rfl⟩
abbrev main_v85 : Ref sig .tc := ⟨.hbm, 120, rfl⟩
abbrev main_v86 : Ref sig .tc := ⟨.hbm, 121, rfl⟩
abbrev main_c_17 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_18 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc5_stg5_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x64_S5000x64_1_0_0_1_n_n_wf : DotDims.WF S5000x128 S128x64 S5000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v82) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v83) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v83) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v84) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S650000x64 : Shape := ⟨2, ![650000, 64]⟩
abbrev S1x64 : Shape := ⟨2, ![1, 64]⟩

abbrev nBuf : Space → Nat
  | .hbm => 206
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S1x600000, .i32⟩
  | 13 => ⟨S600000, .i32⟩
  | 14 => ⟨S1x600000, .i32⟩
  | 15 => ⟨S600000, .i32⟩
  | 16 => ⟨S50000, .i32⟩
  | 17 => ⟨S650000, .i32⟩
  | 18 => ⟨S650000, .i32⟩
  | 19 => ⟨S_, .f32⟩
  | 20 => ⟨S650000, .f32⟩
  | 21 => ⟨S_, .f32⟩
  | 22 => ⟨S50000, .f32⟩
  | 23 => ⟨S650000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S650000, .i32⟩
  | 35 => ⟨S650000, .i1⟩
  | 36 => ⟨S_, .i32⟩
  | 37 => ⟨S650000, .i32⟩
  | 38 => ⟨S650000, .i32⟩
  | 39 => ⟨S650000, .i32⟩
  | 40 => ⟨S650000x1, .i32⟩
  | 41 => ⟨S650000, .f32⟩
  | 42 => ⟨S_, .i32⟩
  | 43 => ⟨S650000, .i32⟩
  | 44 => ⟨S650000, .i1⟩
  | 45 => ⟨S_, .i32⟩
  | 46 => ⟨S650000, .i32⟩
  | 47 => ⟨S650000, .i32⟩
  | 48 => ⟨S650000, .i32⟩
  | 49 => ⟨S650000x1, .i32⟩
  | 50 => ⟨S650000, .f32⟩
  | 51 => ⟨S650000, .f32⟩
  | 52 => ⟨S50000x128, .f32⟩
  | 53 => ⟨S_, .i32⟩
  | 54 => ⟨S650000, .i32⟩
  | 55 => ⟨S650000, .i1⟩
  | 56 => ⟨S_, .i32⟩
  | 57 => ⟨S650000, .i32⟩
  | 58 => ⟨S650000, .i32⟩
  | 59 => ⟨S650000, .i32⟩
  | 60 => ⟨S650000x1, .i32⟩
  | 61 => ⟨S650000x128, .f32⟩
  | 62 => ⟨S650000x1, .f32⟩
  | 63 => ⟨S650000x128, .f32⟩
  | 64 => ⟨S650000x128, .f32⟩
  | 65 => ⟨S_, .f32⟩
  | 66 => ⟨S50000x128, .f32⟩
  | 67 => ⟨S650000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S128, .f32⟩
  | 74 => ⟨S_, .f32⟩
  | 75 => ⟨S128, .f32⟩
  | 76 => ⟨S128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S50000x128, .f32⟩
  | 85 => ⟨S50000x128, .f32⟩
  | 86 => ⟨S50000x128, .f32⟩
  | 87 => ⟨S_, .f32⟩
  | 88 => ⟨S_, .f32⟩
  | 89 => ⟨S_, .f32⟩
  | 90 => ⟨S_, .f32⟩
  | 91 => ⟨S128, .f32⟩
  | 92 => ⟨S128, .f32⟩
  | 93 => ⟨S128, .f32⟩
  | 94 => ⟨S_, .f32⟩
  | 95 => ⟨S_, .i1⟩
  | 96 => ⟨S_, .f32⟩
  | 97 => ⟨S_, .f32⟩
  | 98 => ⟨S128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S128, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x128, .f32⟩
  | 120 => ⟨S_, .i32⟩
  | 121 => ⟨S650000, .i32⟩
  | 122 => ⟨S650000, .i1⟩
  | 123 => ⟨S_, .i32⟩
  | 124 => ⟨S650000, .i32⟩
  | 125 => ⟨S650000, .i32⟩
  | 126 => ⟨S650000, .i32⟩
  | 127 => ⟨S650000x1, .i32⟩
  | _ => ⟨S50000x128, .f32⟩

abbrev hbmTy0_1 (i : Nat) : BufTy := match i % 128 with
  | 0 => ⟨S650000x128, .f32⟩
  | 1 => ⟨S650000x1, .f32⟩
  | 2 => ⟨S650000x128, .f32⟩
  | 3 => ⟨S650000x128, .f32⟩
  | 4 => ⟨S_, .f32⟩
  | 5 => ⟨S50000x128, .f32⟩
  | 6 => ⟨S650000x1, .i32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S128, .f32⟩
  | 13 => ⟨S_, .f32⟩
  | 14 => ⟨S128, .f32⟩
  | 15 => ⟨S128, .f32⟩
  | 16 => ⟨S_, .i32⟩
  | 17 => ⟨S_, .f32⟩
  | 18 => ⟨S128, .f32⟩
  | 19 => ⟨S1x128, .f32⟩
  | 20 => ⟨S_, .f32⟩
  | 21 => ⟨S1x128, .f32⟩
  | 22 => ⟨S1x128, .f32⟩
  | 23 => ⟨S50000x128, .f32⟩
  | 24 => ⟨S50000x128, .f32⟩
  | 25 => ⟨S50000x128, .f32⟩
  | 26 => ⟨S_, .f32⟩
  | 27 => ⟨S_, .f32⟩
  | 28 => ⟨S_, .f32⟩
  | 29 => ⟨S_, .f32⟩
  | 30 => ⟨S128, .f32⟩
  | 31 => ⟨S128, .f32⟩
  | 32 => ⟨S128, .f32⟩
  | 33 => ⟨S_, .f32⟩
  | 34 => ⟨S_, .i1⟩
  | 35 => ⟨S_, .f32⟩
  | 36 => ⟨S_, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S_, .f32⟩
  | 46 => ⟨S128, .f32⟩
  | 47 => ⟨S128, .f32⟩
  | 48 => ⟨S128, .f32⟩
  | 49 => ⟨S1x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S50000x64, .f32⟩
  | 59 => ⟨S_, .i32⟩
  | 60 => ⟨S650000, .i32⟩
  | 61 => ⟨S650000, .i1⟩
  | 62 => ⟨S_, .i32⟩
  | 63 => ⟨S650000, .i32⟩
  | 64 => ⟨S650000, .i32⟩
  | 65 => ⟨S650000, .i32⟩
  | 66 => ⟨S650000x1, .i32⟩
  | 67 => ⟨S650000x64, .f32⟩
  | 68 => ⟨S650000x1, .f32⟩
  | 69 => ⟨S650000x64, .f32⟩
  | 70 => ⟨S650000x64, .f32⟩
  | 71 => ⟨S_, .f32⟩
  | 72 => ⟨S50000x64, .f32⟩
  | 73 => ⟨S650000x1, .i32⟩
  | 74 => ⟨S50000x64, .f32⟩
  | 75 => ⟨S1x64, .f32⟩
  | 76 => ⟨S50000x64, .f32⟩
  | 77 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_cst_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_cst_1 : Ref sig .tc := ⟨.hbm, 88, rfl⟩
abbrev main_call1_v8 : Ref sig .tc := ⟨.hbm, 89, rfl⟩
abbrev main_call1_cst_2 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_cst_3 : Ref sig .tc := ⟨.hbm, 94, rfl⟩
abbrev main_call1_v12 : Ref sig .tc := ⟨.hbm, 95, rfl⟩
abbrev main_call1_cst_4 : Ref sig .tc := ⟨.hbm, 96, rfl⟩
abbrev main_call1_call0_v0 : Ref sig .tc := ⟨.hbm, 97, rfl⟩
abbrev main_call1_call0_v1 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_cst_12 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_call2_cst : Ref sig .tc := ⟨.hbm, 116, rfl⟩
abbrev main_call2_v0 : Ref sig .tc := ⟨.hbm, 117, rfl⟩
abbrev main_v66 : Ref sig .tc := ⟨.hbm, 118, rfl⟩
abbrev main_v67 : Ref sig .tc := ⟨.hbm, 119, rfl⟩
abbrev main_c_13 : Ref sig .tc := ⟨.hbm, 120, rfl⟩
abbrev main_v68 : Ref sig .tc := ⟨.hbm, 121, rfl⟩
abbrev main_v69 : Ref sig .tc := ⟨.hbm, 122, rfl⟩
abbrev main_c_14 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_15 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_cst_16 : Ref sig .tc := ⟨.hbm, 139, rfl⟩
abbrev main_v84 : Ref sig .tc := ⟨.hbm, 140, rfl⟩
abbrev main_cst_17 : Ref sig .tc := ⟨.hbm, 141, rfl⟩
abbrev main_v85 : Ref sig .tc := ⟨.hbm, 142, rfl⟩
abbrev main_v86 : Ref sig .tc := ⟨.hbm, 143, rfl⟩
abbrev main_c_18 : Ref sig .tc := ⟨.hbm, 144, rfl⟩
abbrev main_call3_cst : Ref sig .tc := ⟨.hbm, 145, rfl⟩
abbrev main_call3_v0 : Ref sig .tc := ⟨.hbm, 146, rfl⟩
abbrev main_call3_v1 : Ref sig .tc := ⟨.hbm, 147, rfl⟩
abbrev main_call3_cst_0 : Ref sig .tc := ⟨.hbm, 148, rfl⟩
abbrev main_call3_v2 : Ref sig .tc := ⟨.hbm, 149, rfl⟩
abbrev main_call3_v3 : Ref sig .tc := ⟨.hbm, 150, rfl⟩
abbrev main_call3_v4 : Ref sig .tc := ⟨.hbm, 151, rfl⟩
abbrev main_call3_v5 : Ref sig .tc := ⟨.hbm, 152, rfl⟩
abbrev main_call3_v6 : Ref sig .tc := ⟨.hbm, 153, rfl⟩
abbrev main_call3_v7 : Ref sig .tc := ⟨.hbm, 154, rfl⟩
abbrev main_call3_cst_1 : Ref sig .tc := ⟨.hbm, 155, rfl⟩
abbrev main_call3_v8 : Ref sig .tc := ⟨.hbm, 156, rfl⟩
abbrev main_call3_cst_2 : Ref sig .tc := ⟨.hbm, 157, rfl⟩
abbrev main_call3_v9 : Ref sig .tc := ⟨.hbm, 158, rfl⟩
abbrev main_call3_v10 : Ref sig .tc := ⟨.hbm, 159, rfl⟩
abbrev main_call3_v11 : Ref sig .tc := ⟨.hbm, 160, rfl⟩
abbrev main_call3_cst_3 : Ref sig .tc := ⟨.hbm, 161, rfl⟩
abbrev main_call3_v12 : Ref sig .tc := ⟨.hbm, 162, rfl⟩
abbrev main_call3_cst_4 : Ref sig .tc := ⟨.hbm, 163, rfl⟩
abbrev main_call3_call0_v0 : Ref sig .tc := ⟨.hbm, 164, rfl⟩
abbrev main_call3_call0_v1 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_19 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_call4_cst : Ref sig .tc := ⟨.hbm, 183, rfl⟩
abbrev main_call4_v0 : Ref sig .tc := ⟨.hbm, 184, rfl⟩
abbrev main_v103 : Ref sig .tc := ⟨.hbm, 185, rfl⟩
abbrev main_v104 : Ref sig .tc := ⟨.hbm, 186, rfl⟩
abbrev main_c_20 : Ref sig .tc := ⟨.hbm, 187, rfl⟩
abbrev main_v105 : Ref sig .tc := ⟨.hbm, 188, rfl⟩
abbrev main_v106 : Ref sig .tc := ⟨.hbm, 189, rfl⟩
abbrev main_c_21 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_cst_22 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

class Facts : Prop extends Facts₀ where

variable [Facts]
-- ==== Proof.KerRun.lean ====
/-
  The idealized kernel program's run with its result named: every weakly fair execution terminates, nothing
  faults, the arguments end as launched, and the result buffer ends at the contents the last segment
  boundary gives it — the fold of the host stretches and the regions' write-backs from the launch memory.
-/
import proofs.«173831_j84808424227048_1_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents beside the twelve arguments. -/
theorem run_result : θ_run defs (onTc (τ := τ) (main (F := F))) ⟨m, fun _ => 0, ρ⟩ (fun r => ∀ c : Dev nD,
      r.2.mem ((c.tc : Thread nD τ).loc main_v100) = W15 m ρ c (Proc.devRef .tc main_v100) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v100 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c)⟩)

end Cert.KernelIdeal.Val

end
-- ==== Proof.KerKeep.lean ====
/- What each segment of the idealized kernel program leaves unchanged. A host stretch rewrites only the
  buffers its operations name as results; a region rewrites only its windows' arrays. So a buffer's contents
  at a segment boundary can be walked back to the boundary where it was last written: the two index lists
  and the edge weights back to the third boundary, each argument back to the launch memory. -/
import proofs.«173831_j84808424227048_1_alg».proof.Proof.Gen.KernelIdeal.Frame

set_option maxRecDepth 16384

noncomputable section

namespace Cert.KernelIdeal.Val

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The buffers the operations of `hostOps0` write. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt F))).Forall fun op => op.writes ⊆ (hostOps0_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps0_1` write. -/
abbrev hostOps0_1_W : List (Ref sig .tc) := [main_call0_v0, main_call0_v1, main_v14]
theorem hostOps0_1_writes : (hostOps0_1 : List (HloOp τ sig (Elt F))).Forall fun op => op.writes ⊆ (hostOps0_1_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps0_2` write. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29]
theorem hostOps0_2_writes : (hostOps0_2 : List (HloOp τ sig (Elt F))).Forall fun op => op.writes ⊆ (hostOps0_2_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps1` write. -/
abbrev hostOps1_W : List (Ref sig .tc) := [main_c_6, main_v31, main_v32, main_c_7, main_v33, main_v34, main_v35, main_v36, main_v37, main_v38, main_v39, main_v40, main_cst_8, main_v41, main_v42, main_v43, main_v44, main_v45, main_v46]
theorem hostOps1_writes : (hostOps1 : List (HloOp τ sig (Elt F))).Forall fun op => op.writes ⊆ (hostOps1_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps2` write. -/
abbrev hostOps2_W : List (Ref sig .tc) := [main_cst_9, main_v48, main_v49, main_cst_10, main_v50, main_v51, main_v52, main_v53, main_v54, main_v55]
theorem hostOps2_writes : (hostOps2 : List (HloOp τ sig (Elt F))).Forall fun op => op.writes ⊆ (hostOps2_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps4` write. -/
abbrev hostOps4_W : List (Ref sig .tc) := [main_c_11, main_v58, main_v59, main_c_12, main_v60, main_v61, main_v62, main_v63, main_v64, main_v65, main_v66, main_v67, main_cst_13, main_v68, main_v69, main_v70, main_v71, main_v72, main_v73]
theorem hostOps4_writes : (hostOps4 : List (HloOp τ sig (Elt F))).Forall fun op => op.writes ⊆ (hostOps4_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps5` write. -/
abbrev hostOps5_W : List (Ref sig .tc) := [main_cst_14, main_v75, main_v76, main_cst_15, main_v77, main_v78, main_v79, main_v80, main_v81, main_v82]
theorem hostOps5_writes : (hostOps5 : List (HloOp τ sig (Elt F))).Forall fun op => op.writes ⊆ (hostOps5_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps7` write. -/
abbrev hostOps7_W : List (Ref sig .tc) := [main_c_16, main_v85, main_v86, main_c_17, main_v87, main_v88, main_v89, main_v90, main_v91, main_v92, main_v93, main_v94, main_cst_18, main_v95, main_v96, main_v97, main_v98, main_v99, main_v100]
theorem hostOps7_writes : (hostOps7 : List (HloOp τ sig (Elt F))).Forall fun op => op.writes ⊆ (hostOps7_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W2_keep (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_keep (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W5_keep (c : Dev nD) (r : Ref sig .tc) (h : r ∉ hostOps1_W) : W5 m ρ c (Proc.devRef .tc r) = W4 m ρ c (Proc.devRef .tc r) :=
  StableHlo.after_of_writes_sub hostOps1 _ hostOps1_writes h
theorem W7_keep (c : Dev nD) (r : Ref sig .tc) (h : r ∉ hostOps2_W) : W7 m ρ c (Proc.devRef .tc r) = W6 m ρ c (Proc.devRef .tc r) :=
  StableHlo.after_of_writes_sub hostOps2 _ hostOps2_writes h
theorem W10_keep (c : Dev nD) (r : Ref sig .tc) (h : r ∉ hostOps4_W) : W10 m ρ c (Proc.devRef .tc r) = W9 m ρ c (Proc.devRef .tc r) :=
  StableHlo.after_of_writes_sub hostOps4 _ hostOps4_writes h
theorem W12_keep (c : Dev nD) (r : Ref sig .tc) (h : r ∉ hostOps5_W) : W12 m ρ c (Proc.devRef .tc r) = W11 m ρ c (Proc.devRef .tc r) :=
  StableHlo.after_of_writes_sub hostOps5 _ hostOps5_writes h
theorem W15_keep (c : Dev nD) (r : Ref sig .tc) (h : r ∉ hostOps7_W) : W15 m ρ c (Proc.devRef .tc r) = W14 m ρ c (Proc.devRef .tc r) :=
  StableHlo.after_of_writes_sub hostOps7 _ hostOps7_writes h

/-! ## The index lists and the edge weights, walked back to the third boundary -/

theorem walk4_v5 (c : Dev nD) : W4 m ρ c (Proc.devRef .tc main_v5) = W3 m ρ c (Proc.devRef .tc main_v5) :=
  W4_of_ne m ρ c main_v5 (by decide)
theorem walk4_v6 (c : Dev nD) : W4 m ρ c (Proc.devRef .tc main_v6) = W3 m ρ c (Proc.devRef .tc main_v6) :=
  W4_of_ne m ρ c main_v6 (by decide)
theorem walk4_v29 (c : Dev nD) : W4 m ρ c (Proc.devRef .tc main_v29) = W3 m ρ c (Proc.devRef .tc main_v29) :=
  W4_of_ne m ρ c main_v29 (by decide)
theorem walk9_v5 (c : Dev nD) : W9 m ρ c (Proc.devRef .tc main_v5) = W3 m ρ c (Proc.devRef .tc main_v5) :=
  (W9_of_ne m ρ c main_v5 (by decide)).trans ((W8_of_ne m ρ c main_v5 (by decide)).trans ((W7_keep m ρ c main_v5 (by decide)).trans ((W6_of_ne m ρ c main_v5 (by decide)).trans ((W5_keep m ρ c main_v5 (by decide)).trans (W4_of_ne m ρ c main_v5 (by decide))))))
theorem walk9_v6 (c : Dev nD) : W9 m ρ c (Proc.devRef .tc main_v6) = W3 m ρ c (Proc.devRef .tc main_v6) :=
  (W9_of_ne m ρ c main_v6 (by decide)).trans ((W8_of_ne m ρ c main_v6 (by decide)).trans ((W7_keep m ρ c main_v6 (by decide)).trans ((W6_of_ne m ρ c main_v6 (by decide)).trans ((W5_keep m ρ c main_v6 (by decide)).trans (W4_of_ne m ρ c main_v6 (by decide))))))
theorem walk9_v29 (c : Dev nD) : W9 m ρ c (Proc.devRef .tc main_v29) = W3 m ρ c (Proc.devRef .tc main_v29) :=
  (W9_of_ne m ρ c main_v29 (by decide)).trans ((W8_of_ne m ρ c main_v29 (by decide)).trans ((W7_keep m ρ c main_v29 (by decide)).trans ((W6_of_ne m ρ c main_v29 (by decide)).trans ((W5_keep m ρ c main_v29 (by decide)).trans (W4_of_ne m ρ c main_v29 (by decide))))))
theorem walk14_v5 (c : Dev nD) : W14 m ρ c (Proc.devRef .tc main_v5) = W3 m ρ c (Proc.devRef .tc main_v5) :=
  (W14_of_ne m ρ c main_v5 (by decide)).trans ((W13_of_ne m ρ c main_v5 (by decide)).trans ((W12_keep m ρ c main_v5 (by decide)).trans ((W11_of_ne m ρ c main_v5 (by decide)).trans ((W10_keep m ρ c main_v5 (by decide)).trans ((W9_of_ne m ρ c main_v5 (by decide)).trans ((W8_of_ne m ρ c main_v5 (by decide)).trans ((W7_keep m ρ c main_v5 (by decide)).trans ((W6_of_ne m ρ c main_v5 (by decide)).trans ((W5_keep m ρ c main_v5 (by decide)).trans (W4_of_ne m ρ c main_v5 (by decide)))))))))))
theorem walk14_v6 (c : Dev nD) : W14 m ρ c (Proc.devRef .tc main_v6) = W3 m ρ c (Proc.devRef .tc main_v6) :=
  (W14_of_ne m ρ c main_v6 (by decide)).trans ((W13_of_ne m ρ c main_v6 (by decide)).trans ((W12_keep m ρ c main_v6 (by decide)).trans ((W11_of_ne m ρ c main_v6 (by decide)).trans ((W10_keep m ρ c main_v6 (by decide)).trans ((W9_of_ne m ρ c main_v6 (by decide)).trans ((W8_of_ne m ρ c main_v6 (by decide)).trans ((W7_keep m ρ c main_v6 (by decide)).trans ((W6_of_ne m ρ c main_v6 (by decide)).trans ((W5_keep m ρ c main_v6 (by decide)).trans (W4_of_ne m ρ c main_v6 (by decide)))))))))))
theorem walk14_v29 (c : Dev nD) : W14 m ρ c (Proc.devRef .tc main_v29) = W3 m ρ c (Proc.devRef .tc main_v29) :=
  (W14_of_ne m ρ c main_v29 (by decide)).trans ((W13_of_ne m ρ c main_v29 (by decide)).trans ((W12_keep m ρ c main_v29 (by decide)).trans ((W11_of_ne m ρ c main_v29 (by decide)).trans ((W10_keep m ρ c main_v29 (by decide)).trans ((W9_of_ne m ρ c main_v29 (by decide)).trans ((W8_of_ne m ρ c main_v29 (by decide)).trans ((W7_keep m ρ c main_v29 (by decide)).trans ((W6_of_ne m ρ c main_v29 (by decide)).trans ((W5_keep m ρ c main_v29 (by decide)).trans (W4_of_ne m ρ c main_v29 (by decide)))))))))))

/-! ## Each argument at the boundary where it is consumed, walked back to the launch memory -/

theorem walk3_arg0 (c : Dev nD) : W3 m ρ c (Proc.devRef .tc main_arg0) = m ((c : Thread nD τ).loc main_arg0) :=
  ((W3_keep m ρ c main_arg0 (by decide)).trans ((W2_keep m ρ c main_arg0 (by decide)).trans (W1_keep m ρ c main_arg0 (by decide)))).trans rfl
theorem walk3_arg2 (c : Dev nD) : W3 m ρ c (Proc.devRef .tc main_arg2) = m ((c : Thread nD τ).loc main_arg2) :=
  ((W3_keep m ρ c main_arg2 (by decide)).trans ((W2_keep m ρ c main_arg2 (by decide)).trans (W1_keep m ρ c main_arg2 (by decide)))).trans rfl
theorem walk4_arg3 (c : Dev nD) : W4 m ρ c (Proc.devRef .tc main_arg3) = m ((c : Thread nD τ).loc main_arg3) :=
  ((W4_of_ne m ρ c main_arg3 (by decide)).trans ((W3_keep m ρ c main_arg3 (by decide)).trans ((W2_keep m ρ c main_arg3 (by decide)).trans (W1_keep m ρ c main_arg3 (by decide))))).trans rfl
theorem walk6_arg4 (c : Dev nD) : W6 m ρ c (Proc.devRef .tc main_arg4) = m ((c : Thread nD τ).loc main_arg4) :=
  ((W6_of_ne m ρ c main_arg4 (by decide)).trans ((W5_keep m ρ c main_arg4 (by decide)).trans ((W4_of_ne m ρ c main_arg4 (by decide)).trans ((W3_keep m ρ c main_arg4 (by decide)).trans ((W2_keep m ρ c main_arg4 (by decide)).trans (W1_keep m ρ c main_arg4 (by decide))))))).trans rfl
theorem walk6_arg5 (c : Dev nD) : W6 m ρ c (Proc.devRef .tc main_arg5) = m ((c : Thread nD τ).loc main_arg5) :=
  ((W6_of_ne m ρ c main_arg5 (by decide)).trans ((W5_keep m ρ c main_arg5 (by decide)).trans ((W4_of_ne m ρ c main_arg5 (by decide)).trans ((W3_keep m ρ c main_arg5 (by decide)).trans ((W2_keep m ρ c main_arg5 (by decide)).trans (W1_keep m ρ c main_arg5 (by decide))))))).trans rfl
theorem walk8_arg6 (c : Dev nD) : W8 m ρ c (Proc.devRef .tc main_arg6) = m ((c : Thread nD τ).loc main_arg6) :=
  ((W8_of_ne m ρ c main_arg6 (by decide)).trans ((W7_keep m ρ c main_arg6 (by decide)).trans ((W6_of_ne m ρ c main_arg6 (by decide)).trans ((W5_keep m ρ c main_arg6 (by decide)).trans ((W4_of_ne m ρ c main_arg6 (by decide)).trans ((W3_keep m ρ c main_arg6 (by decide)).trans ((W2_keep m ρ c main_arg6 (by decide)).trans (W1_keep m ρ c main_arg6 (by decide))))))))).trans rfl
theorem walk9_arg7 (c : Dev nD) : W9 m ρ c (Proc.devRef .tc main_arg7) = m ((c : Thread nD τ).loc main_arg7) :=
  ((W9_of_ne m ρ c main_arg7 (by decide)).trans ((W8_of_ne m ρ c main_arg7 (by decide)).trans ((W7_keep m ρ c main_arg7 (by decide)).trans ((W6_of_ne m ρ c main_arg7 (by decide)).trans ((W5_keep m ρ c main_arg7 (by decide)).trans ((W4_of_ne m ρ c main_arg7 (by decide)).trans ((W3_keep m ρ c main_arg7 (by decide)).trans ((W2_keep m ρ c main_arg7 (by decide)).trans (W1_keep m ρ c main_arg7 (by decide)))))))))).trans rfl
theorem walk11_arg8 (c : Dev nD) : W11 m ρ c (Proc.devRef .tc main_arg8) = m ((c : Thread nD τ).loc main_arg8) :=
  ((W11_of_ne m ρ c main_arg8 (by decide)).trans ((W10_keep m ρ c main_arg8 (by decide)).trans ((W9_of_ne m ρ c main_arg8 (by decide)).trans ((W8_of_ne m ρ c main_arg8 (by decide)).trans ((W7_keep m ρ c main_arg8 (by decide)).trans ((W6_of_ne m ρ c main_arg8 (by decide)).trans ((W5_keep m ρ c main_arg8 (by decide)).trans ((W4_of_ne m ρ c main_arg8 (by decide)).trans ((W3_keep m ρ c main_arg8 (by decide)).trans ((W2_keep m ρ c main_arg8 (by decide)).trans (W1_keep m ρ c main_arg8 (by decide)))))))))))).trans rfl
theorem walk11_arg9 (c : Dev nD) : W11 m ρ c (Proc.devRef .tc main_arg9) = m ((c : Thread nD τ).loc main_arg9) :=
  ((W11_of_ne m ρ c main_arg9 (by decide)).trans ((W10_keep m ρ c main_arg9 (by decide)).trans ((W9_of_ne m ρ c main_arg9 (by decide)).trans ((W8_of_ne m ρ c main_arg9 (by decide)).trans ((W7_keep m ρ c main_arg9 (by decide)).trans ((W6_of_ne m ρ c main_arg9 (by decide)).trans ((W5_keep m ρ c main_arg9 (by decide)).trans ((W4_of_ne m ρ c main_arg9 (by decide)).trans ((W3_keep m ρ c main_arg9 (by decide)).trans ((W2_keep m ρ c main_arg9 (by decide)).trans (W1_keep m ρ c main_arg9 (by decide)))))))))))).trans rfl
theorem walk13_arg10 (c : Dev nD) : W13 m ρ c (Proc.devRef .tc main_arg10) = m ((c : Thread nD τ).loc main_arg10) :=
  ((W13_of_ne m ρ c main_arg10 (by decide)).trans ((W12_keep m ρ c main_arg10 (by decide)).trans ((W11_of_ne m ρ c main_arg10 (by decide)).trans ((W10_keep m ρ c main_arg10 (by decide)).trans ((W9_of_ne m ρ c main_arg10 (by decide)).trans ((W8_of_ne m ρ c main_arg10 (by decide)).trans ((W7_keep m ρ c main_arg10 (by decide)).trans ((W6_of_ne m ρ c main_arg10 (by decide)).trans ((W5_keep m ρ c main_arg10 (by decide)).trans ((W4_of_ne m ρ c main_arg10 (by decide)).trans ((W3_keep m ρ c main_arg10 (by decide)).trans ((W2_keep m ρ c main_arg10 (by decide)).trans (W1_keep m ρ c main_arg10 (by decide)))))))))))))).trans rfl
theorem walk14_arg11 (c : Dev nD) : W14 m ρ c (Proc.devRef .tc main_arg11) = m ((c : Thread nD τ).loc main_arg11) :=
  ((W14_of_ne m ρ c main_arg11 (by decide)).trans ((W13_of_ne m ρ c main_arg11 (by decide)).trans ((W12_keep m ρ c main_arg11 (by decide)).trans ((W11_of_ne m ρ c main_arg11 (by decide)).trans ((W10_keep m ρ c main_arg11 (by decide)).trans ((W9_of_ne m ρ c main_arg11 (by decide)).trans ((W8_of_ne m ρ c main_arg11 (by decide)).trans ((W7_keep m ρ c main_arg11 (by decide)).trans ((W6_of_ne m ρ c main_arg11 (by decide)).trans ((W5_keep m ρ c main_arg11 (by decide)).trans ((W4_of_ne m ρ c main_arg11 (by decide)).trans ((W3_keep m ρ c main_arg11 (by decide)).trans ((W2_keep m ρ c main_arg11 (by decide)).trans (W1_keep m ρ c main_arg11 (by decide))))))))))))))).trans rfl

end Cert.KernelIdeal.Val

end
-- ==== Proof.GcnSpec.lean ====
/-
  Three graph-convolution layers with batch normalisation between them, as plain mathematics on the
  extended reals. Nothing here mentions a program: arrays are functions of an index, a matrix product is a
  finite sum of products, a column's mean and variance are sums over the rows divided by the row count,
  and the normalised, rectified layer is one pointwise expression of them. Two spellings of the variance
  appear: the mean of the squares minus the square of the mean, and the mean of the squared deviations.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- An `a × b` array of extended reals. -/
abbrev Arr2 (a b : ℕ) : Type := (⟨2, ![a, b]⟩ : Shape).Idx → EReal
/-- A vector of `a` extended reals. -/
abbrev Arr1 (a : ℕ) : Type := (⟨1, ![a]⟩ : Shape).Idx → EReal

/-- The row count `50000`, as the single-precision word both programs spell. -/
def nF : EReal := Ideal.ofBits .f32 0x47435000#32
/-- The stabiliser added to a variance, as the single-precision word both programs spell. -/
def epsF : EReal := Ideal.ofBits .f32 0x3727C5AC#32
/-- The word of `+0.0`. -/
def zeroF : EReal := Ideal.ofBits .f32 0x00000000#32

/-- The matrix product: entry `(r, c)` is the sum over `k` of `x (r, k) · w (k, c)`. -/
def lin {A K B : ℕ} (x : Arr2 A K) (w : Arr2 K B) : Arr2 A B :=
  fun j => ∑ k : Fin K, x (ix2 (j 0 : Fin A) k) * w (ix2 k (j 1 : Fin B))

theorem lin_apply {A K B : ℕ} (x : Arr2 A K) (w : Arr2 K B) (r : Fin A) (c : Fin B) :
    lin x w (ix2 r c) = ∑ k : Fin K, x (ix2 r k) * w (ix2 k c) := rfl

/-- The sum of column `c` over all rows. -/
def colSum {A B : ℕ} (x : Arr2 A B) (c : Fin B) : EReal := ∑ r : Fin A, x (ix2 r c)
/-- The sum of the squares of column `c` over all rows. -/
def colSumSq {A B : ℕ} (x : Arr2 A B) (c : Fin B) : EReal := ∑ r : Fin A, x (ix2 r c) * x (ix2 r c)

/-- The column mean: the column sum divided by the row count's word. -/
def mean {A B : ℕ} (x : Arr2 A B) (c : Fin B) : EReal := Ideal.div (colSum x c) nF
/-- The variance as the mean of the squares minus the square of the mean. -/
def varSq {A B : ℕ} (x : Arr2 A B) (c : Fin B) : EReal := Ideal.div (colSumSq x c) nF - mean x c * mean x c
/-- The variance as the mean of the squared deviations from the mean. -/
def varDev {A B : ℕ} (x : Arr2 A B) (c : Fin B) : EReal :=
  Ideal.div (∑ r : Fin A, (x (ix2 r c) - mean x c) * (x (ix2 r c) - mean x c)) nF

/-- Normalise column-wise by a given mean and variance, scale by `g`, shift by `be`, rectify:
    `max ((g c · (x (r, c) − mean c)) · rsqrt (var c + ε) + be c) 0`. -/
def bnrelu {A B : ℕ} (x : Arr2 A B) (mu var g be : Fin B → EReal) : Arr2 A B :=
  fun j => max ((g (j 1 : Fin B) * (x j - mu (j 1 : Fin B))) * Ideal.rsqrt (var (j 1 : Fin B) + epsF) + be (j 1 : Fin B)) zeroF

theorem bnrelu_apply {A B : ℕ} (x : Arr2 A B) (mu var g be : Fin B → EReal) (r : Fin A) (c : Fin B) :
    bnrelu x mu var g be (ix2 r c) = max ((g c * (x (ix2 r c) - mu c)) * Ideal.rsqrt (var c + epsF) + be c) zeroF := rfl

/-- The layer with the variance spelt through the squares. -/
def bnSq {A B : ℕ} (x : Arr2 A B) (g be : Fin B → EReal) : Arr2 A B := bnrelu x (mean x) (varSq x) g be
/-- The layer with the variance spelt through the deviations. -/
def bnDev {A B : ℕ} (x : Arr2 A B) (g be : Fin B → EReal) : Arr2 A B := bnrelu x (mean x) (varDev x) g be

/-- Every entry is a real number. -/
def AllReal {ι : Type} (f : ι → EReal) : Prop := ∀ i, ∃ r : ℝ, f i = (r : EReal)

end Cert.Gcn

end
-- ==== Proof.KerSpec.lean ====
/-
  The host side of the idealized kernel program, stage by stage, in the program's own spelling at the ideal
  values: the edge list with self loops appended, the weight of every edge, the aggregation (gather the
  source rows, scale by the edge weight, add into the destination rows, add the bias) at widths 128 and 64,
  and the small row computations between the statistics region and the normalising region: the mean row,
  the variance row as the mean of the squares minus the square of the mean, a vector re-cast as a row.
-/
import proofs.«173831_j84808424227048_1_alg».proof.KernelIdeal
import proofs.«173831_j84808424227048_1_alg».proof.Proof.Gen.KernelIdeal
import proofs.«173831_j84808424227048_1_alg».proof.Proof.GcnSpec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.ValueIdx Cert.KernelIdeal Cert.KernelIdeal.Gen Cert.Gcn

/-- Row 0 of the edge list (the sources), then the self loops `0 … 49999`. -/
def srcIdx (ei : IVec S2x600000 32) : IVec S650000 32 :=
  (fun (a : IVec S600000 32) (b : IVec S50000 32) => concatenate S650000 0 [⟨S600000, a⟩, ⟨S50000, b⟩] concatenates_S600000_S50000_S650000_d0)
    (shapeCast S600000 (extractStridedSlice S1x600000 ![0, 0] ei slices_S2x600000_S1x600000_0_0) shapeCasts_S1x600000_S600000)
    (iotaInDim S50000 32 0)

/-- Row 1 of the edge list (the destinations), then the self loops. -/
def dstIdx (ei : IVec S2x600000 32) : IVec S650000 32 :=
  (fun (a : IVec S600000 32) (b : IVec S50000 32) => concatenate S650000 0 [⟨S600000, a⟩, ⟨S50000, b⟩] concatenates_S600000_S50000_S650000_d0)
    (shapeCast S600000 (extractStridedSlice S1x600000 ![1, 0] ei slices_S2x600000_S1x600000_1_0) shapeCasts_S1x600000_S600000)
    (iotaInDim S50000 32 0)

/-- An index list as a column of start indices, a negative index wrapped by `+ 50000` first. -/
def wrapCol (s : IVec S650000 32) : IVec S650000x1 32 :=
  broadcastInDim S650000x1 ![0] bcast_S650000_S650000x1_0
    (select (cmpi .slt s (broadcastInDim S650000 ![] bcast_S_S650000 (constantI S_ 32 0#32)))
      (addi s (broadcastInDim S650000 ![] bcast_S_S650000 (constantI S_ 32 50000#32))) s)

/-- An index list as a column of scatter indices. -/
def col (d : IVec S650000 32) : IVec S650000x1 32 := broadcastInDim S650000x1 ![0] bcast_S650000_S650000x1_0 d

/-- The in-degree of every node (self loop included): ones added at the destinations. -/
def degOf (d : IVec S650000 32) : FVec Ideal S50000 .f32 :=
  Host.scatterAdd scatter_S50000_S650000x1_S650000_n_0_0_1
    (broadcastInDim S50000 ![] bcast_S_S50000 (constant S_ .f32 0x00000000#32)) (col d)
    (broadcastInDim S650000 ![] bcast_S_S650000 (constant S_ .f32 0x3F800000#32))

/-- `deg^(-1/2)` where the degree is positive, else zero. -/
def dinvOf (d : IVec S650000 32) : FVec Ideal S50000 .f32 :=
  select (cmpf .ogt (degOf d) (broadcastInDim S50000 ![] bcast_S_S50000 (constant S_ .f32 0x00000000#32)))
    (Host.rsqrt (degOf d)) (broadcastInDim S50000 ![] bcast_S_S50000 (constant S_ .f32 0x00000000#32))

/-- The weight of every edge: `dinv` at its source times `dinv` at its destination. -/
def normOf (s d : IVec S650000 32) : FVec Ideal S650000 .f32 :=
  mulf (Host.gather gather_S50000_S650000x1_S650000_n_0_n_n_0_1_1 (dinvOf d) (wrapCol s))
    (Host.gather gather_S50000_S650000x1_S650000_n_0_n_n_0_1_1 (dinvOf d) (wrapCol d))

/-- Aggregation at width 128: the rows of `h` at the sources, each scaled by its edge's weight, added into
    the destination rows of a zero array; then the bias row added to every row. -/
def aggr128 (s d : IVec S650000 32) (nm : FVec Ideal S650000 .f32) (h : FVec Ideal S50000x128 .f32) (b : FVec Ideal S128 .f32) :
    FVec Ideal S50000x128 .f32 :=
  addf
    (Host.scatterAdd scatter_S50000x128_S650000x1_S650000x128_1_0_0_1
      (broadcastInDim S50000x128 ![] bcast_S_S50000x128 (constant S_ .f32 0x00000000#32)) (col d)
      (mulf (Host.gather gather_S50000x128_S650000x1_S650000x128_1_0_n_n_0_1_1128 h (wrapCol s))
        (broadcastInDim S650000x128 ![0, 1] bcast_S650000x1_S650000x128_0_1 (broadcastInDim S650000x1 ![0] bcast_S650000_S650000x1_0 nm))))
    (broadcastInDim S50000x128 ![0, 1] bcast_S1x128_S50000x128_0_1 (broadcastInDim S1x128 ![1] bcast_S128_S1x128_1 b))

/-- Aggregation at width 64. -/
def aggr64 (s d : IVec S650000 32) (nm : FVec Ideal S650000 .f32) (h : FVec Ideal S50000x64 .f32) (b : FVec Ideal S64 .f32) :
    FVec Ideal S50000x64 .f32 :=
  addf
    (Host.scatterAdd scatter_S50000x64_S650000x1_S650000x64_1_0_0_1
      (broadcastInDim S50000x64 ![] bcast_S_S50000x64 (constant S_ .f32 0x00000000#32)) (col d)
      (mulf (Host.gather gather_S50000x64_S650000x1_S650000x64_1_0_n_n_0_1_164 h (wrapCol s))
        (broadcastInDim S650000x64 ![0, 1] bcast_S650000x1_S650000x64_0_1 (broadcastInDim S650000x1 ![0] bcast_S650000_S650000x1_0 nm))))
    (broadcastInDim S50000x64 ![0, 1] bcast_S1x64_S50000x64_0_1 (broadcastInDim S1x64 ![1] bcast_S64_S1x64_1 b))

/-- A [1,128] row of column sums divided by the row count: the mean row. -/
def meanRow (s : FVec Ideal S1x128 .f32) : FVec Ideal S1x128 .f32 :=
  Host.divf s (broadcastInDim S1x128 ![] bcast_S_S1x128 (constant S_ .f32 0x47435000#32))

/-- The variance row: the mean of the squares minus the square of the mean. -/
def varRow (s1 s2 : FVec Ideal S1x128 .f32) : FVec Ideal S1x128 .f32 :=
  subf (Host.divf s2 (broadcastInDim S1x128 ![] bcast_S_S1x128 (constant S_ .f32 0x47435000#32))) (mulf (meanRow s1) (meanRow s1))

/-- A vector of 128 re-cast as a [1,128] row. -/
def asRow (g : FVec Ideal S128 .f32) : FVec Ideal S1x128 .f32 := shapeCast S1x128 g shapeCasts_S128_S1x128

end Cert.KernelIdeal.Val

end
-- ==== Proof.KerRead.lean ====
/-
  The host stretches of the idealized kernel program read as functions. After a stretch, the buffer holding its
  result is the composed function of the stretch's operations applied to the buffers it reads: the index lists
  and the edge weights from the edge list; the aggregation from the index lists, the weights, the product and
  the bias; the mean and variance rows from the two statistics rows; a scale or shift vector as a row. The
  rows are then read entry by entry: a mean entry is the column sum over the row count, a variance entry the
  mean of the squares minus the square of the mean, a re-cast vector's entry the vector's.
-/
import proofs.«173831_j84808424227048_1_alg».proof.Proof.Gen.KernelIdeal.Launch
import proofs.«173831_j84808424227048_1_alg».proof.Proof.KerSpec
import Idealize.ShloMosaic.Lib.StableHlo.Run

noncomputable section

namespace Cert.KernelIdeal.Val

open Idealize.ShloMosaic Idealize.ShloMosaic.ValueIdx Idealize.SL.Sem Cert.KernelIdeal Cert.KernelIdeal.Gen Cert.Gcn
open Idealize.ShloMosaic.StableHlo

variable (W : Valuation τ sig (Elt Ideal))

/-! ## The first three stretches: the index lists, the degrees' inverse square roots, the edge weights -/

theorem rdA_v5 : (after (hostOps0 (F := Ideal)) W (Proc.devRef .tc main_v5) : IVec S650000 32) = srcIdx (W (Proc.devRef .tc main_arg1)) := by
  after_results_simp
  rfl

theorem rdA_v6 : (after (hostOps0 (F := Ideal)) W (Proc.devRef .tc main_v6) : IVec S650000 32) = dstIdx (W (Proc.devRef .tc main_arg1)) := by
  after_results_simp
  rfl

theorem rdA_v12 : (after (hostOps0 (F := Ideal)) W (Proc.devRef .tc main_v12) : IVec S50000 1)
    = cmpf .ogt (degOf (dstIdx (W (Proc.devRef .tc main_arg1)))) (broadcastInDim S50000 ![] bcast_S_S50000 (constant S_ .f32 0x00000000#32)) := by
  after_results_simp
  rfl

theorem rdA_v13 : (after (hostOps0 (F := Ideal)) W (Proc.devRef .tc main_v13) : FVec Ideal S50000 .f32)
    = Host.rsqrt (degOf (dstIdx (W (Proc.devRef .tc main_arg1)))) := by
  after_results_simp
  rfl

theorem rdA_cst_2 : (after (hostOps0 (F := Ideal)) W (Proc.devRef .tc main_cst_2) : FVec Ideal S_ .f32) = constant (F := Ideal) S_ .f32 0x00000000#32 := by
  after_results_simp

theorem rdB_v14 : (after (hostOps0_1 (F := Ideal)) W (Proc.devRef .tc main_v14) : FVec Ideal S50000 .f32)
    = select (W (Proc.devRef .tc main_v12) : IVec S50000 1) (W (Proc.devRef .tc main_v13) : FVec Ideal S50000 .f32)
        (broadcastInDim S50000 ![] bcast_S_S50000 (W (Proc.devRef .tc main_cst_2) : FVec Ideal S_ .f32)) := by
  after_results_simp
  rfl

/-- The edge weights from the inverse square roots and the two index lists. -/
def normFrom (dinv : FVec Ideal S50000 .f32) (s d : IVec S650000 32) : FVec Ideal S650000 .f32 :=
  mulf (Host.gather gather_S50000_S650000x1_S650000_n_0_n_n_0_1_1 dinv (wrapCol s))
    (Host.gather gather_S50000_S650000x1_S650000_n_0_n_n_0_1_1 dinv (wrapCol d))

theorem normOf_eq (s d : IVec S650000 32) : normOf s d = normFrom (dinvOf d) s d := rfl

theorem rdC_v29 : (after (hostOps0_2 (F := Ideal)) W (Proc.devRef .tc main_v29) : FVec Ideal S650000 .f32)
    = normFrom (W (Proc.devRef .tc main_v14)) (W (Proc.devRef .tc main_v5)) (W (Proc.devRef .tc main_v6)) := by
  after_results_simp
  rfl

/-! ## The three aggregations -/

theorem rd1_v46 :
    (after (hostOps1 (F := Ideal)) W (Proc.devRef .tc main_v46) : FVec Ideal S50000x128 .f32)
      = aggr128 (W (Proc.devRef .tc main_v5)) (W (Proc.devRef .tc main_v6)) (W (Proc.devRef .tc main_v29))
          (W (Proc.devRef .tc main_v30)) (W (Proc.devRef .tc main_arg3)) := by
  after_results_simp
  rfl

theorem rd4_v73 :
    (after (hostOps4 (F := Ideal)) W (Proc.devRef .tc main_v73) : FVec Ideal S50000x128 .f32)
      = aggr128 (W (Proc.devRef .tc main_v5)) (W (Proc.devRef .tc main_v6)) (W (Proc.devRef .tc main_v29))
          (W (Proc.devRef .tc main_v57)) (W (Proc.devRef .tc main_arg7)) := by
  after_results_simp
  rfl

theorem rd7_v100 :
    (after (hostOps7 (F := Ideal)) W (Proc.devRef .tc main_v100) : FVec Ideal S50000x64 .f32)
      = aggr64 (W (Proc.devRef .tc main_v5)) (W (Proc.devRef .tc main_v6)) (W (Proc.devRef .tc main_v29))
          (W (Proc.devRef .tc main_v84)) (W (Proc.devRef .tc main_arg11)) := by
  after_results_simp
  rfl

/-! ## The statistics rows and the scale and shift rows -/

theorem rd2_v49 : (after (hostOps2 (F := Ideal)) W (Proc.devRef .tc main_v49) : FVec Ideal S1x128 .f32) = meanRow (W (Proc.devRef .tc main_v47_0)) := by
  after_results_simp
  rfl
theorem rd2_v53 : (after (hostOps2 (F := Ideal)) W (Proc.devRef .tc main_v53) : FVec Ideal S1x128 .f32)
      = varRow (W (Proc.devRef .tc main_v47_0)) (W (Proc.devRef .tc main_v47_1)) := by
  after_results_simp
  rfl
theorem rd2_v54 : (after (hostOps2 (F := Ideal)) W (Proc.devRef .tc main_v54) : FVec Ideal S1x128 .f32) = asRow (W (Proc.devRef .tc main_arg4)) := by
  after_results_simp
  rfl
theorem rd2_v55 : (after (hostOps2 (F := Ideal)) W (Proc.devRef .tc main_v55) : FVec Ideal S1x128 .f32) = asRow (W (Proc.devRef .tc main_arg5)) := by
  after_results_simp
  rfl
theorem rd5_v76 : (after (hostOps5 (F := Ideal)) W (Proc.devRef .tc main_v76) : FVec Ideal S1x128 .f32) = meanRow (W (Proc.devRef .tc main_v74_0)) := by
  after_results_simp
  rfl
theorem rd5_v80 : (after (hostOps5 (F := Ideal)) W (Proc.devRef .tc main_v80) : FVec Ideal S1x128 .f32)
      = varRow (W (Proc.devRef .tc main_v74_0)) (W (Proc.devRef .tc main_v74_1)) := by
  after_results_simp
  rfl
theorem rd5_v81 : (after (hostOps5 (F := Ideal)) W (Proc.devRef .tc main_v81) : FVec Ideal S1x128 .f32) = asRow (W (Proc.devRef .tc main_arg8)) := by
  after_results_simp
  rfl
theorem rd5_v82 : (after (hostOps5 (F := Ideal)) W (Proc.devRef .tc main_v82) : FVec Ideal S1x128 .f32) = asRow (W (Proc.devRef .tc main_arg9)) := by
  after_results_simp
  rfl

/-! ## The rows read entry by entry -/

theorem meanRow_apply (s : FVec Ideal S1x128 .f32) (k : Fin 128) :
    meanRow s (ix2 (0 : Fin 1) k) = Ideal.div (s (ix2 (0 : Fin 1) k)) nF := rfl

theorem varRow_apply (s1 s2 : FVec Ideal S1x128 .f32) (k : Fin 128) :
    varRow s1 s2 (ix2 (0 : Fin 1) k)
      = Ideal.div (s2 (ix2 (0 : Fin 1) k)) nF - Ideal.div (s1 (ix2 (0 : Fin 1) k)) nF * Ideal.div (s1 (ix2 (0 : Fin 1) k)) nF := rfl

theorem asRow_apply (g : FVec Ideal S128 .f32) (k : Fin 128) : asRow g (ix2 (0 : Fin 1) k) = g (ix1 k) :=
  shapeCast_a_1a_apply g shapeCasts_S128_S1x128 0 k

/-! ## The normalised, rectified layer as the kernel program computes it, and the whole composition -/

/-- The layer from the statistics rows: the mean row and the variance row from the column sums and sums of
    squares, the scale and shift vectors as rows. -/
def bnStage (h : Arr2 50000 128) (g be : FVec Ideal S128 .f32) : Arr2 50000 128 :=
  bnrelu h (fun k => meanRow (fun j => colSum h (j 1 : Fin 128)) (ix2 (0 : Fin 1) k))
    (fun k => varRow (fun j => colSum h (j 1 : Fin 128)) (fun j => colSumSq h (j 1 : Fin 128)) (ix2 (0 : Fin 1) k))
    (fun k => asRow g (ix2 (0 : Fin 1) k)) (fun k => asRow be (ix2 (0 : Fin 1) k))

/-- It is the layer with the variance spelt as the mean of the squares minus the square of the mean. -/
theorem bnStage_eq (h : Arr2 50000 128) (g be : FVec Ideal S128 .f32) :
    bnStage h g be = bnSq h (fun k => g (ix1 k)) (fun k => be (ix1 k)) := by
  unfold bnStage bnSq
  have e1 : (fun k : Fin 128 => meanRow (fun j => colSum h (j 1 : Fin 128)) (ix2 (0 : Fin 1) k)) = mean h :=
    funext fun k => (meanRow_apply _ k).trans rfl
  have e2 : (fun k : Fin 128 => varRow (fun j => colSum h (j 1 : Fin 128)) (fun j => colSumSq h (j 1 : Fin 128)) (ix2 (0 : Fin 1) k)) = varSq h :=
    funext fun k => (varRow_apply _ _ k).trans rfl
  have e3 : (fun k : Fin 128 => asRow g (ix2 (0 : Fin 1) k)) = fun k => g (ix1 k) := funext fun k => asRow_apply g k
  have e4 : (fun k : Fin 128 => asRow be (ix2 (0 : Fin 1) k)) = fun k => be (ix1 k) := funext fun k => asRow_apply be k
  rw [e1, e2, e3, e4]

/-- The kernel program's result as one function of its twelve arguments: three layers. -/
def outKer (x : FVec Ideal S50000x128 .f32) (ei : IVec S2x600000 32) (W1 : FVec Ideal S128x128 .f32) (b1 g1 be1 : FVec Ideal S128 .f32)
    (W2 : FVec Ideal S128x128 .f32) (b2 g2 be2 : FVec Ideal S128 .f32) (W3 : FVec Ideal S128x64 .f32) (b3 : FVec Ideal S64 .f32) :
    Arr2 50000 64 :=
  aggr64 (srcIdx ei) (dstIdx ei) (normOf (srcIdx ei) (dstIdx ei))
    (lin
      (bnStage
        (aggr128 (srcIdx ei) (dstIdx ei) (normOf (srcIdx ei) (dstIdx ei))
          (lin
            (bnStage (aggr128 (srcIdx ei) (dstIdx ei) (normOf (srcIdx ei) (dstIdx ei)) (lin (x : Arr2 50000 128) (W1 : Arr2 128 128)) b1) g1 be1)
            (W2 : Arr2 128 128))
          b2)
        g2 be2)
      (W3 : Arr2 128 64))
    b3

end Cert.KernelIdeal.Val

end
-- ==== Proof.LibGcnAlgebra.lean ====
/-
  Algebra on the extended reals for a normalised layer, with no program in sight. Sums, products,
  differences and maxima of reals stay real; the row count's word is the real 50000, the word of +0.0
  is zero and the stabiliser's word a positive real. On real entries the mean of the squared deviations
  from the mean equals the mean of the squares minus the square of the mean: on reals the usual expansion
  of a square is available, whereas on the extended reals distributivity and cancellation fail at the
  infinities, so every step first names real witnesses, pushes the coercion outwards and finishes in ℝ.
-/
import proofs.«173831_j84808424227048_1_alg».proof.Proof.GcnSpec
import Mathlib

noncomputable section

namespace Cert.Gcn

open Idealize.ShloMosaic Idealize.ShloMosaic.ValueIdx

/-! ## The three words, and sums of coercions -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The row count's word denotes the real number 50000. -/
theorem nF_eq : nF = ((50000 : ℝ) : EReal) := by
  simp [nF, Ideal.ofBits, Ideal.ieee, -EReal.coe_mul]; norm_num

/-- The word of +0.0 denotes zero. -/
theorem zeroF_eq : zeroF = 0 := by
  simp [zeroF, Ideal.ofBits, Ideal.ieee]

/-- The stabiliser's word denotes a positive real. -/
theorem epsF_pos : ∃ e : ℝ, 0 < e ∧ epsF = (e : EReal) := by
  refine ⟨(10995116 : ℝ) * (2 : ℝ) ^ (-40 : ℤ), by positivity, ?_⟩
  simp [epsF, Ideal.ofBits, Ideal.ieee, -EReal.coe_mul]

/-! ## Sums, differences, products and maxima of reals are real -/

/-- Re-indexing keeps every entry real. -/
theorem AllReal.comp {ι κ : Type} {f : ι → EReal} (hf : AllReal f) (σ : κ → ι) :
    AllReal (fun k => f (σ k)) := fun k => hf (σ k)

/-- The sum of two reals is a real. -/
theorem real_add {x y : EReal} (hx : ∃ a : ℝ, x = a) (hy : ∃ b : ℝ, y = b) : ∃ r : ℝ, x + y = r := by
  obtain ⟨a, rfl⟩ := hx; obtain ⟨b, rfl⟩ := hy; exact ⟨a + b, (EReal.coe_add a b).symm⟩

/-- The difference of two reals is a real. -/
theorem real_sub {x y : EReal} (hx : ∃ a : ℝ, x = a) (hy : ∃ b : ℝ, y = b) : ∃ r : ℝ, x - y = r := by
  obtain ⟨a, rfl⟩ := hx; obtain ⟨b, rfl⟩ := hy; exact ⟨a - b, (EReal.coe_sub a b).symm⟩

/-- The product of two reals is a real. -/
theorem real_mul {x y : EReal} (hx : ∃ a : ℝ, x = a) (hy : ∃ b : ℝ, y = b) : ∃ r : ℝ, x * y = r := by
  obtain ⟨a, rfl⟩ := hx; obtain ⟨b, rfl⟩ := hy; exact ⟨a * b, (EReal.coe_mul a b).symm⟩

/-- A finite sum of reals is a real. -/
theorem real_sum {ι : Type*} (s : Finset ι) (f : ι → EReal) (h : ∀ i ∈ s, ∃ r : ℝ, f i = r) :
    ∃ r : ℝ, ∑ i ∈ s, f i = r := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-- The larger of two reals is a real. -/
theorem real_max {x y : EReal} (hx : ∃ a : ℝ, x = a) (hy : ∃ b : ℝ, y = b) : ∃ r : ℝ, max x y = r := by
  rcases le_total x y with h | h
  · rw [max_eq_right h]; exact hy
  · rw [max_eq_left h]; exact hx

/-- A real divided by the row count is that real times the reciprocal of 50000. -/
theorem div_nF_coe (a : ℝ) : Ideal.div (a : EReal) nF = ((a * (1 / 50000) : ℝ) : EReal) := by
  rw [nF_eq, Ideal.div_coe (by norm_num), ← EReal.coe_mul]

/-- A real divided by the row count is a real. -/
theorem real_div_nF {x : EReal} (hx : ∃ a : ℝ, x = a) : ∃ r : ℝ, Ideal.div x nF = r := by
  obtain ⟨a, rfl⟩ := hx; exact ⟨_, div_nF_coe a⟩

/-- The reciprocal square root of a positive real is a real. -/
theorem real_rsqrt_of_pos {r : ℝ} (hr : 0 < r) : ∃ q : ℝ, Ideal.rsqrt (r : EReal) = q := by
  refine ⟨(Real.sqrt r)⁻¹, ?_⟩
  rw [Ideal.rsqrt_coe, if_neg (not_lt.mpr hr.le), if_neg hr.ne']

/-- A matrix product of real matrices has real entries. -/
theorem AllReal.lin {A K B : ℕ} {x : Arr2 A K} {w : Arr2 K B} (hx : AllReal x) (hw : AllReal w) :
    AllReal (lin x w) := by
  intro j
  unfold Cert.Gcn.lin
  exact real_sum _ _ fun k _ => real_mul (hx _) (hw _)

/-! ## The degree normalisation and the scatter-add keep entries real -/

/-- Selecting the reciprocal square root where a real is above zero, and zero elsewhere, gives a real. -/
theorem real_select_gt_rsqrt (d : EReal) (hd : ∃ r : ℝ, d = r) :
    ∃ q : ℝ, Scalar.select (Ideal.cmp .ogt d zeroF) (Ideal.rsqrt d) zeroF = q := by
  obtain ⟨r, rfl⟩ := hd
  by_cases h : zeroF < (r : EReal)
  · have hc : Ideal.cmp .ogt (r : EReal) zeroF = 1#1 := by simp [Ideal.cmp, h]
    rw [hc, select_one]
    rw [zeroF_eq] at h
    exact real_rsqrt_of_pos (by exact_mod_cast h)
  · have hc : Ideal.cmp .ogt (r : EReal) zeroF = 0#1 := by simp [Ideal.cmp, h]
    rw [hc, select_zero]
    exact ⟨0, zeroF_eq.trans EReal.coe_zero.symm⟩

/-- A scatter-add of real updates into a real operand has real entries: each entry is the operand's
    entry plus a finite sum of update entries. -/
theorem allReal_hostScatterAdd {s si su : Shape} (d : ScatterDims s si su) {w : ℕ} (x : s.Idx → EReal)
    (idx : IVec si w) (upd : su.Idx → EReal) (hx : AllReal x) (hu : AllReal upd) :
    AllReal (Ideal.hostScatterAdd d x idx upd) := by
  intro i
  unfold Ideal.hostScatterAdd
  exact real_add (hx i) (real_sum _ _ fun j _ => hu j)

/-! ## The variance identity, for exactly 50000 rows -/

/-- On reals: the mean of the squared deviations from the mean is the mean of the squares minus the
    square of the mean, for 50000 terms. -/
theorem real_var_identity (f : Fin 50000 → ℝ) :
    (∑ r, (f r - (∑ r, f r) * (1 / 50000)) * (f r - (∑ r, f r) * (1 / 50000))) * (1 / 50000)
      = (∑ r, f r * f r) * (1 / 50000) - ((∑ r, f r) * (1 / 50000)) * ((∑ r, f r) * (1 / 50000)) := by
  generalize hS : (∑ r, f r) = S
  have h : ∀ r, (f r - S * (1 / 50000)) * (f r - S * (1 / 50000))
      = f r * f r - (2 * (S * (1 / 50000))) * f r + (S * (1 / 50000)) * (S * (1 / 50000)) := fun r => by ring
  simp only [h]
  rw [Finset.sum_add_distrib, Finset.sum_sub_distrib, ← Finset.mul_sum, Finset.sum_const, Finset.card_univ,
    Fintype.card_fin, hS, nsmul_eq_mul]
  push_cast
  ring

/-- The column mean of real entries, as a real. -/
theorem mean_coe {B : ℕ} (x : Arr2 50000 B) (c : Fin B) (f : Fin 50000 → ℝ) (hf : ∀ r, x (ix2 r c) = f r) :
    mean x c = (((∑ r, f r) * (1 / 50000) : ℝ) : EReal) := by
  unfold mean colSum
  simp only [hf]
  rw [← coe_finset_sum, div_nF_coe]

/-- The deviation form of the variance of real entries, as a real. -/
theorem varDev_coe {B : ℕ} (x : Arr2 50000 B) (c : Fin B) (f : Fin 50000 → ℝ) (hf : ∀ r, x (ix2 r c) = f r) :
    varDev x c = (((∑ r, (f r - (∑ r, f r) * (1 / 50000)) * (f r - (∑ r, f r) * (1 / 50000))) * (1 / 50000) : ℝ) : EReal) := by
  unfold varDev
  rw [mean_coe x c f hf]
  simp only [hf, ← EReal.coe_sub, ← EReal.coe_mul]
  rw [← coe_finset_sum, div_nF_coe]

/-- The squares form of the variance of real entries, as a real. -/
theorem varSq_coe {B : ℕ} (x : Arr2 50000 B) (c : Fin B) (f : Fin 50000 → ℝ) (hf : ∀ r, x (ix2 r c) = f r) :
    varSq x c = (((∑ r, f r * f r) * (1 / 50000) - ((∑ r, f r) * (1 / 50000)) * ((∑ r, f r) * (1 / 50000)) : ℝ) : EReal) := by
  unfold varSq colSumSq
  rw [mean_coe x c f hf]
  simp only [hf, ← EReal.coe_mul]
  rw [← coe_finset_sum, div_nF_coe, ← EReal.coe_sub]

/-- On real entries the two spellings of the variance agree. -/
theorem varDev_eq_varSq {B : ℕ} (x : Arr2 50000 B) (hx : AllReal x) (c : Fin B) : varDev x c = varSq x c := by
  choose f hf using fun r : Fin 50000 => hx (ix2 r c)
  rw [varDev_coe x c f hf, varSq_coe x c f hf, real_var_identity]

/-- On real entries the variance is a non-negative real. -/
theorem varDev_nonneg {B : ℕ} (x : Arr2 50000 B) (hx : AllReal x) (c : Fin B) :
    ∃ v : ℝ, 0 ≤ v ∧ varDev x c = v := by
  choose f hf using fun r : Fin 50000 => hx (ix2 r c)
  exact ⟨_, mul_nonneg (Finset.sum_nonneg fun r _ => mul_self_nonneg _) (by norm_num), varDev_coe x c f hf⟩

/-- On real entries the layer is the same whichever spelling of the variance it uses. -/
theorem bnSq_eq_bnDev {B : ℕ} (x : Arr2 50000 B) (hx : AllReal x) (g be : Fin B → EReal) :
    bnSq x g be = bnDev x g be := by
  have h : varSq x = varDev x := funext fun c => (varDev_eq_varSq x hx c).symm
  rw [bnSq, bnDev, h]

/-! ## The normalised layer keeps entries real -/

/-- The normalised, rectified layer of real entries with real scale and shift has real entries: the
    variance is a non-negative real and the stabiliser a positive real, so their sum is a positive real
    and its reciprocal square root a real; sums, differences, products and maxima of reals are real. -/
theorem AllReal.bnDev {B : ℕ} {x : Arr2 50000 B} {g be : Fin B → EReal} (hx : AllReal x) (hg : AllReal g)
    (hbe : AllReal be) : AllReal (bnDev x g be) := by
  intro j
  unfold Cert.Gcn.bnDev bnrelu
  obtain ⟨v, hv0, hv⟩ := varDev_nonneg x hx (j 1 : Fin B)
  obtain ⟨e, he0, he⟩ := epsF_pos
  have hr : ∃ q : ℝ, Ideal.rsqrt (varDev x (j 1 : Fin B) + epsF) = q := by
    rw [hv, he, ← EReal.coe_add]; exact real_rsqrt_of_pos (by linarith)
  have hm : ∃ m : ℝ, mean x (j 1 : Fin B) = m := real_div_nF (real_sum _ _ fun r _ => hx _)
  exact real_max (real_add (real_mul (real_mul (hg _) (real_sub (hx j) hm)) hr) (hbe _))
    ⟨0, zeroF_eq.trans EReal.coe_zero.symm⟩

end Cert.Gcn

end
-- ==== Proof.LibMatRead.lean ====
/-
  A matrix product of plain dimension numbers read at one entry.

  For a left operand of shape [A, K] and a right operand of shape [K, B], contracted over the left operand's
  second axis and the right operand's first, accumulated into the zero array, the entry at row r and column c
  of the product is the sum over k of the left entry (r, k) times the right entry (k, c). On the extended
  reals a change of float format is the identity, so the same holds when both operands are narrowed first.
  Nothing here mentions a program: the dimension numbers enter through the four coordinate facts that say
  which coordinate of an operand index is read from the output index and which from the contraction index.
-/
import Idealize.ShloMosaic.PureOps.Ideal
import Idealize.ShloMosaic.PureOps.Ideal.Laws
import Idealize.ShloMosaic.Lib.ValueIdx

noncomputable section

namespace Cert.LibMatRead

open Idealize.ShloMosaic Idealize.ShloMosaic.ValueIdx

/-- A product into the zero accumulator, read at entry (r, c): the sum over the one contracted axis of the
    left operand at (r, k) times the right operand at (k, c). The hypotheses say that the contraction runs over
    one axis of extent K, that the left operand is read at (output row, contraction coordinate) and the right
    operand at (contraction coordinate, output column). -/
theorem matmul_zero_apply {A K B : ℕ} {φ₁ φ₂ : FTy}
    (D : DotDims ⟨2, ![A, K]⟩ ⟨2, ![K, B]⟩ ⟨2, ![A, B]⟩)
    (hr : D.contr.rank = 1) (hs : D.contr.size ⟨0, by omega⟩ = K)
    (hl0 : ∀ (j : (⟨2, ![A, B]⟩ : Shape).Idx) (q : D.contr.Idx), (D.lhsIdx j q 0).val = (j 0).val)
    (hl1 : ∀ (j : (⟨2, ![A, B]⟩ : Shape).Idx) (q : D.contr.Idx), (D.lhsIdx j q 1).val = (q ⟨0, by omega⟩).val)
    (hr0 : ∀ (j : (⟨2, ![A, B]⟩ : Shape).Idx) (q : D.contr.Idx), (D.rhsIdx j q 0).val = (q ⟨0, by omega⟩).val)
    (hr1 : ∀ (j : (⟨2, ![A, B]⟩ : Shape).Idx) (q : D.contr.Idx), (D.rhsIdx j q 1).val = (j 1).val)
    (prec : Option ContractPrecision)
    (x : FVec Ideal ⟨2, ![A, K]⟩ φ₁) (w : FVec Ideal ⟨2, ![K, B]⟩ φ₂) (r : Fin A) (c : Fin B) :
    matmul D prec x w (constant ⟨2, ![A, B]⟩ .f32 0x00000000#32) (ix2 r c)
      = ∑ k : Fin K, x (ix2 r k) * w (ix2 k c) := by
  show FloatOps.matmul D prec x w (constant ⟨2, ![A, B]⟩ .f32 0x00000000#32) (ix2 r c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

/-- The same product with both operands narrowed to other float formats first: on the extended reals the
    narrowing is the identity, so the entry is the same sum of products of the operands as given. -/
theorem matmul_narrowed_zero_apply {A K B : ℕ} {φ₁ φ₂ ψ₁ ψ₂ : FTy}
    (D : DotDims ⟨2, ![A, K]⟩ ⟨2, ![K, B]⟩ ⟨2, ![A, B]⟩)
    (hr : D.contr.rank = 1) (hs : D.contr.size ⟨0, by omega⟩ = K)
    (hl0 : ∀ (j : (⟨2, ![A, B]⟩ : Shape).Idx) (q : D.contr.Idx), (D.lhsIdx j q 0).val = (j 0).val)
    (hl1 : ∀ (j : (⟨2, ![A, B]⟩ : Shape).Idx) (q : D.contr.Idx), (D.lhsIdx j q 1).val = (q ⟨0, by omega⟩).val)
    (hr0 : ∀ (j : (⟨2, ![A, B]⟩ : Shape).Idx) (q : D.contr.Idx), (D.rhsIdx j q 0).val = (q ⟨0, by omega⟩).val)
    (hr1 : ∀ (j : (⟨2, ![A, B]⟩ : Shape).Idx) (q : D.contr.Idx), (D.rhsIdx j q 1).val = (j 1).val)
    (prec : Option ContractPrecision)
    (x : FVec Ideal ⟨2, ![A, K]⟩ φ₁) (w : FVec Ideal ⟨2, ![K, B]⟩ φ₂)
    (h1 : ψ₁.bits < φ₁.bits) (h2 : ψ₂.bits < φ₂.bits) (r : Fin A) (c : Fin B) :
    matmul D prec (truncf ψ₁ x h1) (truncf ψ₂ w h2) (constant ⟨2, ![A, B]⟩ .f32 0x00000000#32) (ix2 r c)
      = ∑ k : Fin K, x (ix2 r k) * w (ix2 k c) :=
  (matmul_zero_apply D hr hs hl0 hl1 hr0 hr1 prec (truncf ψ₁ x h1) (truncf ψ₂ w h2) r c).trans
    (Finset.sum_congr rfl fun k _ => by rw [truncf_apply, truncf_apply])

end Cert.LibMatRead

end
-- ==== Proof.MatDot.lean ====
/-
  The two matrix-product dimension records of the program, coordinate by coordinate.

  Both contract the left operand's second axis against the right operand's first and have no batch axis:
  the left operand is read at (output row, contraction coordinate) and the right operand at (contraction
  coordinate, output column). One record multiplies [5000, 128] by [128, 128], the other [5000, 128] by
  [128, 64]. With these facts the product into the zero accumulator, operands narrowed, is read at an
  entry as the textbook sum.
-/
import proofs.«173831_j84808424227048_1_alg».proof.Proof.Gen.KernelIdeal
import proofs.«173831_j84808424227048_1_alg».proof.Proof.LibMatRead

noncomputable section

namespace Cert.KernelIdeal.MatDot

open Idealize.ShloMosaic Idealize.ShloMosaic.ValueIdx Cert.KernelIdeal Cert.KernelIdeal.Gen

/-- The [5000, 128] by [128, 128] product's dimension numbers. -/
abbrev D128 : DotDims S5000x128 S128x128 S5000x128 := dot_S5000x128_S128x128_S5000x128_1_0_0_1_n_n
/-- The [5000, 128] by [128, 64] product's dimension numbers. -/
abbrev D64 : DotDims S5000x128 S128x64 S5000x64 := dot_S5000x128_S128x64_S5000x64_1_0_0_1_n_n

/-- The left operand's row is the output's row. -/
theorem lhs128_0 (i : S5000x128.Idx) (q : D128.contr.Idx) : (D128.lhsIdx i q 0).val = (i 0).val := by
  unfold DotDims.lhsIdx
  rw [dif_neg (show ¬(0 : Fin S5000x128.rank) ∈ D128.lhsBatch by decide),
    dif_pos (show (0 : Fin S5000x128.rank) ∈ D128.lhsNonContracting by decide)]
  rfl
/-- The left operand's column is the contraction coordinate. -/
theorem lhs128_1 (i : S5000x128.Idx) (q : D128.contr.Idx) : (D128.lhsIdx i q 1).val = (q ⟨0, by decide⟩).val :=
  D128.lhsIdx_val_of_single rfl i q
/-- The right operand's row is the contraction coordinate. -/
theorem rhs128_0 (i : S5000x128.Idx) (q : D128.contr.Idx) : (D128.rhsIdx i q 0).val = (q ⟨0, by decide⟩).val :=
  D128.rhsIdx_val_of_single rfl i q
/-- The right operand's column is the output's column. -/
theorem rhs128_1 (i : S5000x128.Idx) (q : D128.contr.Idx) : (D128.rhsIdx i q 1).val = (i 1).val := by
  unfold DotDims.rhsIdx
  rw [dif_neg (show ¬(1 : Fin S128x128.rank) ∈ D128.rhsBatch by decide),
    dif_pos (show (1 : Fin S128x128.rank) ∈ D128.rhsNonContracting by decide)]
  rfl

/-- The left operand's row is the output's row. -/
theorem lhs64_0 (i : S5000x64.Idx) (q : D64.contr.Idx) : (D64.lhsIdx i q 0).val = (i 0).val := by
  unfold DotDims.lhsIdx
  rw [dif_neg (show ¬(0 : Fin S5000x128.rank) ∈ D64.lhsBatch by decide),
    dif_pos (show (0 : Fin S5000x128.rank) ∈ D64.lhsNonContracting by decide)]
  rfl
/-- The left operand's column is the contraction coordinate. -/
theorem lhs64_1 (i : S5000x64.Idx) (q : D64.contr.Idx) : (D64.lhsIdx i q 1).val = (q ⟨0, by decide⟩).val :=
  D64.lhsIdx_val_of_single rfl i q
/-- The right operand's row is the contraction coordinate. -/
theorem rhs64_0 (i : S5000x64.Idx) (q : D64.contr.Idx) : (D64.rhsIdx i q 0).val = (q ⟨0, by decide⟩).val :=
  D64.rhsIdx_val_of_single rfl i q
/-- The right operand's column is the output's column. -/
theorem rhs64_1 (i : S5000x64.Idx) (q : D64.contr.Idx) : (D64.rhsIdx i q 1).val = (i 1).val := by
  unfold DotDims.rhsIdx
  rw [dif_neg (show ¬(1 : Fin S128x64.rank) ∈ D64.rhsBatch by decide),
    dif_pos (show (1 : Fin S128x64.rank) ∈ D64.rhsNonContracting by decide)]
  rfl

/-- The [5000, 128] by [128, 128] product of narrowed operands into the zero accumulator, at entry (r, c). -/
theorem prod128_apply (x : FVec Ideal S5000x128 .f32) (w : FVec Ideal S128x128 .f32)
    (h1 : FTy.bits .bf16 < FTy.bits .f32) (h2 : FTy.bits .bf16 < FTy.bits .f32) (r : Fin 5000) (c : Fin 128) :
    matmul D128 none (truncf .bf16 x h1) (truncf .bf16 w h2) (constant S5000x128 .f32 0x00000000#32) (ix2 r c)
      = ∑ k : Fin 128, x (ix2 r k) * w (ix2 k c) :=
  Cert.LibMatRead.matmul_narrowed_zero_apply D128 rfl rfl lhs128_0 lhs128_1 rhs128_0 rhs128_1 none x w h1 h2 r c

/-- The [5000, 128] by [128, 64] product of narrowed operands into the zero accumulator, at entry (r, c). -/
theorem prod64_apply (x : FVec Ideal S5000x128 .f32) (w : FVec Ideal S128x64 .f32)
    (h1 : FTy.bits .bf16 < FTy.bits .f32) (h2 : FTy.bits .bf16 < FTy.bits .f32) (r : Fin 5000) (c : Fin 64) :
    matmul D64 none (truncf .bf16 x h1) (truncf .bf16 w h2) (constant S5000x64 .f32 0x00000000#32) (ix2 r c)
      = ∑ k : Fin 128, x (ix2 r k) * w (ix2 k c) :=
  Cert.LibMatRead.matmul_narrowed_zero_apply D64 rfl rfl lhs64_0 lhs64_1 rhs64_0 rhs64_1 none x w h1 h2 r c

end Cert.KernelIdeal.MatDot

end
-- ==== Proof.Mat0.lean ====
/-
  The matrix product of region 0, as one whole-array statement.

  The region's grid has ten points. Point t loads rows 5000·t … 5000·t + 4999 of the [50000, 128] left
  array and the whole [128, 128] right array, multiplies them and writes rows 5000·t … 5000·t + 4999 of the
  [50000, 128] result. Entry (r, c) of a point's product is the sum over k of the left block's (r, k) times
  the right array's (k, c); row R of the result is written by point R / 5000, as its row R − 5000·(R / 5000);
  the ten row blocks tile the result. So after the region the result array is the matrix product of the two
  arrays as the region found them.
-/
import proofs.«173831_j84808424227048_1_alg».proof.Proof.Gen.KernelIdeal.Frame
import proofs.«173831_j84808424227048_1_alg».proof.Proof.GcnSpec
import proofs.«173831_j84808424227048_1_alg».proof.Proof.MatDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Mat0

open Idealize.ShloMosaic Idealize.ShloMosaic.TcCoe Idealize.ShloMosaic.ValueIdx Idealize.SL.Sem
open Idealize.ShloMosaic.Pipeline (Dat)
open Cert.KernelIdeal Cert.KernelIdeal.Gen Cert.Gcn Cert.KernelIdeal.MatDot

variable (V : (c : Dev nD) → (b : Ref sig .tc) → Buf (Elt Ideal) ((c : Thread nD τ).loc b))

theorem hz : (![0, 0] : Fin 2 → Nat) = fun _ => 0 := funext fun a => by fin_cases a <;> rfl

/-- The body's product at entry (r, c): the sum over k of the left block at (r, k) times the right block at (k, c). -/
theorem pay_apply (x : Vec Ideal S5000x128 .f32) (w : Vec Ideal S128x128 .f32) (r : Fin 5000) (c : Fin 128) :
    k0_pay1 (F := Ideal) x w (ix2 r c) = ∑ k : Fin 128, x (ix2 r k) * w (ix2 k c) := by
  unfold k0_pay1
  exact prod128_apply x w _ _ r c

/-- When the left block's row r is row R of a left array X and the right block is a right array W, the body's
    product at (r, c) is entry (R, c) of the matrix product of X and W. -/
theorem point_apply (x : Vec Ideal S5000x128 .f32) (w : Vec Ideal S128x128 .f32) (X : Arr2 50000 128) (W : Arr2 128 128)
    (R : Fin 50000) (r : Fin 5000) (hx : ∀ k : Fin 128, x (ix2 r k) = X (ix2 R k))
    (hw : ∀ (k : Fin 128) (c : Fin 128), w (ix2 k c) = W (ix2 k c)) (c : Fin 128) :
    k0_pay1 (F := Ideal) x w (ix2 r c) = lin X W (ix2 R c) := by
  rw [pay_apply, lin_apply]
  exact Finset.sum_congr rfl fun k _ => by rw [hx k, hw k c]

/-- The block indices over the grid: the left and the result windows move down the rows with the point, the
    right window stays at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t, row r, is row 5000·t + r of the left array. -/
theorem iblk_x (c : Dev nD) (t : Fin cfg0.N) (r : Fin 5000) (k : Fin 128) (R : Fin 50000)
    (hR : R.val = 5000 * t.val + r.val) :
    (iblk0 V c 0 t : Vec Ideal S5000x128 .f32) (ix2 r k) = (V c main_arg0 : Arr2 50000 128) (ix2 R k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * r.val = R.val; rw [e0, hR]; omega
  | ⟨1, _⟩ => show win0_0.index t (1 : Fin 2) * 128 + 1 * k.val = k.val; rw [e1]; omega

/-- The right window's block at every point is the right array. -/
theorem iblk_w (c : Dev nD) (t : Fin cfg0.N) (k : Fin 128) (c' : Fin 128) :
    (iblk0 V c 1 t : Vec Ideal S128x128 .f32) (ix2 k c') = (V c main_arg2 : Arr2 128 128) (ix2 k c') := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * c'.val = c'.val; rw [e3]; omega

/-- What point t writes back is block t of the matrix product of the two arrays as the region found them. -/
theorem flushed_eq (c : Dev nD) (t : Fin cfg0.N) :
    (dat0 V c).flushed 2 t = ((cfg0.win 2).blk t).view.read (Elt Ideal)
      (lin (V c main_arg0 : Arr2 50000 128) (V c main_arg2 : Arr2 128 128)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx_facts t
  have ht : t.val < 10 := lt_of_lt_of_eq t.isLt N_0
  funext j
  have hj0 : (j 0).val < 5000 := (j 0).isLt
  have hj1 : (j 1).val < 128 := (j 1).isLt
  show k0_pay1 (iblk0 V c 0 t) (iblk0 V c 1 t) ((cfg0.win 2).xinj (grid0.coords t) j)
    = lin (V c main_arg0 : Arr2 50000 128) (V c main_arg2 : Arr2 128 128) (((cfg0.win 2).blk t).view.emb j)
  have ej : (cfg0.win 2).xinj (grid0.coords t) j
      = ix2 (⟨(j 0).val, hj0⟩ : Fin 5000) (⟨(j 1).val, hj1⟩ : Fin 128) :=
    funext fun a => by match a with | ⟨0, _⟩ => rfl | ⟨1, _⟩ => rfl
  have ei : ((cfg0.win 2).blk t).view.emb j
      = ix2 (⟨5000 * t.val + (j 0).val, by omega⟩ : Fin 50000) (⟨(j 1).val, hj1⟩ : Fin 128) :=
    funext fun a => Fin.ext (by
      match a with
      | ⟨0, _⟩ => show win0_2.index t (0 : Fin 2) * 5000 + 1 * (j 0).val = 5000 * t.val + (j 0).val; rw [e4]; omega
      | ⟨1, _⟩ => show win0_2.index t (1 : Fin 2) * 128 + 1 * (j 1).val = (j 1).val; rw [e5]; omega)
  rw [ej, ei]
  exact point_apply _ _ _ _ _ _ (fun k => iblk_x V c t _ k _ rfl) (fun k c' => iblk_w V c t k c') _

/-- An index of the result array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Every index of the result array is in the block of the point its row falls to: row R in point R / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    rw [e5]; omega

/-- After the region the result array is the matrix product of the two arrays as the region found them. -/
theorem final (c : Dev nD) :
    ((dat0 (F := Ideal) V c).arrAt 2 cfg0.N : Arr2 50000 128)
      = lin (V c main_arg0 : Arr2 50000 128) (V c main_arg2 : Arr2 128 128) :=
  (dat0 V c).arrAt_eq_of_cover 2 (lin (V c main_arg0 : Arr2 50000 128) (V c main_arg2 : Arr2 128 128))
    (fun t _ => flushed_eq V c t) cover

end Cert.KernelIdeal.Mat0

end
-- ==== Proof.Mat3.lean ====
/-
  The matrix product of region 3, as one whole-array statement.

  The region's grid has ten points. Point t loads rows 5000·t … 5000·t + 4999 of the [50000, 128] left
  array and the whole [128, 128] right array, multiplies them and writes rows 5000·t … 5000·t + 4999 of the
  [50000, 128] result. Entry (r, c) of a point's product is the sum over k of the left block's (r, k) times
  the right array's (k, c); row R of the result is written by point R / 5000, as its row R − 5000·(R / 5000);
  the ten row blocks tile the result. So after the region the result array is the matrix product of the two
  arrays as the region found them.
-/
import proofs.«173831_j84808424227048_1_alg».proof.Proof.Gen.KernelIdeal.Frame
import proofs.«173831_j84808424227048_1_alg».proof.Proof.GcnSpec
import proofs.«173831_j84808424227048_1_alg».proof.Proof.MatDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Mat3

open Idealize.ShloMosaic Idealize.ShloMosaic.TcCoe Idealize.ShloMosaic.ValueIdx Idealize.SL.Sem
open Idealize.ShloMosaic.Pipeline (Dat)
open Cert.KernelIdeal Cert.KernelIdeal.Gen Cert.Gcn Cert.KernelIdeal.MatDot

variable (V : (c : Dev nD) → (b : Ref sig .tc) → Buf (Elt Ideal) ((c : Thread nD τ).loc b))

theorem hz : (![0, 0] : Fin 2 → Nat) = fun _ => 0 := funext fun a => by fin_cases a <;> rfl

/-- The body's product at entry (r, c): the sum over k of the left block at (r, k) times the right block at (k, c). -/
theorem pay_apply (x : Vec Ideal S5000x128 .f32) (w : Vec Ideal S128x128 .f32) (r : Fin 5000) (c : Fin 128) :
    k3_pay1 (F := Ideal) x w (ix2 r c) = ∑ k : Fin 128, x (ix2 r k) * w (ix2 k c) := by
  unfold k3_pay1
  rw [shapeCast_self]
  exact prod128_apply x w _ _ r c

/-- When the left block's row r is row R of a left array X and the right block is a right array W, the body's
    product at (r, c) is entry (R, c) of the matrix product of X and W. -/
theorem point_apply (x : Vec Ideal S5000x128 .f32) (w : Vec Ideal S128x128 .f32) (X : Arr2 50000 128) (W : Arr2 128 128)
    (R : Fin 50000) (r : Fin 5000) (hx : ∀ k : Fin 128, x (ix2 r k) = X (ix2 R k))
    (hw : ∀ (k : Fin 128) (c : Fin 128), w (ix2 k c) = W (ix2 k c)) (c : Fin 128) :
    k3_pay1 (F := Ideal) x w (ix2 r c) = lin X W (ix2 R c) := by
  rw [pay_apply, lin_apply]
  exact Finset.sum_congr rfl fun k _ => by rw [hx k, hw k c]

/-- The block indices over the grid: the left and the result windows move down the rows with the point, the
    right window stays at the origin. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left window's block at point t, row r, is row 5000·t + r of the left array. -/
theorem iblk_x (c : Dev nD) (t : Fin cfg3.N) (r : Fin 5000) (k : Fin 128) (R : Fin 50000)
    (hR : R.val = 5000 * t.val + r.val) :
    (iblk3 V c 0 t : Vec Ideal S5000x128 .f32) (ix2 r k) = (V c main_v56 : Arr2 50000 128) (ix2 R k) := by
  obtain ⟨e0, e1, -⟩ := idx_facts t
  unfold iblk3
  rw [View.read_apply]
  show V c main_v56 _ = V c main_v56 _
  congr 1
  funext a
  apply Fin.ext
  match a with
  | ⟨0, _⟩ => show win3_0.index t (0 : Fin 2) * 5000 + 1 * r.val = R.val; rw [e0, hR]; omega
  | ⟨1, _⟩ => show win3_0.index t (1 : Fin 2) * 128 + 1 * k.val = k.val; rw [e1]; omega

/-- The right window's block at every point is the right array. -/
theorem iblk_w (c : Dev nD) (t : Fin cfg3.N) (k : Fin 128) (c' : Fin 128) :
    (iblk3 V c 1 t : Vec Ideal S128x128 .f32) (ix2 k c') = (V c main_arg6 : Arr2 128 128) (ix2 k c') := by
  obtain ⟨-, -, e2, e3, -⟩ := idx_facts t
  unfold iblk3
  rw [View.read_apply]
  show V c main_arg6 _ = V c main_arg6 _
  congr 1
  funext a
  apply Fin.ext
  match a with
  | ⟨0, _⟩ => show win3_1.index t (0 : Fin 2) * 128 + 1 * k.val = k.val; rw [e2]; omega
  | ⟨1, _⟩ => show win3_1.index t (1 : Fin 2) * 128 + 1 * c'.val = c'.val; rw [e3]; omega

/-- What point t writes back is block t of the matrix product of the two arrays as the region found them. -/
theorem flushed_eq (c : Dev nD) (t : Fin cfg3.N) :
    (dat3 V c).flushed 2 t = ((cfg3.win 2).blk t).view.read (Elt Ideal)
      (lin (V c main_v56 : Arr2 50000 128) (V c main_arg6 : Arr2 128 128)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  obtain ⟨-, -, -, -, e4, e5⟩ := idx_facts t
  have ht : t.val < 10 := lt_of_lt_of_eq t.isLt N_3
  funext j
  have hj0 : (j 0).val < 5000 := (j 0).isLt
  have hj1 : (j 1).val < 128 := (j 1).isLt
  show k3_pay1 (iblk3 V c 0 t) (iblk3 V c 1 t) ((cfg3.win 2).xinj (grid3.coords t) j)
    = lin (V c main_v56 : Arr2 50000 128) (V c main_arg6 : Arr2 128 128) (((cfg3.win 2).blk t).view.emb j)
  have ej : (cfg3.win 2).xinj (grid3.coords t) j
      = ix2 (⟨(j 0).val, hj0⟩ : Fin 5000) (⟨(j 1).val, hj1⟩ : Fin 128) :=
    funext fun a => by match a with | ⟨0, _⟩ => rfl | ⟨1, _⟩ => rfl
  have ei : ((cfg3.win 2).blk t).view.emb j
      = ix2 (⟨5000 * t.val + (j 0).val, by omega⟩ : Fin 50000) (⟨(j 1).val, hj1⟩ : Fin 128) :=
    funext fun a => Fin.ext (by
      match a with
      | ⟨0, _⟩ => show win3_2.index t (0 : Fin 2) * 5000 + 1 * (j 0).val = 5000 * t.val + (j 0).val; rw [e4]; omega
      | ⟨1, _⟩ => show win3_2.index t (1 : Fin 2) * 128 + 1 * (j 1).val = (j 1).val; rw [e5]; omega)
  rw [ej, ei]
  exact point_apply _ _ _ _ _ _ (fun k => iblk_x V c t _ k _ rfl) (fun k c' => iblk_w V c t k c') _

/-- An index of the result array is in point t's block iff each coordinate is in the block's range on its axis. -/
theorem mem_blk (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v57).slice (win3_2.rect t)).set ↔ _
  rw [View.set_slice_whole, Rect.mem_set_unit]
  exact Iff.rfl

/-- Every index of the result array is in the block of the point its row falls to: row R in point R / 5000. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  have hlt : (i 0).val / 5000 < cfg3.N := by rw [hN]; omega
  obtain ⟨-, -, -, -, e4, e5⟩ := idx_facts ⟨(i 0).val / 5000, hlt⟩
  refine ⟨⟨(i 0).val / 5000, hlt⟩, flush3_2 _, ?_⟩
  rw [mem_blk]
  intro a
  match a with
  | ⟨0, _⟩ =>
    show win3_2.index ⟨(i 0).val / 5000, hlt⟩ (0 : Fin 2) * 5000 ≤ (i 0).val
      ∧ (i 0).val < win3_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, hlt⟩ (1 : Fin 2) * 128 ≤ (i 1).val
      ∧ (i 1).val < win3_2.index ⟨(i 0).val / 5000, hlt⟩ (1 : Fin 2) * 128 + 128
    rw [e5]; omega

/-- After the region the result array is the matrix product of the two arrays as the region found them. -/
theorem final (c : Dev nD) :
    ((dat3 (F := Ideal) V c).arrAt 2 cfg3.N : Arr2 50000 128)
      = lin (V c main_v56 : Arr2 50000 128) (V c main_arg6 : Arr2 128 128) :=
  (dat3 V c).arrAt_eq_of_cover 2 (lin (V c main_v56 : Arr2 50000 128) (V c main_arg6 : Arr2 128 128))
    (fun t _ => flushed_eq V c t) cover

end Cert.KernelIdeal.Mat3

end
-- ==== Proof.Mat6.lean ====
/-
  The matrix product of region 6, as one whole-array statement.

  The region's grid has ten points. Point t loads rows 5000·t … 5000·t + 4999 of the [50000, 128] left
  array and the whole [128, 64] right array, multiplies them and writes rows 5000·t … 5000·t + 4999 of the
  [50000, 64] result. Entry (r, c) of a point's product is the sum over k of the left block's (r, k) times
  the right array's (k, c); row R of the result is written by point R / 5000, as its row R − 5000·(R / 5000);
  the ten row blocks tile the result. So after the region the result array is the matrix product of the two
  arrays as the region found them.
-/
import proofs.«173831_j84808424227048_1_alg».proof.Proof.Gen.KernelIdeal.Frame
import proofs.«173831_j84808424227048_1_alg».proof.Proof.GcnSpec
import proofs.«173831_j84808424227048_1_alg».proof.Proof.MatDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Mat6

open Idealize.ShloMosaic Idealize.ShloMosaic.TcCoe Idealize.ShloMosaic.ValueIdx Idealize.SL.Sem
open Idealize.ShloMosaic.Pipeline (Dat)
open Cert.KernelIdeal Cert.KernelIdeal.Gen Cert.Gcn Cert.KernelIdeal.MatDot

variable (V : (c : Dev nD) → (b : Ref sig .tc) → Buf (Elt Ideal) ((c : Thread nD τ).loc b))

theorem hz : (![0, 0] : Fin 2 → Nat) = fun _ => 0 := funext fun a => by fin_cases a <;> rfl

/-- The body's product at entry (r, c): the sum over k of the left block at (r, k) times the right block at (k, c). -/
theorem pay_apply (x : Vec Ideal S5000x128 .f32) (w : Vec Ideal S128x64 .f32) (r : Fin 5000) (c : Fin 64) :
    k6_pay1 (F := Ideal) x w (ix2 r c) = ∑ k : Fin 128, x (ix2 r k) * w (ix2 k c) := by
  unfold k6_pay1
  rw [shapeCast_self]
  exact prod64_apply x w _ _ r c

/-- When the left block's row r is row R of a left array X and the right block is a right array W, the body's
    product at (r, c) is entry (R, c) of the matrix product of X and W. -/
theorem point_apply (x : Vec Ideal S5000x128 .f32) (w : Vec Ideal S128x64 .f32) (X : Arr2 50000 128) (W : Arr2 128 64)
    (R : Fin 50000) (r : Fin 5000) (hx : ∀ k : Fin 128, x (ix2 r k) = X (ix2 R k))
    (hw : ∀ (k : Fin 128) (c : Fin 64), w (ix2 k c) = W (ix2 k c)) (c : Fin 64) :
    k6_pay1 (F := Ideal) x w (ix2 r c) = lin X W (ix2 R c) := by
  rw [pay_apply, lin_apply]
  exact Finset.sum_congr rfl fun k _ => by rw [hx k, hw k c]

/-- The block indices over the grid: the left and the result windows move down the rows with the point, the
    right window stays at the origin. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The left window's block at point t, row r, is row 5000·t + r of the left array. -/
theorem iblk_x (c : Dev nD) (t : Fin cfg6.N) (r : Fin 5000) (k : Fin 128) (R : Fin 50000)
    (hR : R.val = 5000 * t.val + r.val) :
    (iblk6 V c 0 t : Vec Ideal S5000x128 .f32) (ix2 r k) = (V c main_v83 : Arr2 50000 128) (ix2 R k) := by
  obtain ⟨e0, e1, -⟩ := idx_facts t
  unfold iblk6
  rw [View.read_apply]
  show V c main_v83 _ = V c main_v83 _
  congr 1
  funext a
  apply Fin.ext
  match a with
  | ⟨0, _⟩ => show win6_0.index t (0 : Fin 2) * 5000 + 1 * r.val = R.val; rw [e0, hR]; omega
  | ⟨1, _⟩ => show win6_0.index t (1 : Fin 2) * 128 + 1 * k.val = k.val; rw [e1]; omega

/-- The right window's block at every point is the right array. -/
theorem iblk_w (c : Dev nD) (t : Fin cfg6.N) (k : Fin 128) (c' : Fin 64) :
    (iblk6 V c 1 t : Vec Ideal S128x64 .f32) (ix2 k c') = (V c main_arg10 : Arr2 128 64) (ix2 k c') := by
  obtain ⟨-, -, e2, e3, -⟩ := idx_facts t
  unfold iblk6
  rw [View.read_apply]
  show V c main_arg10 _ = V c main_arg10 _
  congr 1
  funext a
  apply Fin.ext
  match a with
  | ⟨0, _⟩ => show win6_1.index t (0 : Fin 2) * 128 + 1 * k.val = k.val; rw [e2]; omega
  | ⟨1, _⟩ => show win6_1.index t (1 : Fin 2) * 64 + 1 * c'.val = c'.val; rw [e3]; omega

/-- What point t writes back is block t of the matrix product of the two arrays as the region found them. -/
theorem flushed_eq (c : Dev nD) (t : Fin cfg6.N) :
    (dat6 V c).flushed 2 t = ((cfg6.win 2).blk t).view.read (Elt Ideal)
      (lin (V c main_v83 : Arr2 50000 128) (V c main_arg10 : Arr2 128 64)) := by
  show (cfg6.win 2).cut (grid6.coords t) ((dat6 V c).after 2 t) = _
  rw [after6_2]
  unfold out6_2
  rw [View.canon_unit_zero hz]
  simp only [View.ld_unit_zero (S := S5000x128) hz, View.ld_unit_zero (S := S128x64) hz]
  obtain ⟨-, -, -, -, e4, e5⟩ := idx_facts t
  have ht : t.val < 10 := lt_of_lt_of_eq t.isLt N_6
  funext j
  have hj0 : (j 0).val < 5000 := (j 0).isLt
  have hj1 : (j 1).val < 64 := (j 1).isLt
  show k6_pay1 (iblk6 V c 0 t) (iblk6 V c 1 t) ((cfg6.win 2).xinj (grid6.coords t) j)
    = lin (V c main_v83 : Arr2 50000 128) (V c main_arg10 : Arr2 128 64) (((cfg6.win 2).blk t).view.emb j)
  have ej : (cfg6.win 2).xinj (grid6.coords t) j
      = ix2 (⟨(j 0).val, hj0⟩ : Fin 5000) (⟨(j 1).val, hj1⟩ : Fin 64) :=
    funext fun a => by match a with | ⟨0, _⟩ => rfl | ⟨1, _⟩ => rfl
  have ei : ((cfg6.win 2).blk t).view.emb j
      = ix2 (⟨5000 * t.val + (j 0).val, by omega⟩ : Fin 50000) (⟨(j 1).val, hj1⟩ : Fin 64) :=
    funext fun a => Fin.ext (by
      match a with
      | ⟨0, _⟩ => show win6_2.index t (0 : Fin 2) * 5000 + 1 * (j 0).val = 5000 * t.val + (j 0).val; rw [e4]; omega
      | ⟨1, _⟩ => show win6_2.index t (1 : Fin 2) * 64 + 1 * (j 1).val = (j 1).val; rw [e5]; omega)
  rw [ej, ei]
  exact point_apply _ _ _ _ _ _ (fun k => iblk_x V c t _ k _ rfl) (fun k c' => iblk_w V c t k c') _

/-- An index of the result array is in point t's block iff each coordinate is in the block's range on its axis. -/
theorem mem_blk (t : Fin cfg6.N) (i : S50000x64.Idx) :
    i ∈ ((cfg6.win 2).blk t).view.set ↔ ∀ a : Fin 2, win6_2.index t a * S5000x64.size a ≤ (i a).val
      ∧ (i a).val < win6_2.index t a * S5000x64.size a + S5000x64.size a := by
  show i ∈ ((View.whole main_v84).slice (win6_2.rect t)).set ↔ _
  rw [View.set_slice_whole, Rect.mem_set_unit]
  exact Iff.rfl

/-- Every index of the result array is in the block of the point its row falls to: row R in point R / 5000. -/
theorem cover (i : S50000x64.Idx) :
    ∃ t : Fin cfg6.N, (cfg6.win 2).flush t = true ∧ i ∈ ((cfg6.win 2).blk t).view.set := by
  have hi0 : (i 0).val < 50000 := (i 0).isLt
  have hi1 : (i 1).val < 64 := (i 1).isLt
  have hN : cfg6.N = 10 := N_6
  have hlt : (i 0).val / 5000 < cfg6.N := by rw [hN]; omega
  obtain ⟨-, -, -, -, e4, e5⟩ := idx_facts ⟨(i 0).val / 5000, hlt⟩
  refine ⟨⟨(i 0).val / 5000, hlt⟩, flush6_2 _, ?_⟩
  rw [mem_blk]
  intro a
  match a with
  | ⟨0, _⟩ =>
    show win6_2.index ⟨(i 0).val / 5000, hlt⟩ (0 : Fin 2) * 5000 ≤ (i 0).val
      ∧ (i 0).val < win6_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win6_2.index ⟨(i 0).val / 5000, hlt⟩ (1 : Fin 2) * 64 ≤ (i 1).val
      ∧ (i 1).val < win6_2.index ⟨(i 0).val / 5000, hlt⟩ (1 : Fin 2) * 64 + 64
    rw [e5]; omega

/-- After the region the result array is the matrix product of the two arrays as the region found them. -/
theorem final (c : Dev nD) :
    ((dat6 (F := Ideal) V c).arrAt 2 cfg6.N : Arr2 50000 64)
      = lin (V c main_v83 : Arr2 50000 128) (V c main_arg10 : Arr2 128 64) :=
  (dat6 V c).arrAt_eq_of_cover 2 (lin (V c main_v83 : Arr2 50000 128) (V c main_arg10 : Arr2 128 64))
    (fun t _ => flushed_eq V c t) cover

end Cert.KernelIdeal.Mat6

end
-- ==== Proof.LibColSum.lean ====
/-
  A sum over the rows of an array, taken block of rows by block of rows: the sum over every row is a sum over the
  row numbers below the row count; the rows below `a + m` are the rows below `a` followed by the block of `m` rows
  from `a` on. A running total that starts at the first block's sum and adds one further block's sum at each step
  therefore holds, after each step, the sum over all the rows below the end of the last block added. Addition in a
  commutative monoid is all that is used, so the statements hold on the extended reals with no finiteness.
-/
import Mathlib.Algebra.BigOperators.Fin
import Mathlib.Algebra.BigOperators.Intervals

open scoped BigOperators

namespace Cert.Lib.ColSum

variable {M : Type*} [AddCommMonoid M]

/-- The term of row `p` of a family indexed by the rows below `A`; zero from row `A` on. -/
def rowAt {A : ℕ} (f : Fin A → M) (p : ℕ) : M := if h : p < A then f ⟨p, h⟩ else 0

/-- Below `A` the term of row `p` is the family's. -/
theorem rowAt_of_lt {A : ℕ} (f : Fin A → M) (p : ℕ) (h : p < A) : rowAt f p = f ⟨p, h⟩ := dif_pos h

/-- The family's term at row `p`, the row's number written in any other way `q`, is the term of row `q`. -/
theorem eq_rowAt_of_eq {A : ℕ} (f : Fin A → M) (p : ℕ) (h : p < A) (q : ℕ) (hq : q = p) : f ⟨p, h⟩ = rowAt f q := by
  subst hq; exact (rowAt_of_lt f q h).symm

/-- The sum over every row is the sum of the rows' terms over the numbers below `A`. -/
theorem sum_eq_sum_range {A : ℕ} (f : Fin A → M) : ∑ r : Fin A, f r = ∑ p ∈ Finset.range A, rowAt f p :=
  Finset.sum_fin_eq_sum_range f

/-- The rows below `a + m` are the rows below `a` and then the block of the `m` rows from `a` on. -/
theorem sum_range_add_block {A : ℕ} (f : Fin A → M) (a m : ℕ) :
    ∑ p ∈ Finset.range (a + m), rowAt f p = ∑ p ∈ Finset.range a, rowAt f p + ∑ q : Fin m, rowAt f (a + q.val) := by
  rw [Finset.sum_range_add, Finset.sum_range fun x => rowAt f (a + x)]

/-- The first block alone: the rows below `m`. -/
theorem sum_range_first_block {A : ℕ} (f : Fin A → M) (m : ℕ) :
    ∑ p ∈ Finset.range m, rowAt f p = ∑ q : Fin m, rowAt f q.val := by
  rw [Finset.sum_range]

end Cert.Lib.ColSum
-- ==== Proof.Stats1.lean ====
/-
  The column statistics of one 50000 × 128 array, as region 1 of the program computes them. The region walks the
  array in ten blocks of 5000 rows. At the first block it sets two 1 × 128 rows to zero; at every block it adds to
  the first row, lane by lane, the sum of the block's column, and to the second row the sum of the squares of the
  block's column. The two rows are kept from block to block and written back once, after the last block. Here it
  is shown that what is written back is, at lane k, the sum of column k over all 50000 rows, and the sum of the
  squares of column k over all 50000 rows. The argument: what each of the two cases (first block, later block)
  leaves in the two rows is one expression of the block and of the rows' earlier contents; read at a lane over the
  extended reals it is "earlier contents plus the block's column sum"; by induction on the block number the rows
  hold, after block n, the sums over the rows below 5000·(n + 1); after the last block that is every row. Only
  commutativity and associativity of addition are used, so nothing is asked of the entries (they may be infinite).
-/
import proofs.«173831_j84808424227048_1_alg».proof.Proof.Gen.KernelIdeal.Frame
import proofs.«173831_j84808424227048_1_alg».proof.Proof.GcnSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic
import proofs.«173831_j84808424227048_1_alg».proof.Proof.LibColSum

noncomputable section

open Idealize.ShloMosaic Idealize.ShloMosaic.TcCoe Idealize.ShloMosaic.ValueIdx Idealize.SL.Sem
open Idealize.ShloMosaic.Pipeline (Dat)
open Cert.KernelIdeal Cert.KernelIdeal.Gen Cert.Gcn

namespace Cert.KernelIdeal.Stats1

variable {F : FTy → Type} [FloatOps F]

theorem hz : (![0, 0] : Fin 2 → Nat) = fun _ => 0 := funext fun a => by fin_cases a <;> rfl

/-! ## What each control case leaves in the two accumulators, as the body's payloads -/

/-- A later point (the reset not taken) leaves in the sums buffer the payload of the block and of the buffer's
    contents from the point before. -/
theorem out_B_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S5000x128) hz, View.ld_unit_zero (S := S1x128) hz]

/-- The same for the sums-of-squares buffer. -/
theorem out_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S5000x128) hz, View.ld_unit_zero (S := S1x128) hz]

/-- The first point stores the zero row, reads it back, and leaves the payload of the block and of that zero row. -/
theorem out_A_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

/-- The same for the sums-of-squares buffer. -/
theorem out_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

/-! ## The payloads at a lane, over the extended reals -/

/-- The sum along the rows of a [5000,128] block, at lane k, is the sum of the block's column k. -/
theorem laneSum_apply (src : FVec Ideal S5000x128 .f32) (k : Fin 128) :
    multiReduction (F := Ideal) .add [0] S128 src 0x00000000#32 reduces_S5000x128_S128 (.inl rfl) rfl (ix1 k)
      = ∑ r : Fin 5000, src (ix2 r k) := by
  refine (Ideal.multiReduction_add_single src 0x00000000#32 reduces_S5000x128_S128 (.inl rfl) rfl (ix1 k)).trans ?_
  refine Finset.sum_congr rfl fun r _ => congrArg src ?_
  funext a
  match a with
  | ⟨0, _⟩ => rfl
  | ⟨1, _⟩ => rfl

/-- The loaded block re-cast to its own shape is itself. -/
theorem pay3_eq (x : Vec Ideal S5000x128 .f32) : k1_pay3 x = x := shapeCast_self _ _

/-- The two rows the first point stores are zero at every lane. -/
theorem pay1_apply (k : Fin 128) : k1_pay1 (F := Ideal) (ix2 (0 : Fin 1) k) = 0 := Ideal.ofBits_zero_f32
theorem pay2_apply (k : Fin 128) : k1_pay2 (F := Ideal) (ix2 (0 : Fin 1) k) = 0 := Ideal.ofBits_zero_f32

/-- The sums row after a point, at lane k: what it held plus the block's column sum. -/
theorem pay4_apply (x : Vec Ideal S5000x128 .f32) (xo : Vec Ideal S1x128 .f32) (k : Fin 128) :
    k1_pay4 x xo (ix2 (0 : Fin 1) k) = xo (ix2 (0 : Fin 1) k) + ∑ r : Fin 5000, x (ix2 r k) := by
  have e1 : shapeCast S1x128 xo shapeCasts_S1x128_S1x128 = xo := shapeCast_self _ _
  have e2 := shapeCast_a_1a_apply (multiReduction (F := Ideal) .add [0] S128 (k1_pay3 x) 0x00000000#32 reduces_S5000x128_S128 (.inl rfl) rfl)
    shapeCasts_S128_S1x128 (0 : Fin 1) k
  show shapeCast S1x128 xo shapeCasts_S1x128_S1x128 (ix2 (0 : Fin 1) k)
      + shapeCast S1x128 (multiReduction (F := Ideal) .add [0] S128 (k1_pay3 x) 0x00000000#32 reduces_S5000x128_S128 (.inl rfl) rfl)
          shapeCasts_S128_S1x128 (ix2 (0 : Fin 1) k) = _
  rw [e1, e2, laneSum_apply, pay3_eq]

/-- The sums-of-squares row after a point, at lane k: what it held plus the block's column sum of squares. -/
theorem pay5_apply (x : Vec Ideal S5000x128 .f32) (xo : Vec Ideal S1x128 .f32) (k : Fin 128) :
    k1_pay5 x xo (ix2 (0 : Fin 1) k) = xo (ix2 (0 : Fin 1) k) + ∑ r : Fin 5000, x (ix2 r k) * x (ix2 r k) := by
  have e1 : shapeCast S1x128 xo shapeCasts_S1x128_S1x128 = xo := shapeCast_self _ _
  have e2 := shapeCast_a_1a_apply (multiReduction (F := Ideal) .add [0] S128 (mulf (k1_pay3 x) (k1_pay3 x)) 0x00000000#32 reduces_S5000x128_S128 (.inl rfl) rfl)
    shapeCasts_S128_S1x128 (0 : Fin 1) k
  show shapeCast S1x128 xo shapeCasts_S1x128_S1x128 (ix2 (0 : Fin 1) k)
      + shapeCast S1x128 (multiReduction (F := Ideal) .add [0] S128 (mulf (k1_pay3 x) (k1_pay3 x)) 0x00000000#32 reduces_S5000x128_S128 (.inl rfl) rfl)
          shapeCasts_S128_S1x128 (ix2 (0 : Fin 1) k) = _
  rw [e1, e2, laneSum_apply, pay3_eq]
  rfl

/-! ## The input block at a point -/

variable (V : (c : Dev nD) → (b : Ref sig .tc) → Buf (Elt Ideal) ((c : Thread nD τ).loc b))

/-- The array the region reads, as it finds it: a 50000 × 128 array of extended reals. -/
abbrev inp (c : Dev nD) : Arr2 50000 128 := V c main_v46

/-- The input window's block index at point t: block t along the rows, block 0 along the lanes. -/
theorem idx_facts : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Row r of block t is a row of the array. -/
theorem row_lt (t : Fin cfg1.N) (r : Fin 5000) : 5000 * t.val + r.val < 50000 := by
  have hN : t.val < 10 := lt_of_lt_of_eq t.isLt (show cfg1.N = 10 from N_1)
  have := r.isLt
  omega

/-- Entry (r, k) of the block the input window holds at point t is entry (5000·t + r, k) of the array. -/
theorem iblk_apply (c : Dev nD) (t : Fin cfg1.N) (r : Fin 5000) (k : Fin 128) :
    (iblk1 V c 0 t : Vec Ideal S5000x128 .f32) (ix2 r k)
      = inp V c (ix2 ⟨5000 * t.val + r.val, row_lt t r⟩ k) := by
  obtain ⟨e0, e1⟩ := idx_facts t
  unfold iblk1
  rw [View.read_apply]
  show V c main_v46 (((cfg1.win 0).blk t).view.emb (ix2 r k)) = V c main_v46 _
  refine congrArg (V c main_v46) ?_
  funext a
  apply Fin.ext
  match a with
  | ⟨0, _⟩ => show win1_0.index t (0 : Fin 2) * 5000 + 1 * r.val = 5000 * t.val + r.val; omega
  | ⟨1, _⟩ => show win1_0.index t (1 : Fin 2) * 128 + 1 * k.val = k.val; omega

/-! ## What the two accumulators hold after each point -/

open Cert.Lib.ColSum in
/-- After the first point the sums row holds, at lane k, the column sum of block 0. -/
theorem sum_first (c : Dev nD) (t : Fin cfg1.N) (h0 : t.val % 10 = 0) (k : Fin 128) :
    (outsAt1 V c t.val t.isLt).1 (ix2 (0 : Fin 1) k)
      = ∑ r : Fin 5000, inp V c (ix2 ⟨5000 * t.val + r.val, row_lt t r⟩ k) := by
  rw [outsAt1_A V c t h0]
  dsimp only
  refine (congrFun (out_A_1 (F := Ideal) c (grid1.coords t) (ms1_0 t) (hs1_0 t) (ms1_1 t) (hs1_1 t) (ms1_2 t) (hs1_2 t)
    ((hcond1_0 t).mpr h0) (iblk1 V c 0 t)) (ix2 (0 : Fin 1) k)).trans ?_
  refine (pay4_apply (iblk1 V c 0 t) (k1_pay1 (F := Ideal)) k).trans ?_
  rw [pay1_apply, zero_add]
  exact Finset.sum_congr rfl fun r _ => iblk_apply V c t r k

/-- After the first point the sums-of-squares row holds, at lane k, block 0's column sum of squares. -/
theorem sq_first (c : Dev nD) (t : Fin cfg1.N) (h0 : t.val % 10 = 0) (k : Fin 128) :
    (outsAt1 V c t.val t.isLt).2 (ix2 (0 : Fin 1) k)
      = ∑ r : Fin 5000, inp V c (ix2 ⟨5000 * t.val + r.val, row_lt t r⟩ k)
          * inp V c (ix2 ⟨5000 * t.val + r.val, row_lt t r⟩ k) := by
  rw [outsAt1_A V c t h0]
  dsimp only
  refine (congrFun (out_A_2 (F := Ideal) c (grid1.coords t) (ms1_0 t) (hs1_0 t) (ms1_1 t) (hs1_1 t) (ms1_2 t) (hs1_2 t)
    ((hcond1_0 t).mpr h0) (iblk1 V c 0 t)) (ix2 (0 : Fin 1) k)).trans ?_
  refine (pay5_apply (iblk1 V c 0 t) (k1_pay2 (F := Ideal)) k).trans ?_
  rw [pay2_apply, zero_add]
  exact Finset.sum_congr rfl fun r _ => by rw [iblk_apply V c t r k]

/-- At a later point the sums row holds what it held after the point before plus the block's column sum. -/
theorem sum_step (c : Dev nD) (t : Fin cfg1.N) (h0 : ¬t.val % 10 = 0) (k : Fin 128) :
    (outsAt1 V c t.val t.isLt).1 (ix2 (0 : Fin 1) k)
      = (outsAt1 V c (t.val - 1) (Nat.lt_of_le_of_lt (Nat.sub_le _ _) t.isLt)).1 (ix2 (0 : Fin 1) k)
        + ∑ r : Fin 5000, inp V c (ix2 ⟨5000 * t.val + r.val, row_lt t r⟩ k) := by
  rw [outsAt1_B V c t h0]
  dsimp only
  refine (congrFun (out_B_1 (F := Ideal) c (grid1.coords t) (ms1_0 t) (hs1_0 t) (ms1_1 t) (hs1_1 t) (ms1_2 t) (hs1_2 t)
    (fun h => h0 ((hcond1_0 t).mp h)) (iblk1 V c 0 t)
    (outsAt1 V c (t.val - 1) (Nat.lt_of_le_of_lt (Nat.sub_le _ _) t.isLt)).1
    (outsAt1 V c (t.val - 1) (Nat.lt_of_le_of_lt (Nat.sub_le _ _) t.isLt)).2) (ix2 (0 : Fin 1) k)).trans ?_
  refine (pay4_apply (iblk1 V c 0 t) _ k).trans ?_
  exact congrArg (_ + ·) (Finset.sum_congr rfl fun r _ => iblk_apply V c t r k)

/-- At a later point the sums-of-squares row holds what it held plus the block's column sum of squares. -/
theorem sq_step (c : Dev nD) (t : Fin cfg1.N) (h0 : ¬t.val % 10 = 0) (k : Fin 128) :
    (outsAt1 V c t.val t.isLt).2 (ix2 (0 : Fin 1) k)
      = (outsAt1 V c (t.val - 1) (Nat.lt_of_le_of_lt (Nat.sub_le _ _) t.isLt)).2 (ix2 (0 : Fin 1) k)
        + ∑ r : Fin 5000, inp V c (ix2 ⟨5000 * t.val + r.val, row_lt t r⟩ k)
            * inp V c (ix2 ⟨5000 * t.val + r.val, row_lt t r⟩ k) := by
  rw [outsAt1_B V c t h0]
  dsimp only
  refine (congrFun (out_B_2 (F := Ideal) c (grid1.coords t) (ms1_0 t) (hs1_0 t) (ms1_1 t) (hs1_1 t) (ms1_2 t) (hs1_2 t)
    (fun h => h0 ((hcond1_0 t).mp h)) (iblk1 V c 0 t)
    (outsAt1 V c (t.val - 1) (Nat.lt_of_le_of_lt (Nat.sub_le _ _) t.isLt)).1
    (outsAt1 V c (t.val - 1) (Nat.lt_of_le_of_lt (Nat.sub_le _ _) t.isLt)).2) (ix2 (0 : Fin 1) k)).trans ?_
  refine (pay5_apply (iblk1 V c 0 t) _ k).trans ?_
  exact congrArg (_ + ·) (Finset.sum_congr rfl fun r _ => by rw [iblk_apply V c t r k])

open Cert.Lib.ColSum in
/-- THE INVARIANT, sums: after point n the sums row holds, at lane k, the sum of column k over the rows below
    5000·(n + 1) — by induction on the point. -/
theorem sum_inv (c : Dev nD) (k : Fin 128) : ∀ (n : ℕ) (hn : n < cfg1.N),
    (outsAt1 V c n hn).1 (ix2 (0 : Fin 1) k)
      = ∑ p ∈ Finset.range (5000 * (n + 1)), rowAt (fun r : Fin 50000 => inp V c (ix2 r k)) p
  | 0, hn => by
    refine (sum_first V c ⟨0, hn⟩ (Nat.zero_mod _) k).trans ?_
    rw [sum_range_first_block]
    exact Finset.sum_congr rfl fun r _ =>
      eq_rowAt_of_eq (fun r : Fin 50000 => inp V c (ix2 r k)) _ _ _ (by show r.val = 5000 * 0 + r.val; omega)
  | n + 1, hn => by
    have hN : cfg1.N = 10 := N_1
    refine (sum_step V c ⟨n + 1, hn⟩ (by dsimp only; omega) k).trans ?_
    show (outsAt1 V c n _).1 (ix2 (0 : Fin 1) k) + _ = _
    rw [sum_inv c k n (Nat.lt_of_succ_lt hn), Nat.mul_succ 5000 (n + 1), sum_range_add_block]
    exact congrArg (_ + ·) (Finset.sum_congr rfl fun r _ =>
      eq_rowAt_of_eq (fun r : Fin 50000 => inp V c (ix2 r k)) _ _ _ rfl)

open Cert.Lib.ColSum in
/-- THE INVARIANT, squares: after point n the sums-of-squares row holds, at lane k, the sum of the squares of
    column k over the rows below 5000·(n + 1). -/
theorem sq_inv (c : Dev nD) (k : Fin 128) : ∀ (n : ℕ) (hn : n < cfg1.N),
    (outsAt1 V c n hn).2 (ix2 (0 : Fin 1) k)
      = ∑ p ∈ Finset.range (5000 * (n + 1)), rowAt (fun r : Fin 50000 =>
          inp V c (ix2 r k) * inp V c (ix2 r k)) p
  | 0, hn => by
    refine (sq_first V c ⟨0, hn⟩ (Nat.zero_mod _) k).trans ?_
    rw [sum_range_first_block]
    exact Finset.sum_congr rfl fun r _ =>
      eq_rowAt_of_eq (fun r : Fin 50000 => inp V c (ix2 r k) * inp V c (ix2 r k)) _ _ _ (by show r.val = 5000 * 0 + r.val; omega)
  | n + 1, hn => by
    have hN : cfg1.N = 10 := N_1
    refine (sq_step V c ⟨n + 1, hn⟩ (by dsimp only; omega) k).trans ?_
    show (outsAt1 V c n _).2 (ix2 (0 : Fin 1) k) + _ = _
    rw [sq_inv c k n (Nat.lt_of_succ_lt hn), Nat.mul_succ 5000 (n + 1), sum_range_add_block]
    exact congrArg (_ + ·) (Finset.sum_congr rfl fun r _ =>
      eq_rowAt_of_eq (fun r : Fin 50000 => inp V c (ix2 r k) * inp V c (ix2 r k)) _ _ _ rfl)

/-! ## The two result arrays after the region -/

open Cert.Lib.ColSum in
/-- After the last point the sums row holds every column's sum over all the rows. -/
theorem sum_last (c : Dev nD) (k : Fin 128) :
    (outsAt1 V c t1_9.val t1_9.isLt).1 (ix2 (0 : Fin 1) k) = colSum (V c main_v46 : Arr2 50000 128) k :=
  (sum_inv V c k t1_9.val t1_9.isLt).trans (sum_eq_sum_range _).symm

open Cert.Lib.ColSum in
/-- After the last point the sums-of-squares row holds every column's sum of squares over all the rows. -/
theorem sq_last (c : Dev nD) (k : Fin 128) :
    (outsAt1 V c t1_9.val t1_9.isLt).2 (ix2 (0 : Fin 1) k) = colSumSq (V c main_v46 : Arr2 50000 128) k :=
  (sq_inv V c k t1_9.val t1_9.isLt).trans (sum_eq_sum_range _).symm

/-- The one block of a [1,128] result array sits at offset zero on both axes. -/
theorem hz1 : (fun a => win1_1.index t1_9 a * main_v47_0.ty.shape.size a) = fun _ => 0 :=
  funext fun a => by fin_cases a <;> decide +kernel
theorem hz2 : (fun a => win1_2.index t1_9 a * main_v47_1.ty.shape.size a) = fun _ => 0 :=
  funext fun a => by fin_cases a <;> decide +kernel

/-- The one write-back of the sums window, at the last point, writes the column sums: its block is the whole array. -/
theorem flushed_sum (c : Dev nD) (t : Fin cfg1.N) (hf : (cfg1.win 1).flush t = true) :
    (dat1 V c).flushed 1 t = ((cfg1.win 1).blk t).view.read (Elt Ideal)
      (fun j => colSum (V c main_v46 : Arr2 50000 128) (j 1 : Fin 128) : Arr2 1 128) := by
  have hN : cfg1.N = 10 := N_1
  have h9 : t.val = 9 := by have := (flush1_1 t).mp hf; have := t.isLt; omega
  obtain rfl : t = t1_9 := Fin.ext h9
  have hY : (outsAt1 V c t1_9.val t1_9.isLt).1
      = (fun j => colSum (V c main_v46 : Arr2 50000 128) (j 1 : Fin 128) : Arr2 1 128) := by
    funext j
    obtain ⟨u, k, rfl⟩ : ∃ (u : Fin 1) (k : Fin 128), j = ix2 u k := ⟨j 0, j 1, eq_ix2 j⟩
    obtain rfl : u = 0 := Subsingleton.elim _ _
    exact sum_last V c k
  show (cfg1.win 1).cut (grid1.coords t1_9) ((dat1 V c).after 1 t1_9) = _
  rw [after1_1, hY]
  exact (Memref.read_access_unit_zero (Elt Ideal) main_v47_0 hz1 (fun a => by rw [congrFun hz1 a]; simp) _).symm

/-- The one write-back of the sums-of-squares window writes the column sums of squares. -/
theorem flushed_sq (c : Dev nD) (t : Fin cfg1.N) (hf : (cfg1.win 2).flush t = true) :
    (dat1 V c).flushed 2 t = ((cfg1.win 2).blk t).view.read (Elt Ideal)
      (fun j => colSumSq (V c main_v46 : Arr2 50000 128) (j 1 : Fin 128) : Arr2 1 128) := by
  have hN : cfg1.N = 10 := N_1
  have h9 : t.val = 9 := by have := (flush1_2 t).mp hf; have := t.isLt; omega
  obtain rfl : t = t1_9 := Fin.ext h9
  have hY : (outsAt1 V c t1_9.val t1_9.isLt).2
      = (fun j => colSumSq (V c main_v46 : Arr2 50000 128) (j 1 : Fin 128) : Arr2 1 128) := by
    funext j
    obtain ⟨u, k, rfl⟩ : ∃ (u : Fin 1) (k : Fin 128), j = ix2 u k := ⟨j 0, j 1, eq_ix2 j⟩
    obtain rfl : u = 0 := Subsingleton.elim _ _
    exact sq_last V c k
  show (cfg1.win 2).cut (grid1.coords t1_9) ((dat1 V c).after 2 t1_9) = _
  rw [after1_2, hY]
  exact (Memref.read_access_unit_zero (Elt Ideal) main_v47_1 hz2 (fun a => by rw [congrFun hz2 a]; simp) _).symm

/-- THE SUMS ARRAY after the region: entry (0, k) is the sum of column k of the input over all 50000 rows. -/
theorem final_sum (c : Dev nD) :
    ((dat1 (F := Ideal) V c).arrAt 1 cfg1.N : Arr2 1 128)
      = fun j => colSum (V c main_v46 : Arr2 50000 128) (j 1 : Fin 128) :=
  (dat1 V c).arrAt_eq_of_cover 1 _ (flushed_sum V c) fun i =>
    ⟨t1_9, (flush1_1 t1_9).mpr rfl, by
      show i ∈ ((View.whole main_v47_0).slice (win1_1.rect t1_9)).set
      rw [View.set_slice_whole, Rect.mem_set_unit]
      intro a
      have h0 : (i 0 : Nat) < 1 := (i 0).isLt
      have h1 : (i 1 : Nat) < 128 := (i 1).isLt
      match a with
      | ⟨0, _⟩ =>
        show win1_1.index t1_9 0 * win1_1.size 0 ≤ (i 0 : Nat) ∧ (i 0 : Nat) < win1_1.index t1_9 0 * win1_1.size 0 + win1_1.xsize (grid1.coords t1_9) 0
        rw [show win1_1.index t1_9 0 * win1_1.size 0 = 0 from by decide +kernel, show win1_1.xsize (grid1.coords t1_9) 0 = 1 from by decide +kernel]; omega
      | ⟨1, _⟩ =>
        show win1_1.index t1_9 1 * win1_1.size 1 ≤ (i 1 : Nat) ∧ (i 1 : Nat) < win1_1.index t1_9 1 * win1_1.size 1 + win1_1.xsize (grid1.coords t1_9) 1
        rw [show win1_1.index t1_9 1 * win1_1.size 1 = 0 from by decide +kernel, show win1_1.xsize (grid1.coords t1_9) 1 = 128 from by decide +kernel]; omega⟩

/-- THE SUMS-OF-SQUARES ARRAY after the region: entry (0, k) is the sum of the squares of column k of the input. -/
theorem final_sumsq (c : Dev nD) :
    ((dat1 (F := Ideal) V c).arrAt 2 cfg1.N : Arr2 1 128)
      = fun j => colSumSq (V c main_v46 : Arr2 50000 128) (j 1 : Fin 128) :=
  (dat1 V c).arrAt_eq_of_cover 2 _ (flushed_sq V c) fun i =>
    ⟨t1_9, (flush1_2 t1_9).mpr rfl, by
      show i ∈ ((View.whole main_v47_1).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ =>
        show win1_2.index t1_9 0 * win1_2.size 0 ≤ (i 0 : Nat) ∧ (i 0 : Nat) < win1_2.index t1_9 0 * win1_2.size 0 + win1_2.xsize (grid1.coords t1_9) 0
        rw [show win1_2.index t1_9 0 * win1_2.size 0 = 0 from by decide +kernel, show win1_2.xsize (grid1.coords t1_9) 0 = 1 from by decide +kernel]; omega
      | ⟨1, _⟩ =>
        show win1_2.index t1_9 1 * win1_2.size 1 ≤ (i 1 : Nat) ∧ (i 1 : Nat) < win1_2.index t1_9 1 * win1_2.size 1 + win1_2.xsize (grid1.coords t1_9) 1
        rw [show win1_2.index t1_9 1 * win1_2.size 1 = 0 from by decide +kernel, show win1_2.xsize (grid1.coords t1_9) 1 = 128 from by decide +kernel]; omega⟩

end Cert.KernelIdeal.Stats1

end
-- ==== Proof.Stats4.lean ====
/-
  The column statistics of one 50000 × 128 array, as region 4 of the program computes them. The region walks the
  array in ten blocks of 5000 rows. At the first block it sets two 1 × 128 rows to zero; at every block it adds to
  the first row, lane by lane, the sum of the block's column, and to the second row the sum of the squares of the
  block's column. The two rows are kept from block to block and written back once, after the last block. Here it
  is shown that what is written back is, at lane k, the sum of column k over all 50000 rows, and the sum of the
  squares of column k over all 50000 rows. The argument: what each of the two cases (first block, later block)
  leaves in the two rows is one expression of the block and of the rows' earlier contents; read at a lane over the
  extended reals it is "earlier contents plus the block's column sum"; by induction on the block number the rows
  hold, after block n, the sums over the rows below 5000·(n + 1); after the last block that is every row. Only
  commutativity and associativity of addition are used, so nothing is asked of the entries (they may be infinite).
-/
import proofs.«173831_j84808424227048_1_alg».proof.Proof.Gen.KernelIdeal.Frame
import proofs.«173831_j84808424227048_1_alg».proof.Proof.GcnSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic
import proofs.«173831_j84808424227048_1_alg».proof.Proof.LibColSum

noncomputable section

open Idealize.ShloMosaic Idealize.ShloMosaic.TcCoe Idealize.ShloMosaic.ValueIdx Idealize.SL.Sem
open Idealize.ShloMosaic.Pipeline (Dat)
open Cert.KernelIdeal Cert.KernelIdeal.Gen Cert.Gcn

namespace Cert.KernelIdeal.Stats4

variable {F : FTy → Type} [FloatOps F]

theorem hz : (![0, 0] : Fin 2 → Nat) = fun _ => 0 := funext fun a => by fin_cases a <;> rfl

/-! ## What each control case leaves in the two accumulators, as the body's payloads -/

/-- A later point (the reset not taken) leaves in the sums buffer the payload of the block and of the buffer's
    contents from the point before. -/
theorem out_B_1 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero hz]
  simp only [View.readAt_eq_ld, h1.read_unread, h2.read_unread, View.ld_unit_zero (S := S5000x128) hz, View.ld_unit_zero (S := S1x128) hz]

/-- The same for the sums-of-squares buffer. -/
theorem out_B_2 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero hz]
  simp only [View.readAt_eq_ld, h1.read_unread, h3.read_unread, View.ld_unit_zero (S := S5000x128) hz, View.ld_unit_zero (S := S1x128) hz]

/-- The first point stores the zero row, reads it back, and leaves the payload of the block and of that zero row. -/
theorem out_A_1 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_1 c i a1 h1 a2 h2 a3 h3 hc x = k4_pay4 x (k4_pay1 (F := F)) := by
  unfold out4_A_1
  rw [View.read_writes_eq_canon _ _ _ (cover4_A_1 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S5000x128) hz]

/-- The same for the sums-of-squares buffer. -/
theorem out_A_2 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_2 c i a1 h1 a2 h2 a3 h3 hc x = k4_pay5 x (k4_pay2 (F := F)) := by
  unfold out4_A_2
  rw [View.read_writes_eq_canon _ _ _ (cover4_A_2 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S5000x128) hz]

/-! ## The payloads at a lane, over the extended reals -/

/-- The sum along the rows of a [5000,128] block, at lane k, is the sum of the block's column k. -/
theorem laneSum_apply (src : FVec Ideal S5000x128 .f32) (k : Fin 128) :
    multiReduction (F := Ideal) .add [0] S128 src 0x00000000#32 reduces_S5000x128_S128 (.inl rfl) rfl (ix1 k)
      = ∑ r : Fin 5000, src (ix2 r k) := by
  refine (Ideal.multiReduction_add_single src 0x00000000#32 reduces_S5000x128_S128 (.inl rfl) rfl (ix1 k)).trans ?_
  refine Finset.sum_congr rfl fun r _ => congrArg src ?_
  funext a
  match a with
  | ⟨0, _⟩ => rfl
  | ⟨1, _⟩ => rfl

/-- The loaded block re-cast to its own shape is itself. -/
theorem pay3_eq (x : Vec Ideal S5000x128 .f32) : k4_pay3 x = x := shapeCast_self _ _

/-- The two rows the first point stores are zero at every lane. -/
theorem pay1_apply (k : Fin 128) : k4_pay1 (F := Ideal) (ix2 (0 : Fin 1) k) = 0 := Ideal.ofBits_zero_f32
theorem pay2_apply (k : Fin 128) : k4_pay2 (F := Ideal) (ix2 (0 : Fin 1) k) = 0 := Ideal.ofBits_zero_f32

/-- The sums row after a point, at lane k: what it held plus the block's column sum. -/
theorem pay4_apply (x : Vec Ideal S5000x128 .f32) (xo : Vec Ideal S1x128 .f32) (k : Fin 128) :
    k4_pay4 x xo (ix2 (0 : Fin 1) k) = xo (ix2 (0 : Fin 1) k) + ∑ r : Fin 5000, x (ix2 r k) := by
  have e1 : shapeCast S1x128 xo shapeCasts_S1x128_S1x128 = xo := shapeCast_self _ _
  have e2 := shapeCast_a_1a_apply (multiReduction (F := Ideal) .add [0] S128 (k4_pay3 x) 0x00000000#32 reduces_S5000x128_S128 (.inl rfl) rfl)
    shapeCasts_S128_S1x128 (0 : Fin 1) k
  show shapeCast S1x128 xo shapeCasts_S1x128_S1x128 (ix2 (0 : Fin 1) k)
      + shapeCast S1x128 (multiReduction (F := Ideal) .add [0] S128 (k4_pay3 x) 0x00000000#32 reduces_S5000x128_S128 (.inl rfl) rfl)
          shapeCasts_S128_S1x128 (ix2 (0 : Fin 1) k) = _
  rw [e1, e2, laneSum_apply, pay3_eq]

/-- The sums-of-squares row after a point, at lane k: what it held plus the block's column sum of squares. -/
theorem pay5_apply (x : Vec Ideal S5000x128 .f32) (xo : Vec Ideal S1x128 .f32) (k : Fin 128) :
    k4_pay5 x xo (ix2 (0 : Fin 1) k) = xo (ix2 (0 : Fin 1) k) + ∑ r : Fin 5000, x (ix2 r k) * x (ix2 r k) := by
  have e1 : shapeCast S1x128 xo shapeCasts_S1x128_S1x128 = xo := shapeCast_self _ _
  have e2 := shapeCast_a_1a_apply (multiReduction (F := Ideal) .add [0] S128 (mulf (k4_pay3 x) (k4_pay3 x)) 0x00000000#32 reduces_S5000x128_S128 (.inl rfl) rfl)
    shapeCasts_S128_S1x128 (0 : Fin 1) k
  show shapeCast S1x128 xo shapeCasts_S1x128_S1x128 (ix2 (0 : Fin 1) k)
      + shapeCast S1x128 (multiReduction (F := Ideal) .add [0] S128 (mulf (k4_pay3 x) (k4_pay3 x)) 0x00000000#32 reduces_S5000x128_S128 (.inl rfl) rfl)
          shapeCasts_S128_S1x128 (ix2 (0 : Fin 1) k) = _
  rw [e1, e2, laneSum_apply, pay3_eq]
  rfl

/-! ## The input block at a point -/

variable (V : (c : Dev nD) → (b : Ref sig .tc) → Buf (Elt Ideal) ((c : Thread nD τ).loc b))

/-- The array the region reads, as it finds it: a 50000 × 128 array of extended reals. -/
abbrev inp (c : Dev nD) : Arr2 50000 128 := V c main_v73

/-- The input window's block index at point t: block t along the rows, block 0 along the lanes. -/
theorem idx_facts : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

/-- Row r of block t is a row of the array. -/
theorem row_lt (t : Fin cfg4.N) (r : Fin 5000) : 5000 * t.val + r.val < 50000 := by
  have hN : t.val < 10 := lt_of_lt_of_eq t.isLt (show cfg4.N = 10 from N_4)
  have := r.isLt
  omega

/-- Entry (r, k) of the block the input window holds at point t is entry (5000·t + r, k) of the array. -/
theorem iblk_apply (c : Dev nD) (t : Fin cfg4.N) (r : Fin 5000) (k : Fin 128) :
    (iblk4 V c 0 t : Vec Ideal S5000x128 .f32) (ix2 r k)
      = inp V c (ix2 ⟨5000 * t.val + r.val, row_lt t r⟩ k) := by
  obtain ⟨e0, e1⟩ := idx_facts t
  unfold iblk4
  rw [View.read_apply]
  show V c main_v73 (((cfg4.win 0).blk t).view.emb (ix2 r k)) = V c main_v73 _
  refine congrArg (V c main_v73) ?_
  funext a
  apply Fin.ext
  match a with
  | ⟨0, _⟩ => show win4_0.index t (0 : Fin 2) * 5000 + 1 * r.val = 5000 * t.val + r.val; omega
  | ⟨1, _⟩ => show win4_0.index t (1 : Fin 2) * 128 + 1 * k.val = k.val; omega

/-! ## What the two accumulators hold after each point -/

open Cert.Lib.ColSum in
/-- After the first point the sums row holds, at lane k, the column sum of block 0. -/
theorem sum_first (c : Dev nD) (t : Fin cfg4.N) (h0 : t.val % 10 = 0) (k : Fin 128) :
    (outsAt4 V c t.val t.isLt).1 (ix2 (0 : Fin 1) k)
      = ∑ r : Fin 5000, inp V c (ix2 ⟨5000 * t.val + r.val, row_lt t r⟩ k) := by
  rw [outsAt4_A V c t h0]
  dsimp only
  refine (congrFun (out_A_1 (F := Ideal) c (grid4.coords t) (ms4_0 t) (hs4_0 t) (ms4_1 t) (hs4_1 t) (ms4_2 t) (hs4_2 t)
    ((hcond4_0 t).mpr h0) (iblk4 V c 0 t)) (ix2 (0 : Fin 1) k)).trans ?_
  refine (pay4_apply (iblk4 V c 0 t) (k4_pay1 (F := Ideal)) k).trans ?_
  rw [pay1_apply, zero_add]
  exact Finset.sum_congr rfl fun r _ => iblk_apply V c t r k

/-- After the first point the sums-of-squares row holds, at lane k, block 0's column sum of squares. -/
theorem sq_first (c : Dev nD) (t : Fin cfg4.N) (h0 : t.val % 10 = 0) (k : Fin 128) :
    (outsAt4 V c t.val t.isLt).2 (ix2 (0 : Fin 1) k)
      = ∑ r : Fin 5000, inp V c (ix2 ⟨5000 * t.val + r.val, row_lt t r⟩ k)
          * inp V c (ix2 ⟨5000 * t.val + r.val, row_lt t r⟩ k) := by
  rw [outsAt4_A V c t h0]
  dsimp only
  refine (congrFun (out_A_2 (F := Ideal) c (grid4.coords t) (ms4_0 t) (hs4_0 t) (ms4_1 t) (hs4_1 t) (ms4_2 t) (hs4_2 t)
    ((hcond4_0 t).mpr h0) (iblk4 V c 0 t)) (ix2 (0 : Fin 1) k)).trans ?_
  refine (pay5_apply (iblk4 V c 0 t) (k4_pay2 (F := Ideal)) k).trans ?_
  rw [pay2_apply, zero_add]
  exact Finset.sum_congr rfl fun r _ => by rw [iblk_apply V c t r k]

/-- At a later point the sums row holds what it held after the point before plus the block's column sum. -/
theorem sum_step (c : Dev nD) (t : Fin cfg4.N) (h0 : ¬t.val % 10 = 0) (k : Fin 128) :
    (outsAt4 V c t.val t.isLt).1 (ix2 (0 : Fin 1) k)
      = (outsAt4 V c (t.val - 1) (Nat.lt_of_le_of_lt (Nat.sub_le _ _) t.isLt)).1 (ix2 (0 : Fin 1) k)
        + ∑ r : Fin 5000, inp V c (ix2 ⟨5000 * t.val + r.val, row_lt t r⟩ k) := by
  rw [outsAt4_B V c t h0]
  dsimp only
  refine (congrFun (out_B_1 (F := Ideal) c (grid4.coords t) (ms4_0 t) (hs4_0 t) (ms4_1 t) (hs4_1 t) (ms4_2 t) (hs4_2 t)
    (fun h => h0 ((hcond4_0 t).mp h)) (iblk4 V c 0 t)
    (outsAt4 V c (t.val - 1) (Nat.lt_of_le_of_lt (Nat.sub_le _ _) t.isLt)).1
    (outsAt4 V c (t.val - 1) (Nat.lt_of_le_of_lt (Nat.sub_le _ _) t.isLt)).2) (ix2 (0 : Fin 1) k)).trans ?_
  refine (pay4_apply (iblk4 V c 0 t) _ k).trans ?_
  exact congrArg (_ + ·) (Finset.sum_congr rfl fun r _ => iblk_apply V c t r k)

/-- At a later point the sums-of-squares row holds what it held plus the block's column sum of squares. -/
theorem sq_step (c : Dev nD) (t : Fin cfg4.N) (h0 : ¬t.val % 10 = 0) (k : Fin 128) :
    (outsAt4 V c t.val t.isLt).2 (ix2 (0 : Fin 1) k)
      = (outsAt4 V c (t.val - 1) (Nat.lt_of_le_of_lt (Nat.sub_le _ _) t.isLt)).2 (ix2 (0 : Fin 1) k)
        + ∑ r : Fin 5000, inp V c (ix2 ⟨5000 * t.val + r.val, row_lt t r⟩ k)
            * inp V c (ix2 ⟨5000 * t.val + r.val, row_lt t r⟩ k) := by
  rw [outsAt4_B V c t h0]
  dsimp only
  refine (congrFun (out_B_2 (F := Ideal) c (grid4.coords t) (ms4_0 t) (hs4_0 t) (ms4_1 t) (hs4_1 t) (ms4_2 t) (hs4_2 t)
    (fun h => h0 ((hcond4_0 t).mp h)) (iblk4 V c 0 t)
    (outsAt4 V c (t.val - 1) (Nat.lt_of_le_of_lt (Nat.sub_le _ _) t.isLt)).1
    (outsAt4 V c (t.val - 1) (Nat.lt_of_le_of_lt (Nat.sub_le _ _) t.isLt)).2) (ix2 (0 : Fin 1) k)).trans ?_
  refine (pay5_apply (iblk4 V c 0 t) _ k).trans ?_
  exact congrArg (_ + ·) (Finset.sum_congr rfl fun r _ => by rw [iblk_apply V c t r k])

open Cert.Lib.ColSum in
/-- THE INVARIANT, sums: after point n the sums row holds, at lane k, the sum of column k over the rows below
    5000·(n + 1) — by induction on the point. -/
theorem sum_inv (c : Dev nD) (k : Fin 128) : ∀ (n : ℕ) (hn : n < cfg4.N),
    (outsAt4 V c n hn).1 (ix2 (0 : Fin 1) k)
      = ∑ p ∈ Finset.range (5000 * (n + 1)), rowAt (fun r : Fin 50000 => inp V c (ix2 r k)) p
  | 0, hn => by
    refine (sum_first V c ⟨0, hn⟩ (Nat.zero_mod _) k).trans ?_
    rw [sum_range_first_block]
    exact Finset.sum_congr rfl fun r _ =>
      eq_rowAt_of_eq (fun r : Fin 50000 => inp V c (ix2 r k)) _ _ _ (by show r.val = 5000 * 0 + r.val; omega)
  | n + 1, hn => by
    have hN : cfg4.N = 10 := N_4
    refine (sum_step V c ⟨n + 1, hn⟩ (by dsimp only; omega) k).trans ?_
    show (outsAt4 V c n _).1 (ix2 (0 : Fin 1) k) + _ = _
    rw [sum_inv c k n (Nat.lt_of_succ_lt hn), Nat.mul_succ 5000 (n + 1), sum_range_add_block]
    exact congrArg (_ + ·) (Finset.sum_congr rfl fun r _ =>
      eq_rowAt_of_eq (fun r : Fin 50000 => inp V c (ix2 r k)) _ _ _ rfl)

open Cert.Lib.ColSum in
/-- THE INVARIANT, squares: after point n the sums-of-squares row holds, at lane k, the sum of the squares of
    column k over the rows below 5000·(n + 1). -/
theorem sq_inv (c : Dev nD) (k : Fin 128) : ∀ (n : ℕ) (hn : n < cfg4.N),
    (outsAt4 V c n hn).2 (ix2 (0 : Fin 1) k)
      = ∑ p ∈ Finset.range (5000 * (n + 1)), rowAt (fun r : Fin 50000 =>
          inp V c (ix2 r k) * inp V c (ix2 r k)) p
  | 0, hn => by
    refine (sq_first V c ⟨0, hn⟩ (Nat.zero_mod _) k).trans ?_
    rw [sum_range_first_block]
    exact Finset.sum_congr rfl fun r _ =>
      eq_rowAt_of_eq (fun r : Fin 50000 => inp V c (ix2 r k) * inp V c (ix2 r k)) _ _ _ (by show r.val = 5000 * 0 + r.val; omega)
  | n + 1, hn => by
    have hN : cfg4.N = 10 := N_4
    refine (sq_step V c ⟨n + 1, hn⟩ (by dsimp only; omega) k).trans ?_
    show (outsAt4 V c n _).2 (ix2 (0 : Fin 1) k) + _ = _
    rw [sq_inv c k n (Nat.lt_of_succ_lt hn), Nat.mul_succ 5000 (n + 1), sum_range_add_block]
    exact congrArg (_ + ·) (Finset.sum_congr rfl fun r _ =>
      eq_rowAt_of_eq (fun r : Fin 50000 => inp V c (ix2 r k) * inp V c (ix2 r k)) _ _ _ rfl)

/-! ## The two result arrays after the region -/

open Cert.Lib.ColSum in
/-- After the last point the sums row holds every column's sum over all the rows. -/
theorem sum_last (c : Dev nD) (k : Fin 128) :
    (outsAt4 V c t4_9.val t4_9.isLt).1 (ix2 (0 : Fin 1) k) = colSum (V c main_v73 : Arr2 50000 128) k :=
  (sum_inv V c k t4_9.val t4_9.isLt).trans (sum_eq_sum_range _).symm

open Cert.Lib.ColSum in
/-- After the last point the sums-of-squares row holds every column's sum of squares over all the rows. -/
theorem sq_last (c : Dev nD) (k : Fin 128) :
    (outsAt4 V c t4_9.val t4_9.isLt).2 (ix2 (0 : Fin 1) k) = colSumSq (V c main_v73 : Arr2 50000 128) k :=
  (sq_inv V c k t4_9.val t4_9.isLt).trans (sum_eq_sum_range _).symm

/-- The one block of a [1,128] result array sits at offset zero on both axes. -/
theorem hz1 : (fun a => win4_1.index t4_9 a * main_v74_0.ty.shape.size a) = fun _ => 0 :=
  funext fun a => by fin_cases a <;> decide +kernel
theorem hz2 : (fun a => win4_2.index t4_9 a * main_v74_1.ty.shape.size a) = fun _ => 0 :=
  funext fun a => by fin_cases a <;> decide +kernel

/-- The one write-back of the sums window, at the last point, writes the column sums: its block is the whole array. -/
theorem flushed_sum (c : Dev nD) (t : Fin cfg4.N) (hf : (cfg4.win 1).flush t = true) :
    (dat4 V c).flushed 1 t = ((cfg4.win 1).blk t).view.read (Elt Ideal)
      (fun j => colSum (V c main_v73 : Arr2 50000 128) (j 1 : Fin 128) : Arr2 1 128) := by
  have hN : cfg4.N = 10 := N_4
  have h9 : t.val = 9 := by have := (flush4_1 t).mp hf; have := t.isLt; omega
  obtain rfl : t = t4_9 := Fin.ext h9
  have hY : (outsAt4 V c t4_9.val t4_9.isLt).1
      = (fun j => colSum (V c main_v73 : Arr2 50000 128) (j 1 : Fin 128) : Arr2 1 128) := by
    funext j
    obtain ⟨u, k, rfl⟩ : ∃ (u : Fin 1) (k : Fin 128), j = ix2 u k := ⟨j 0, j 1, eq_ix2 j⟩
    obtain rfl : u = 0 := Subsingleton.elim _ _
    exact sum_last V c k
  show (cfg4.win 1).cut (grid4.coords t4_9) ((dat4 V c).after 1 t4_9) = _
  rw [after4_1, hY]
  exact (Memref.read_access_unit_zero (Elt Ideal) main_v74_0 hz1 (fun a => by rw [congrFun hz1 a]; simp) _).symm

/-- The one write-back of the sums-of-squares window writes the column sums of squares. -/
theorem flushed_sq (c : Dev nD) (t : Fin cfg4.N) (hf : (cfg4.win 2).flush t = true) :
    (dat4 V c).flushed 2 t = ((cfg4.win 2).blk t).view.read (Elt Ideal)
      (fun j => colSumSq (V c main_v73 : Arr2 50000 128) (j 1 : Fin 128) : Arr2 1 128) := by
  have hN : cfg4.N = 10 := N_4
  have h9 : t.val = 9 := by have := (flush4_2 t).mp hf; have := t.isLt; omega
  obtain rfl : t = t4_9 := Fin.ext h9
  have hY : (outsAt4 V c t4_9.val t4_9.isLt).2
      = (fun j => colSumSq (V c main_v73 : Arr2 50000 128) (j 1 : Fin 128) : Arr2 1 128) := by
    funext j
    obtain ⟨u, k, rfl⟩ : ∃ (u : Fin 1) (k : Fin 128), j = ix2 u k := ⟨j 0, j 1, eq_ix2 j⟩
    obtain rfl : u = 0 := Subsingleton.elim _ _
    exact sq_last V c k
  show (cfg4.win 2).cut (grid4.coords t4_9) ((dat4 V c).after 2 t4_9) = _
  rw [after4_2, hY]
  exact (Memref.read_access_unit_zero (Elt Ideal) main_v74_1 hz2 (fun a => by rw [congrFun hz2 a]; simp) _).symm

/-- THE SUMS ARRAY after the region: entry (0, k) is the sum of column k of the input over all 50000 rows. -/
theorem final_sum (c : Dev nD) :
    ((dat4 (F := Ideal) V c).arrAt 1 cfg4.N : Arr2 1 128)
      = fun j => colSum (V c main_v73 : Arr2 50000 128) (j 1 : Fin 128) :=
  (dat4 V c).arrAt_eq_of_cover 1 _ (flushed_sum V c) fun i =>
    ⟨t4_9, (flush4_1 t4_9).mpr rfl, by
      show i ∈ ((View.whole main_v74_0).slice (win4_1.rect t4_9)).set
      rw [View.set_slice_whole, Rect.mem_set_unit]
      intro a
      have h0 : (i 0 : Nat) < 1 := (i 0).isLt
      have h1 : (i 1 : Nat) < 128 := (i 1).isLt
      match a with
      | ⟨0, _⟩ =>
        show win4_1.index t4_9 0 * win4_1.size 0 ≤ (i 0 : Nat) ∧ (i 0 : Nat) < win4_1.index t4_9 0 * win4_1.size 0 + win4_1.xsize (grid4.coords t4_9) 0
        rw [show win4_1.index t4_9 0 * win4_1.size 0 = 0 from by decide +kernel, show win4_1.xsize (grid4.coords t4_9) 0 = 1 from by decide +kernel]; omega
      | ⟨1, _⟩ =>
        show win4_1.index t4_9 1 * win4_1.size 1 ≤ (i 1 : Nat) ∧ (i 1 : Nat) < win4_1.index t4_9 1 * win4_1.size 1 + win4_1.xsize (grid4.coords t4_9) 1
        rw [show win4_1.index t4_9 1 * win4_1.size 1 = 0 from by decide +kernel, show win4_1.xsize (grid4.coords t4_9) 1 = 128 from by decide +kernel]; omega⟩

/-- THE SUMS-OF-SQUARES ARRAY after the region: entry (0, k) is the sum of the squares of column k of the input. -/
theorem final_sumsq (c : Dev nD) :
    ((dat4 (F := Ideal) V c).arrAt 2 cfg4.N : Arr2 1 128)
      = fun j => colSumSq (V c main_v73 : Arr2 50000 128) (j 1 : Fin 128) :=
  (dat4 V c).arrAt_eq_of_cover 2 _ (flushed_sq V c) fun i =>
    ⟨t4_9, (flush4_2 t4_9).mpr rfl, by
      show i ∈ ((View.whole main_v74_1).slice (win4_2.rect t4_9)).set
      rw [View.set_slice_whole, Rect.mem_set_unit]
      intro a
      have h0 : (i 0 : Nat) < 1 := (i 0).isLt
      have h1 : (i 1 : Nat) < 128 := (i 1).isLt
      match a with
      | ⟨0, _⟩ =>
        show win4_2.index t4_9 0 * win4_2.size 0 ≤ (i 0 : Nat) ∧ (i 0 : Nat) < win4_2.index t4_9 0 * win4_2.size 0 + win4_2.xsize (grid4.coords t4_9) 0
        rw [show win4_2.index t4_9 0 * win4_2.size 0 = 0 from by decide +kernel, show win4_2.xsize (grid4.coords t4_9) 0 = 1 from by decide +kernel]; omega
      | ⟨1, _⟩ =>
        show win4_2.index t4_9 1 * win4_2.size 1 ≤ (i 1 : Nat) ∧ (i 1 : Nat) < win4_2.index t4_9 1 * win4_2.size 1 + win4_2.xsize (grid4.coords t4_9) 1
        rw [show win4_2.index t4_9 1 * win4_2.size 1 = 0 from by decide +kernel, show win4_2.xsize (grid4.coords t4_9) 1 = 128 from by decide +kernel]; omega⟩

end Cert.KernelIdeal.Stats4

end
-- ==== Proof.Bn2.lean ====
/-
  The normalise-and-rectify region, read as one whole-array function. Each of the ten grid points takes
  5000 consecutive rows of the large input and the same four one-row operands (a mean, a variance, a scale
  and a shift, each a single row of 128 columns), and writes, at row r and column k of its block,
  max ((g k · (x (r, k) − mean k)) · rsqrt (var k + ε) + shift k) 0. Point t's block is rows
  5000 t … 5000 t + 4999 of the array, so row R is written by point R / 5000, the ten blocks tile the
  array, and the array after the region is that expression of the operands at every index.
-/
import proofs.«173831_j84808424227048_1_alg».proof.Proof.Gen.KernelIdeal.Frame
import proofs.«173831_j84808424227048_1_alg».proof.Proof.GcnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bn2

open Idealize.ShloMosaic Idealize.ShloMosaic.TcCoe Idealize.ShloMosaic.ValueIdx Idealize.SL.Sem
open Cert.KernelIdeal Cert.KernelIdeal.Gen Cert.Gcn
open Idealize.ShloMosaic.Pipeline (Dat)

/-- The block's arithmetic at row `r`, column `k`: the four one-row operands are read at column `k` of
    their only row, whatever the row `r` of the block. -/
theorem pay_apply (x : Vec Ideal S5000x128 .f32) (va g mu be : Vec Ideal S1x128 .f32) (r : Fin 5000) (k : Fin 128) :
    k2_pay1 x va g mu be (ix2 r k)
      = max ((g (ix2 (0 : Fin 1) k) * (x (ix2 r k) - mu (ix2 (0 : Fin 1) k))) * Ideal.rsqrt (va (ix2 (0 : Fin 1) k) + epsF)
              + be (ix2 (0 : Fin 1) k)) zeroF := by
  unfold k2_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-- The zero offsets, spelt as the constant function. -/
theorem hz : (![0, 0] : Fin 2 → Nat) = fun _ => 0 := funext fun a => by fin_cases a <;> rfl

/-- The index maps over the ten grid points: the two large windows are at block row `t`, column block 0;
    the four one-row windows stay at block (0, 0). -/
theorem idx_facts : ∀ t : Fin cfg2.N,
      win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

variable (V : (c : Dev nD) → (b : Ref sig .tc) → Buf (Elt Ideal) ((c : Thread nD τ).loc b))

/-- The large input's block at point `t` is rows `5000 t … 5000 t + 4999` of the array. -/
theorem iblk_x (c : Dev nD) (t : Fin cfg2.N) (j : S5000x128.Idx) (i : S50000x128.Idx)
    (h0 : (i 0).val = 5000 * t.val + (j 0).val) (h1 : (i 1).val = (j 1).val) :
    (iblk2 V c 0 t : Vec Ideal S5000x128 .f32) j = (V c main_v46 : Arr2 50000 128) i := by
  obtain ⟨e0, e1, -⟩ := idx_facts t
  unfold iblk2
  rw [View.read_apply]
  show V c main_v46 _ = V c main_v46 _
  congr 1
  funext a
  apply Fin.ext
  match a with
  | ⟨0, _⟩ => show win2_0.index t (0 : Fin 2) * 5000 + 1 * (j 0).val = (i 0).val; rw [e0, h0]; omega
  | ⟨1, _⟩ => show win2_0.index t (1 : Fin 2) * 128 + 1 * (j 1).val = (i 1).val; rw [e1, h1]; omega

/-- A one-row window's block at any point is the array's only row. -/
theorem iblk_row1 (c : Dev nD) (t : Fin cfg2.N) (k : Fin 128) :
    (iblk2 V c 1 t : Vec Ideal S1x128 .f32) (ix2 (0 : Fin 1) k) = (V c main_v49 : Arr2 1 128) (ix2 (0 : Fin 1) k) := by
  obtain ⟨-, -, -, -, e0, e1, -⟩ := idx_facts t
  unfold iblk2
  rw [View.read_apply]
  show V c main_v49 _ = V c main_v49 _
  congr 1
  funext a
  apply Fin.ext
  match a with
  | ⟨0, _⟩ => show win2_1.index t (0 : Fin 2) * 1 + 1 * 0 = 0; rw [e0]
  | ⟨1, _⟩ => show win2_1.index t (1 : Fin 2) * 128 + 1 * k.val = k.val; rw [e1]; omega

theorem iblk_row2 (c : Dev nD) (t : Fin cfg2.N) (k : Fin 128) :
    (iblk2 V c 2 t : Vec Ideal S1x128 .f32) (ix2 (0 : Fin 1) k) = (V c main_v53 : Arr2 1 128) (ix2 (0 : Fin 1) k) := by
  obtain ⟨-, -, -, -, -, -, e0, e1, -⟩ := idx_facts t
  unfold iblk2
  rw [View.read_apply]
  show V c main_v53 _ = V c main_v53 _
  congr 1
  funext a
  apply Fin.ext
  match a with
  | ⟨0, _⟩ => show win2_2.index t (0 : Fin 2) * 1 + 1 * 0 = 0; rw [e0]
  | ⟨1, _⟩ => show win2_2.index t (1 : Fin 2) * 128 + 1 * k.val = k.val; rw [e1]; omega

theorem iblk_row3 (c : Dev nD) (t : Fin cfg2.N) (k : Fin 128) :
    (iblk2 V c 3 t : Vec Ideal S1x128 .f32) (ix2 (0 : Fin 1) k) = (V c main_v54 : Arr2 1 128) (ix2 (0 : Fin 1) k) := by
  obtain ⟨-, -, -, -, -, -, -, -, e0, e1, -⟩ := idx_facts t
  unfold iblk2
  rw [View.read_apply]
  show V c main_v54 _ = V c main_v54 _
  congr 1
  funext a
  apply Fin.ext
  match a with
  | ⟨0, _⟩ => show win2_3.index t (0 : Fin 2) * 1 + 1 * 0 = 0; rw [e0]
  | ⟨1, _⟩ => show win2_3.index t (1 : Fin 2) * 128 + 1 * k.val = k.val; rw [e1]; omega

theorem iblk_row4 (c : Dev nD) (t : Fin cfg2.N) (k : Fin 128) :
    (iblk2 V c 4 t : Vec Ideal S1x128 .f32) (ix2 (0 : Fin 1) k) = (V c main_v55 : Arr2 1 128) (ix2 (0 : Fin 1) k) := by
  obtain ⟨-, -, -, -, -, -, -, -, -, -, e0, e1⟩ := idx_facts t
  unfold iblk2
  rw [View.read_apply]
  show V c main_v55 _ = V c main_v55 _
  congr 1
  funext a
  apply Fin.ext
  match a with
  | ⟨0, _⟩ => show win2_4.index t (0 : Fin 2) * 1 + 1 * 0 = 0; rw [e0]
  | ⟨1, _⟩ => show win2_4.index t (1 : Fin 2) * 128 + 1 * k.val = k.val; rw [e1]; omega

/-- The whole-array function the region computes: the normalised, rectified layer of the large input by
    the four one-row operands. -/
abbrev G (c : Dev nD) : Arr2 50000 128 :=
  bnrelu (V c main_v46 : Arr2 50000 128)
    (fun k => (V c main_v49 : Arr2 1 128) (ix2 (0 : Fin 1) k)) (fun k => (V c main_v53 : Arr2 1 128) (ix2 (0 : Fin 1) k))
    (fun k => (V c main_v54 : Arr2 1 128) (ix2 (0 : Fin 1) k)) (fun k => (V c main_v55 : Arr2 1 128) (ix2 (0 : Fin 1) k))

/-- One entry of what point `t` computes is the entry of `G` in row `5000 t + r`. -/
theorem point_eq (c : Dev nD) (t : Fin cfg2.N) (r : Fin 5000) (k : Fin 128) (R : Fin 50000) (hR : R.val = 5000 * t.val + r.val) :
    k2_pay1 (iblk2 V c 0 t) (iblk2 V c 2 t) (iblk2 V c 3 t) (iblk2 V c 1 t) (iblk2 V c 4 t) (ix2 r k) = G V c (ix2 R k) := by
  refine (pay_apply (iblk2 V c 0 t) (iblk2 V c 2 t) (iblk2 V c 3 t) (iblk2 V c 1 t) (iblk2 V c 4 t) r k).trans ?_
  rw [iblk_row1 V c t k, iblk_row2 V c t k, iblk_row3 V c t k, iblk_row4 V c t k,
    iblk_x V c t (ix2 r k) (ix2 R k) hR rfl]
  rfl

/-- What point `t` writes back is block `t` of `G`: entry `(r, k)` of the block is entry `(5000 t + r, k)` of the array. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  obtain ⟨-, -, e0, e1, -⟩ := idx_facts t
  have ht : t.val < 10 := by have h := t.isLt; have hN : cfg2.N = 10 := N_2; omega
  have key : ∀ j : S5000x128.Idx,
      k2_pay1 (iblk2 V c 0 t) (iblk2 V c 2 t) (iblk2 V c 3 t) (iblk2 V c 1 t) (iblk2 V c 4 t) j
        = G V c (((cfg2.win 5).blk t).view.emb j) := by
    intro j
    obtain ⟨r, k, rfl⟩ : ∃ (r : Fin 5000) (k : Fin 128), j = ix2 r k := ⟨j 0, j 1, eq_ix2 j⟩
    have hR : 5000 * t.val + r.val < 50000 := by have := r.isLt; omega
    rw [point_eq V c t r k ⟨5000 * t.val + r.val, hR⟩ rfl]
    refine congrArg (G V c) (funext fun a => Fin.ext ?_)
    match a with
    | ⟨0, _⟩ => show 5000 * t.val + r.val = win2_5.index t (0 : Fin 2) * 5000 + 1 * r.val; rw [e0]; omega
    | ⟨1, _⟩ => show k.val = win2_5.index t (1 : Fin 2) * 128 + 1 * k.val; rw [e1]; omega
  funext j
  exact key j

/-- An index of the array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v56).slice (win2_5.rect t)).set ↔ _
  rw [View.set_slice_whole, Rect.mem_set_unit]
  exact Iff.rfl

/-- Row `R` of the array lies in the block of point `R / 5000`: the ten blocks tile the array. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  have hlt : (i 0).val / 5000 < cfg2.N := by rw [hN]; omega
  obtain ⟨-, -, e0, e1, -⟩ := idx_facts ⟨(i 0).val / 5000, hlt⟩
  refine ⟨⟨(i 0).val / 5000, hlt⟩, flush2_5 _, ?_⟩
  rw [mem_blk]
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, hlt⟩ (1 : Fin 2) * 128 ≤ (i 1).val ∧ (i 1).val < win2_5.index ⟨(i 0).val / 5000, hlt⟩ (1 : Fin 2) * 128 + 128
    rw [e1]; omega

/-- After the region the output array is the normalised, rectified layer of the large input by the four
    one-row operands, as the region found them. -/
theorem final (c : Dev nD) :
    ((dat2 (F := Ideal) V c).arrAt 5 cfg2.N : Arr2 50000 128)
      = bnrelu (V c main_v46 : Arr2 50000 128)
          (fun k => (V c main_v49 : Arr2 1 128) (ix2 (0 : Fin 1) k)) (fun k => (V c main_v53 : Arr2 1 128) (ix2 (0 : Fin 1) k))
          (fun k => (V c main_v54 : Arr2 1 128) (ix2 (0 : Fin 1) k)) (fun k => (V c main_v55 : Arr2 1 128) (ix2 (0 : Fin 1) k)) :=
  (dat2 (F := Ideal) V c).arrAt_eq_of_cover 5 (G V c) (fun t _ => flushed_eq V c t) cover

end Cert.KernelIdeal.Bn2

end
-- ==== Proof.Bn5.lean ====
/-
  The normalise-and-rectify region, read as one whole-array function. Each of the ten grid points takes
  5000 consecutive rows of the large input and the same four one-row operands (a mean, a variance, a scale
  and a shift, each a single row of 128 columns), and writes, at row r and column k of its block,
  max ((g k · (x (r, k) − mean k)) · rsqrt (var k + ε) + shift k) 0. Point t's block is rows
  5000 t … 5000 t + 4999 of the array, so row R is written by point R / 5000, the ten blocks tile the
  array, and the array after the region is that expression of the operands at every index.
-/
import proofs.«173831_j84808424227048_1_alg».proof.Proof.Gen.KernelIdeal.Frame
import proofs.«173831_j84808424227048_1_alg».proof.Proof.GcnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bn5

open Idealize.ShloMosaic Idealize.ShloMosaic.TcCoe Idealize.ShloMosaic.ValueIdx Idealize.SL.Sem
open Cert.KernelIdeal Cert.KernelIdeal.Gen Cert.Gcn
open Idealize.ShloMosaic.Pipeline (Dat)

/-- The block's arithmetic at row `r`, column `k`: the four one-row operands are read at column `k` of
    their only row, whatever the row `r` of the block. -/
theorem pay_apply (x : Vec Ideal S5000x128 .f32) (va g mu be : Vec Ideal S1x128 .f32) (r : Fin 5000) (k : Fin 128) :
    k5_pay1 x va g mu be (ix2 r k)
      = max ((g (ix2 (0 : Fin 1) k) * (x (ix2 r k) - mu (ix2 (0 : Fin 1) k))) * Ideal.rsqrt (va (ix2 (0 : Fin 1) k) + epsF)
              + be (ix2 (0 : Fin 1) k)) zeroF := by
  unfold k5_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-- The zero offsets, spelt as the constant function. -/
theorem hz : (![0, 0] : Fin 2 → Nat) = fun _ => 0 := funext fun a => by fin_cases a <;> rfl

/-- The index maps over the ten grid points: the two large windows are at block row `t`, column block 0;
    the four one-row windows stay at block (0, 0). -/
theorem idx_facts : ∀ t : Fin cfg5.N,
      win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

variable (V : (c : Dev nD) → (b : Ref sig .tc) → Buf (Elt Ideal) ((c : Thread nD τ).loc b))

/-- The large input's block at point `t` is rows `5000 t … 5000 t + 4999` of the array. -/
theorem iblk_x (c : Dev nD) (t : Fin cfg5.N) (j : S5000x128.Idx) (i : S50000x128.Idx)
    (h0 : (i 0).val = 5000 * t.val + (j 0).val) (h1 : (i 1).val = (j 1).val) :
    (iblk5 V c 0 t : Vec Ideal S5000x128 .f32) j = (V c main_v73 : Arr2 50000 128) i := by
  obtain ⟨e0, e1, -⟩ := idx_facts t
  unfold iblk5
  rw [View.read_apply]
  show V c main_v73 _ = V c main_v73 _
  congr 1
  funext a
  apply Fin.ext
  match a with
  | ⟨0, _⟩ => show win5_0.index t (0 : Fin 2) * 5000 + 1 * (j 0).val = (i 0).val; rw [e0, h0]; omega
  | ⟨1, _⟩ => show win5_0.index t (1 : Fin 2) * 128 + 1 * (j 1).val = (i 1).val; rw [e1, h1]; omega

/-- A one-row window's block at any point is the array's only row. -/
theorem iblk_row1 (c : Dev nD) (t : Fin cfg5.N) (k : Fin 128) :
    (iblk5 V c 1 t : Vec Ideal S1x128 .f32) (ix2 (0 : Fin 1) k) = (V c main_v76 : Arr2 1 128) (ix2 (0 : Fin 1) k) := by
  obtain ⟨-, -, -, -, e0, e1, -⟩ := idx_facts t
  unfold iblk5
  rw [View.read_apply]
  show V c main_v76 _ = V c main_v76 _
  congr 1
  funext a
  apply Fin.ext
  match a with
  | ⟨0, _⟩ => show win5_1.index t (0 : Fin 2) * 1 + 1 * 0 = 0; rw [e0]
  | ⟨1, _⟩ => show win5_1.index t (1 : Fin 2) * 128 + 1 * k.val = k.val; rw [e1]; omega

theorem iblk_row2 (c : Dev nD) (t : Fin cfg5.N) (k : Fin 128) :
    (iblk5 V c 2 t : Vec Ideal S1x128 .f32) (ix2 (0 : Fin 1) k) = (V c main_v80 : Arr2 1 128) (ix2 (0 : Fin 1) k) := by
  obtain ⟨-, -, -, -, -, -, e0, e1, -⟩ := idx_facts t
  unfold iblk5
  rw [View.read_apply]
  show V c main_v80 _ = V c main_v80 _
  congr 1
  funext a
  apply Fin.ext
  match a with
  | ⟨0, _⟩ => show win5_2.index t (0 : Fin 2) * 1 + 1 * 0 = 0; rw [e0]
  | ⟨1, _⟩ => show win5_2.index t (1 : Fin 2) * 128 + 1 * k.val = k.val; rw [e1]; omega

theorem iblk_row3 (c : Dev nD) (t : Fin cfg5.N) (k : Fin 128) :
    (iblk5 V c 3 t : Vec Ideal S1x128 .f32) (ix2 (0 : Fin 1) k) = (V c main_v81 : Arr2 1 128) (ix2 (0 : Fin 1) k) := by
  obtain ⟨-, -, -, -, -, -, -, -, e0, e1, -⟩ := idx_facts t
  unfold iblk5
  rw [View.read_apply]
  show V c main_v81 _ = V c main_v81 _
  congr 1
  funext a
  apply Fin.ext
  match a with
  | ⟨0, _⟩ => show win5_3.index t (0 : Fin 2) * 1 + 1 * 0 = 0; rw [e0]
  | ⟨1, _⟩ => show win5_3.index t (1 : Fin 2) * 128 + 1 * k.val = k.val; rw [e1]; omega

theorem iblk_row4 (c : Dev nD) (t : Fin cfg5.N) (k : Fin 128) :
    (iblk5 V c 4 t : Vec Ideal S1x128 .f32) (ix2 (0 : Fin 1) k) = (V c main_v82 : Arr2 1 128) (ix2 (0 : Fin 1) k) := by
  obtain ⟨-, -, -, -, -, -, -, -, -, -, e0, e1⟩ := idx_facts t
  unfold iblk5
  rw [View.read_apply]
  show V c main_v82 _ = V c main_v82 _
  congr 1
  funext a
  apply Fin.ext
  match a with
  | ⟨0, _⟩ => show win5_4.index t (0 : Fin 2) * 1 + 1 * 0 = 0; rw [e0]
  | ⟨1, _⟩ => show win5_4.index t (1 : Fin 2) * 128 + 1 * k.val = k.val; rw [e1]; omega

/-- The whole-array function the region computes: the normalised, rectified layer of the large input by
    the four one-row operands. -/
abbrev G (c : Dev nD) : Arr2 50000 128 :=
  bnrelu (V c main_v73 : Arr2 50000 128)
    (fun k => (V c main_v76 : Arr2 1 128) (ix2 (0 : Fin 1) k)) (fun k => (V c main_v80 : Arr2 1 128) (ix2 (0 : Fin 1) k))
    (fun k => (V c main_v81 : Arr2 1 128) (ix2 (0 : Fin 1) k)) (fun k => (V c main_v82 : Arr2 1 128) (ix2 (0 : Fin 1) k))

/-- One entry of what point `t` computes is the entry of `G` in row `5000 t + r`. -/
theorem point_eq (c : Dev nD) (t : Fin cfg5.N) (r : Fin 5000) (k : Fin 128) (R : Fin 50000) (hR : R.val = 5000 * t.val + r.val) :
    k5_pay1 (iblk5 V c 0 t) (iblk5 V c 2 t) (iblk5 V c 3 t) (iblk5 V c 1 t) (iblk5 V c 4 t) (ix2 r k) = G V c (ix2 R k) := by
  refine (pay_apply (iblk5 V c 0 t) (iblk5 V c 2 t) (iblk5 V c 3 t) (iblk5 V c 1 t) (iblk5 V c 4 t) r k).trans ?_
  rw [iblk_row1 V c t k, iblk_row2 V c t k, iblk_row3 V c t k, iblk_row4 V c t k,
    iblk_x V c t (ix2 r k) (ix2 R k) hR rfl]
  rfl

/-- What point `t` writes back is block `t` of `G`: entry `(r, k)` of the block is entry `(5000 t + r, k)` of the array. -/
theorem flushed_eq (c : Dev nD) (t : Fin cfg5.N) :
    (dat5 (F := Ideal) V c).flushed 5 t = ((cfg5.win 5).blk t).view.read (Elt Ideal) (G V c) := by
  show (cfg5.win 5).cut (grid5.coords t) ((dat5 V c).after 5 t) = _
  rw [after5_5]
  unfold out5_5
  rw [View.canon_unit_zero hz]
  simp only [View.ld_unit_zero (S := S5000x128) hz, View.ld_unit_zero (S := S1x128) hz]
  obtain ⟨-, -, e0, e1, -⟩ := idx_facts t
  have ht : t.val < 10 := by have h := t.isLt; have hN : cfg5.N = 10 := N_5; omega
  have key : ∀ j : S5000x128.Idx,
      k5_pay1 (iblk5 V c 0 t) (iblk5 V c 2 t) (iblk5 V c 3 t) (iblk5 V c 1 t) (iblk5 V c 4 t) j
        = G V c (((cfg5.win 5).blk t).view.emb j) := by
    intro j
    obtain ⟨r, k, rfl⟩ : ∃ (r : Fin 5000) (k : Fin 128), j = ix2 r k := ⟨j 0, j 1, eq_ix2 j⟩
    have hR : 5000 * t.val + r.val < 50000 := by have := r.isLt; omega
    rw [point_eq V c t r k ⟨5000 * t.val + r.val, hR⟩ rfl]
    refine congrArg (G V c) (funext fun a => Fin.ext ?_)
    match a with
    | ⟨0, _⟩ => show 5000 * t.val + r.val = win5_5.index t (0 : Fin 2) * 5000 + 1 * r.val; rw [e0]; omega
    | ⟨1, _⟩ => show k.val = win5_5.index t (1 : Fin 2) * 128 + 1 * k.val; rw [e1]; omega
  funext j
  exact key j

/-- An index of the array is in point `t`'s block iff each coordinate is in the block's range on its axis. -/
theorem mem_blk (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v83).slice (win5_5.rect t)).set ↔ _
  rw [View.set_slice_whole, Rect.mem_set_unit]
  exact Iff.rfl

/-- Row `R` of the array lies in the block of point `R / 5000`: the ten blocks tile the array. -/
theorem cover (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 10 := N_5
  have hlt : (i 0).val / 5000 < cfg5.N := by rw [hN]; omega
  obtain ⟨-, -, e0, e1, -⟩ := idx_facts ⟨(i 0).val / 5000, hlt⟩
  refine ⟨⟨(i 0).val / 5000, hlt⟩, flush5_5 _, ?_⟩
  rw [mem_blk]
  intro a
  match a with
  | ⟨0, _⟩ =>
    show win5_5.index ⟨(i 0).val / 5000, hlt⟩ (0 : Fin 2) * 5000 ≤ (i 0).val ∧ (i 0).val < win5_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win5_5.index ⟨(i 0).val / 5000, hlt⟩ (1 : Fin 2) * 128 ≤ (i 1).val ∧ (i 1).val < win5_5.index ⟨(i 0).val / 5000, hlt⟩ (1 : Fin 2) * 128 + 128
    rw [e1]; omega

/-- After the region the output array is the normalised, rectified layer of the large input by the four
    one-row operands, as the region found them. -/
theorem final (c : Dev nD) :
    ((dat5 (F := Ideal) V c).arrAt 5 cfg5.N : Arr2 50000 128)
      = bnrelu (V c main_v73 : Arr2 50000 128)
          (fun k => (V c main_v76 : Arr2 1 128) (ix2 (0 : Fin 1) k)) (fun k => (V c main_v80 : Arr2 1 128) (ix2 (0 : Fin 1) k))
          (fun k => (V c main_v81 : Arr2 1 128) (ix2 (0 : Fin 1) k)) (fun k => (V c main_v82 : Arr2 1 128) (ix2 (0 : Fin 1) k)) :=
  (dat5 (F := Ideal) V c).arrAt_eq_of_cover 5 (G V c) (fun t _ => flushed_eq V c t) cover

end Cert.KernelIdeal.Bn5

end
-- ==== Proof.KerChain.lean ====
/-
  The idealized kernel program's result as one function of its arguments. The contents of the buffers at the
  fifteen segment boundaries are read one boundary at a time: a host stretch's result is its operations'
  composed function of the buffers it reads; a region's output array is the whole-array function its grid
  points' blocks tile; every other buffer is walked back to where it was last written. Layer by layer:
  the matrix product, the aggregation over the edges, the column sums and sums of squares, the mean and
  variance rows, the normalised and rectified layer; twice; then the last product and aggregation.
-/
import proofs.«173831_j84808424227048_1_alg».proof.Proof.KerKeep
import proofs.«173831_j84808424227048_1_alg».proof.Proof.KerSpec
import proofs.«173831_j84808424227048_1_alg».proof.Proof.KerRead
import proofs.«173831_j84808424227048_1_alg».proof.Proof.LibGcnAlgebra
import proofs.«173831_j84808424227048_1_alg».proof.Proof.Mat0
import proofs.«173831_j84808424227048_1_alg».proof.Proof.Mat3
import proofs.«173831_j84808424227048_1_alg».proof.Proof.Mat6
import proofs.«173831_j84808424227048_1_alg».proof.Proof.Stats1
import proofs.«173831_j84808424227048_1_alg».proof.Proof.Stats4
import proofs.«173831_j84808424227048_1_alg».proof.Proof.Bn2
import proofs.«173831_j84808424227048_1_alg».proof.Proof.Bn5

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Gcn

variable (m : (ℓ : Loc nD τ sig) → Buf (Elt Ideal) ℓ) (ρ : Dev nD → PrngReg) (c : Dev nD)

/-! ## The arguments as launched -/
abbrev a0 : FVec Ideal S50000x128 .f32 := m ((c : Thread nD τ).loc main_arg0)
abbrev a1 : IVec S2x600000 32 := m ((c : Thread nD τ).loc main_arg1)
abbrev a2 : FVec Ideal S128x128 .f32 := m ((c : Thread nD τ).loc main_arg2)
abbrev a3 : FVec Ideal S128 .f32 := m ((c : Thread nD τ).loc main_arg3)
abbrev a4 : FVec Ideal S128 .f32 := m ((c : Thread nD τ).loc main_arg4)
abbrev a5 : FVec Ideal S128 .f32 := m ((c : Thread nD τ).loc main_arg5)
abbrev a6 : FVec Ideal S128x128 .f32 := m ((c : Thread nD τ).loc main_arg6)
abbrev a7 : FVec Ideal S128 .f32 := m ((c : Thread nD τ).loc main_arg7)
abbrev a8 : FVec Ideal S128 .f32 := m ((c : Thread nD τ).loc main_arg8)
abbrev a9 : FVec Ideal S128 .f32 := m ((c : Thread nD τ).loc main_arg9)
abbrev a10 : FVec Ideal S128x64 .f32 := m ((c : Thread nD τ).loc main_arg10)
abbrev a11 : FVec Ideal S64 .f32 := m ((c : Thread nD τ).loc main_arg11)

/-- The sources, the destinations and the edge weights, from the edge list. -/
abbrev sK : IVec S650000 32 := srcIdx (a1 m c)
abbrev dK : IVec S650000 32 := dstIdx (a1 m c)
abbrev nmK : FVec Ideal S650000 .f32 := normOf (sK m c) (dK m c)

/-- The layers' arrays. -/
abbrev h1 : Arr2 50000 128 := aggr128 (sK m c) (dK m c) (nmK m c) (lin (a0 m c : Arr2 50000 128) (a2 m c : Arr2 128 128)) (a3 m c)
abbrev r1 : Arr2 50000 128 := bnStage (h1 m c) (a4 m c) (a5 m c)
abbrev h2 : Arr2 50000 128 := aggr128 (sK m c) (dK m c) (nmK m c) (lin (r1 m c) (a6 m c : Arr2 128 128)) (a7 m c)
abbrev r2 : Arr2 50000 128 := bnStage (h2 m c) (a8 m c) (a9 m c)
abbrev outK : Arr2 50000 64 := aggr64 (sK m c) (dK m c) (nmK m c) (lin (r2 m c) (a10 m c : Arr2 128 64)) (a11 m c)

/-! ## The index lists, the edge weights and the arguments at the boundaries where they are consumed -/

theorem w1_v5 : (W1 m ρ c (Proc.devRef .tc main_v5) : IVec S650000 32) = sK m c := rdA_v5 (W0 m ρ c)
theorem w1_v6 : (W1 m ρ c (Proc.devRef .tc main_v6) : IVec S650000 32) = dK m c := rdA_v6 (W0 m ρ c)
theorem w2_v5 : (W2 m ρ c (Proc.devRef .tc main_v5) : IVec S650000 32) = sK m c := (W2_keep m ρ c main_v5 (by decide)).trans (w1_v5 m ρ c)
theorem w2_v6 : (W2 m ρ c (Proc.devRef .tc main_v6) : IVec S650000 32) = dK m c := (W2_keep m ρ c main_v6 (by decide)).trans (w1_v6 m ρ c)
theorem w3_v5 : (W3 m ρ c (Proc.devRef .tc main_v5) : IVec S650000 32) = sK m c := (W3_keep m ρ c main_v5 (by decide)).trans (w2_v5 m ρ c)
theorem w3_v6 : (W3 m ρ c (Proc.devRef .tc main_v6) : IVec S650000 32) = dK m c := (W3_keep m ρ c main_v6 (by decide)).trans (w2_v6 m ρ c)
/-- The inverse square roots of the degrees, after the second stretch. -/
theorem w2_v14 : (W2 m ρ c (Proc.devRef .tc main_v14) : FVec Ideal S50000 .f32) = dinvOf (dK m c) := by
  have e12 : (W1 m ρ c (Proc.devRef .tc main_v12) : IVec S50000 1)
      = cmpf .ogt (degOf (dK m c)) (broadcastInDim S50000 ![] bcast_S_S50000 (constant S_ .f32 0x00000000#32)) := rdA_v12 (W0 m ρ c)
  have e13 : (W1 m ρ c (Proc.devRef .tc main_v13) : FVec Ideal S50000 .f32) = Host.rsqrt (degOf (dK m c)) := rdA_v13 (W0 m ρ c)
  have ec : (W1 m ρ c (Proc.devRef .tc main_cst_2) : FVec Ideal S_ .f32) = constant (F := Ideal) S_ .f32 0x00000000#32 := rdA_cst_2 (W0 m ρ c)
  exact (rdB_v14 (W1 m ρ c)).trans (by rw [e12, e13, ec]; rfl)
theorem w3_v29 : (W3 m ρ c (Proc.devRef .tc main_v29) : FVec Ideal S650000 .f32) = nmK m c :=
  (rdC_v29 (W2 m ρ c)).trans (by rw [w2_v14 m ρ c, w2_v5 m ρ c, w2_v6 m ρ c]; rfl)
theorem w4_v5 : (W4 m ρ c (Proc.devRef .tc main_v5) : IVec S650000 32) = sK m c := (walk4_v5 m ρ c).trans (w3_v5 m ρ c)
theorem w4_v6 : (W4 m ρ c (Proc.devRef .tc main_v6) : IVec S650000 32) = dK m c := (walk4_v6 m ρ c).trans (w3_v6 m ρ c)
theorem w4_v29 : (W4 m ρ c (Proc.devRef .tc main_v29) : FVec Ideal S650000 .f32) = nmK m c := (walk4_v29 m ρ c).trans (w3_v29 m ρ c)
theorem w9_v5 : (W9 m ρ c (Proc.devRef .tc main_v5) : IVec S650000 32) = sK m c := (walk9_v5 m ρ c).trans (w3_v5 m ρ c)
theorem w9_v6 : (W9 m ρ c (Proc.devRef .tc main_v6) : IVec S650000 32) = dK m c := (walk9_v6 m ρ c).trans (w3_v6 m ρ c)
theorem w9_v29 : (W9 m ρ c (Proc.devRef .tc main_v29) : FVec Ideal S650000 .f32) = nmK m c := (walk9_v29 m ρ c).trans (w3_v29 m ρ c)
theorem w14_v5 : (W14 m ρ c (Proc.devRef .tc main_v5) : IVec S650000 32) = sK m c := (walk14_v5 m ρ c).trans (w3_v5 m ρ c)
theorem w14_v6 : (W14 m ρ c (Proc.devRef .tc main_v6) : IVec S650000 32) = dK m c := (walk14_v6 m ρ c).trans (w3_v6 m ρ c)
theorem w14_v29 : (W14 m ρ c (Proc.devRef .tc main_v29) : FVec Ideal S650000 .f32) = nmK m c := (walk14_v29 m ρ c).trans (w3_v29 m ρ c)
theorem w3_arg0 : (W3 m ρ c (Proc.devRef .tc main_arg0) : FVec Ideal S50000x128 .f32) = a0 m c := walk3_arg0 m ρ c
theorem w3_arg2 : (W3 m ρ c (Proc.devRef .tc main_arg2) : FVec Ideal S128x128 .f32) = a2 m c := walk3_arg2 m ρ c
theorem w4_arg3 : (W4 m ρ c (Proc.devRef .tc main_arg3) : FVec Ideal S128 .f32) = a3 m c := walk4_arg3 m ρ c
theorem w6_arg4 : (W6 m ρ c (Proc.devRef .tc main_arg4) : FVec Ideal S128 .f32) = a4 m c := walk6_arg4 m ρ c
theorem w6_arg5 : (W6 m ρ c (Proc.devRef .tc main_arg5) : FVec Ideal S128 .f32) = a5 m c := walk6_arg5 m ρ c
theorem w8_arg6 : (W8 m ρ c (Proc.devRef .tc main_arg6) : FVec Ideal S128x128 .f32) = a6 m c := walk8_arg6 m ρ c
theorem w9_arg7 : (W9 m ρ c (Proc.devRef .tc main_arg7) : FVec Ideal S128 .f32) = a7 m c := walk9_arg7 m ρ c
theorem w11_arg8 : (W11 m ρ c (Proc.devRef .tc main_arg8) : FVec Ideal S128 .f32) = a8 m c := walk11_arg8 m ρ c
theorem w11_arg9 : (W11 m ρ c (Proc.devRef .tc main_arg9) : FVec Ideal S128 .f32) = a9 m c := walk11_arg9 m ρ c
theorem w13_arg10 : (W13 m ρ c (Proc.devRef .tc main_arg10) : FVec Ideal S128x64 .f32) = a10 m c := walk13_arg10 m ρ c
theorem w14_arg11 : (W14 m ρ c (Proc.devRef .tc main_arg11) : FVec Ideal S64 .f32) = a11 m c := walk14_arg11 m ρ c

/-! ## The first layer -/

theorem w4_v30 : (W4 m ρ c (Proc.devRef .tc main_v30) : Arr2 50000 128) = lin (a0 m c : Arr2 50000 128) (a2 m c : Arr2 128 128) := by
  have e0 : (V3 m ρ c main_arg0 : Arr2 50000 128) = a0 m c := w3_arg0 m ρ c
  have e2 : (V3 m ρ c main_arg2 : Arr2 128 128) = a2 m c := w3_arg2 m ρ c
  exact (W4_arr m ρ c 2).trans ((Mat0.final (V3 m ρ) c).trans (by rw [e0, e2]))

theorem w5_v46 : (W5 m ρ c (Proc.devRef .tc main_v46) : Arr2 50000 128) = h1 m c :=
  (rd1_v46 (W4 m ρ c)).trans (by rw [w4_v5 m ρ c, w4_v6 m ρ c, w4_v29 m ρ c, w4_v30 m ρ c, w4_arg3 m ρ c])

theorem w6_v47_0 : (W6 m ρ c (Proc.devRef .tc main_v47_0) : Arr2 1 128) = fun j => colSum (h1 m c) (j 1 : Fin 128) := by
  have e : (V5 m ρ c main_v46 : Arr2 50000 128) = h1 m c := w5_v46 m ρ c
  exact (W6_arr m ρ c 1).trans ((Stats1.final_sum (V5 m ρ) c).trans (by rw [e]))

theorem w6_v47_1 : (W6 m ρ c (Proc.devRef .tc main_v47_1) : Arr2 1 128) = fun j => colSumSq (h1 m c) (j 1 : Fin 128) := by
  have e : (V5 m ρ c main_v46 : Arr2 50000 128) = h1 m c := w5_v46 m ρ c
  exact (W6_arr m ρ c 2).trans ((Stats1.final_sumsq (V5 m ρ) c).trans (by rw [e]))

/-- The statistics region only reads the layer's array: it ends as the region found it. -/
theorem w6_v46 : (W6 m ρ c (Proc.devRef .tc main_v46) : Arr2 50000 128) = h1 m c :=
  ((W6_arr m ρ c 0).trans (((dat1 (V5 m ρ) c).arrAt_in 0 rfl _).trans (A_eq1 (V5 m ρ) c 0))).trans (w5_v46 m ρ c)

theorem w7_v46 : (W7 m ρ c (Proc.devRef .tc main_v46) : Arr2 50000 128) = h1 m c :=
  (W7_keep m ρ c main_v46 (by decide)).trans (w6_v46 m ρ c)
theorem w7_v49 : (W7 m ρ c (Proc.devRef .tc main_v49) : Arr2 1 128) = meanRow (fun j => colSum (h1 m c) (j 1 : Fin 128)) :=
  (rd2_v49 (W6 m ρ c)).trans (by rw [w6_v47_0 m ρ c]; rfl)
theorem w7_v53 : (W7 m ρ c (Proc.devRef .tc main_v53) : Arr2 1 128)
    = varRow (fun j => colSum (h1 m c) (j 1 : Fin 128)) (fun j => colSumSq (h1 m c) (j 1 : Fin 128)) :=
  (rd2_v53 (W6 m ρ c)).trans (by rw [w6_v47_0 m ρ c, w6_v47_1 m ρ c]; rfl)
theorem w7_v54 : (W7 m ρ c (Proc.devRef .tc main_v54) : Arr2 1 128) = asRow (a4 m c) :=
  (rd2_v54 (W6 m ρ c)).trans (by rw [w6_arg4 m ρ c])
theorem w7_v55 : (W7 m ρ c (Proc.devRef .tc main_v55) : Arr2 1 128) = asRow (a5 m c) :=
  (rd2_v55 (W6 m ρ c)).trans (by rw [w6_arg5 m ρ c])

theorem w8_v56 : (W8 m ρ c (Proc.devRef .tc main_v56) : Arr2 50000 128) = r1 m c := by
  have e46 : (V7 m ρ c main_v46 : Arr2 50000 128) = h1 m c := w7_v46 m ρ c
  have e49 : (V7 m ρ c main_v49 : Arr2 1 128) = _ := w7_v49 m ρ c
  have e53 : (V7 m ρ c main_v53 : Arr2 1 128) = _ := w7_v53 m ρ c
  have e54 : (V7 m ρ c main_v54 : Arr2 1 128) = _ := w7_v54 m ρ c
  have e55 : (V7 m ρ c main_v55 : Arr2 1 128) = _ := w7_v55 m ρ c
  exact (W8_arr m ρ c 5).trans ((Bn2.final (V7 m ρ) c).trans (by rw [e46, e49, e53, e54, e55]; rfl))

/-! ## The second layer -/

theorem w9_v57 : (W9 m ρ c (Proc.devRef .tc main_v57) : Arr2 50000 128) = lin (r1 m c) (a6 m c : Arr2 128 128) := by
  have e0 : (V8 m ρ c main_v56 : Arr2 50000 128) = r1 m c := w8_v56 m ρ c
  have e2 : (V8 m ρ c main_arg6 : Arr2 128 128) = a6 m c := w8_arg6 m ρ c
  exact (W9_arr m ρ c 2).trans ((Mat3.final (V8 m ρ) c).trans (by rw [e0, e2]))

theorem w10_v73 : (W10 m ρ c (Proc.devRef .tc main_v73) : Arr2 50000 128) = h2 m c :=
  (rd4_v73 (W9 m ρ c)).trans (by rw [w9_v5 m ρ c, w9_v6 m ρ c, w9_v29 m ρ c, w9_v57 m ρ c, w9_arg7 m ρ c])

theorem w11_v74_0 : (W11 m ρ c (Proc.devRef .tc main_v74_0) : Arr2 1 128) = fun j => colSum (h2 m c) (j 1 : Fin 128) := by
  have e : (V10 m ρ c main_v73 : Arr2 50000 128) = h2 m c := w10_v73 m ρ c
  exact (W11_arr m ρ c 1).trans ((Stats4.final_sum (V10 m ρ) c).trans (by rw [e]))

theorem w11_v74_1 : (W11 m ρ c (Proc.devRef .tc main_v74_1) : Arr2 1 128) = fun j => colSumSq (h2 m c) (j 1 : Fin 128) := by
  have e : (V10 m ρ c main_v73 : Arr2 50000 128) = h2 m c := w10_v73 m ρ c
  exact (W11_arr m ρ c 2).trans ((Stats4.final_sumsq (V10 m ρ) c).trans (by rw [e]))

theorem w11_v73 : (W11 m ρ c (Proc.devRef .tc main_v73) : Arr2 50000 128) = h2 m c :=
  ((W11_arr m ρ c 0).trans (((dat4 (V10 m ρ) c).arrAt_in 0 rfl _).trans (A_eq4 (V10 m ρ) c 0))).trans (w10_v73 m ρ c)

theorem w12_v73 : (W12 m ρ c (Proc.devRef .tc main_v73) : Arr2 50000 128) = h2 m c :=
  (W12_keep m ρ c main_v73 (by decide)).trans (w11_v73 m ρ c)
theorem w12_v76 : (W12 m ρ c (Proc.devRef .tc main_v76) : Arr2 1 128) = meanRow (fun j => colSum (h2 m c) (j 1 : Fin 128)) :=
  (rd5_v76 (W11 m ρ c)).trans (by rw [w11_v74_0 m ρ c]; rfl)
theorem w12_v80 : (W12 m ρ c (Proc.devRef .tc main_v80) : Arr2 1 128)
    = varRow (fun j => colSum (h2 m c) (j 1 : Fin 128)) (fun j => colSumSq (h2 m c) (j 1 : Fin 128)) :=
  (rd5_v80 (W11 m ρ c)).trans (by rw [w11_v74_0 m ρ c, w11_v74_1 m ρ c]; rfl)
theorem w12_v81 : (W12 m ρ c (Proc.devRef .tc main_v81) : Arr2 1 128) = asRow (a8 m c) :=
  (rd5_v81 (W11 m ρ c)).trans (by rw [w11_arg8 m ρ c])
theorem w12_v82 : (W12 m ρ c (Proc.devRef .tc main_v82) : Arr2 1 128) = asRow (a9 m c) :=
  (rd5_v82 (W11 m ρ c)).trans (by rw [w11_arg9 m ρ c])

theorem w13_v83 : (W13 m ρ c (Proc.devRef .tc main_v83) : Arr2 50000 128) = r2 m c := by
  have e46 : (V12 m ρ c main_v73 : Arr2 50000 128) = h2 m c := w12_v73 m ρ c
  have e49 : (V12 m ρ c main_v76 : Arr2 1 128) = _ := w12_v76 m ρ c
  have e53 : (V12 m ρ c main_v80 : Arr2 1 128) = _ := w12_v80 m ρ c
  have e54 : (V12 m ρ c main_v81 : Arr2 1 128) = _ := w12_v81 m ρ c
  have e55 : (V12 m ρ c main_v82 : Arr2 1 128) = _ := w12_v82 m ρ c
  exact (W13_arr m ρ c 5).trans ((Bn5.final (V12 m ρ) c).trans (by rw [e46, e49, e53, e54, e55]; rfl))

/-! ## The last layer -/

theorem w14_v84 : (W14 m ρ c (Proc.devRef .tc main_v84) : Arr2 50000 64) = lin (r2 m c) (a10 m c : Arr2 128 64) := by
  have e0 : (V13 m ρ c main_v83 : Arr2 50000 128) = r2 m c := w13_v83 m ρ c
  have e2 : (V13 m ρ c main_arg10 : Arr2 128 64) = a10 m c := w13_arg10 m ρ c
  exact (W14_arr m ρ c 2).trans ((Mat6.final (V13 m ρ) c).trans (by rw [e0, e2]))

theorem outK_eq : outK m c = outKer (a0 m c) (a1 m c) (a2 m c) (a3 m c) (a4 m c) (a5 m c) (a6 m c) (a7 m c) (a8 m c) (a9 m c) (a10 m c) (a11 m c) := rfl

/-- The kernel program's result buffer at the last boundary is `outK` of the arguments as launched. -/
theorem kernel_value : (W15 m ρ c (Proc.devRef .tc main_v100) : Arr2 50000 64) = outK m c :=
  (rd7_v100 (W14 m ρ c)).trans (by rw [w14_v5 m ρ c, w14_v6 m ρ c, w14_v29 m ρ c, w14_v84 m ρ c, w14_arg11 m ρ c])

end Cert.KernelIdeal.Val

end
-- ==== Proof.RefOps.lean ====
/-
  The reference program's host function as the LIST of its operations, in order, the five calls of outlined
  functions unfolded at their call sites over each call's own buffers: one hundred and ninety-four operations,
  cut into eleven consecutive pieces that follow the program's three windows and, inside a window, the stages of
  the computation. The program is the straight line of these operations (`main_eq`), every operation touches
  TensorCore buffers only (`ops_sub`), and so every weakly fair execution terminates with each buffer at the
  fold of the operations over the launch contents (`run`).
-/
import proofs.«173831_j84808424227048_1_alg».proof.ReferenceIdeal
import proofs.«173831_j84808424227048_1_alg».proof.Proof.Gen.ReferenceIdeal
import Idealize.ShloMosaic.Lib.StableHlo.Run

noncomputable section

namespace Cert.ReferenceIdeal.RefValue

open Idealize.ShloMosaic Idealize.SL.Sem Idealize.ShloMosaic.TcCoe Cert.ReferenceIdeal Cert.ReferenceIdeal.Gen

variable {F : FTy → Type} [FloatOps F]

/-! ## The operations, piece by piece -/

/-- The two index lists: each row of the edge list flattened, then the self loops `0 … 49999` appended. -/
abbrev ops0a : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_v4 (iotaInDim S50000 32 0),
    StableHlo.binary main_v1 main_v4 main_v5 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.binary main_v3 main_v4 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)) ]

theorem ops0a_sub : (ops0a : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.binary_bufs_sub ..⟩

/-- The degrees (ones added at the destinations) and their inverse square roots, zero where the degree is not positive (`_where` unfolded into its three operations). -/
abbrev ops0b : List (HloOp τ sig (Elt F)) :=
  [ StableHlo.nullary main_cst (constant S_ .f32 0x3F800000#32),
    StableHlo.unary main_cst main_v7 (broadcastInDim S650000 ![] bcast_S_S650000 : (⟨S_, .f32⟩ : BufTy).Contents (Elt F) → (⟨S650000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S650000x1 ![0] bcast_S650000_S650000x1_0 : (⟨S650000, .i32⟩ : BufTy).Contents (Elt F) → (⟨S650000x1, .i32⟩ : BufTy).Contents (Elt F)),
    StableHlo.ternary main_v8 main_v9 main_v7 main_v10 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v13 : StableHlo.TRef sig ⟨S50000, .f32⟩) main_call0.v1 main_call0.v2 select ]

theorem ops0b_sub : (ops0b : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩

/-- The weight of every edge: the inverse square root of the degree gathered at the wrapped source and at the wrapped destination, multiplied. -/
abbrev ops0c : List (HloOp τ sig (Elt F)) :=
  [ StableHlo.nullary main_c (constantI S_ 32 0#32),
    StableHlo.unary main_c main_v15 (broadcastInDim S650000 ![] bcast_S_S650000 : (⟨S_, .i32⟩ : BufTy).Contents (Elt F) → (⟨S650000, .i32⟩ : BufTy).Contents (Elt F)),
    StableHlo.binary main_v5 main_v15 main_v16 (cmpi .slt : (⟨S650000, .i32⟩ : BufTy).Contents (Elt F) → (⟨S650000, .i32⟩ : BufTy).Contents (Elt F) → (⟨S650000, .i1⟩ : BufTy).Contents (Elt F)),
    StableHlo.nullary main_c_3 (constantI S_ 32 50000#32),
    StableHlo.unary main_c_3 main_v17 (broadcastInDim S650000 ![] bcast_S_S650000 : (⟨S_, .i32⟩ : BufTy).Contents (Elt F) → (⟨S650000, .i32⟩ : BufTy).Contents (Elt F)),
    StableHlo.binary main_v5 main_v17 main_v18 (addi : (⟨S650000, .i32⟩ : BufTy).Contents (Elt F) → (⟨S650000, .i32⟩ : BufTy).Contents (Elt F) → (⟨S650000, .i32⟩ : BufTy).Contents (Elt F)),
    StableHlo.ternary main_v16 main_v18 main_v5 main_v19 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v19 main_v20 (broadcastInDim S650000x1 ![0] bcast_S650000_S650000x1_0 : (⟨S650000, .i32⟩ : BufTy).Contents (Elt F) → (⟨S650000x1, .i32⟩ : BufTy).Contents (Elt F)),
    StableHlo.binary main_v14 main_v20 main_v21 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.nullary main_c_4 (constantI S_ 32 0#32),
    StableHlo.unary main_c_4 main_v22 (broadcastInDim S650000 ![] bcast_S_S650000 : (⟨S_, .i32⟩ : BufTy).Contents (Elt F) → (⟨S650000, .i32⟩ : BufTy).Contents (Elt F)),
    StableHlo.binary main_v6 main_v22 main_v23 (cmpi .slt : (⟨S650000, .i32⟩ : BufTy).Contents (Elt F) → (⟨S650000, .i32⟩ : BufTy).Contents (Elt F) → (⟨S650000, .i1⟩ : BufTy).Contents (Elt F)),
    StableHlo.nullary main_c_5 (constantI S_ 32 50000#32),
    StableHlo.unary main_c_5 main_v24 (broadcastInDim S650000 ![] bcast_S_S650000 : (⟨S_, .i32⟩ : BufTy).Contents (Elt F) → (⟨S650000, .i32⟩ : BufTy).Contents (Elt F)),
    StableHlo.binary main_v6 main_v24 main_v25 (addi : (⟨S650000, .i32⟩ : BufTy).Contents (Elt F) → (⟨S650000, .i32⟩ : BufTy).Contents (Elt F) → (⟨S650000, .i32⟩ : BufTy).Contents (Elt F)),
    StableHlo.ternary main_v23 main_v25 main_v6 main_v26 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v26 main_v27 (broadcastInDim S650000x1 ![0] bcast_S650000_S650000x1_0 : (⟨S650000, .i32⟩ : BufTy).Contents (Elt F) → (⟨S650000x1, .i32⟩ : BufTy).Contents (Elt F)),
    StableHlo.binary main_v14 main_v27 main_v28 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.binary main_v21 main_v28 main_v29 (mulf : (⟨S650000, .f32⟩ : BufTy).Contents (Elt F) → (⟨S650000, .f32⟩ : BufTy).Contents (Elt F) → (⟨S650000, .f32⟩ : BufTy).Contents (Elt F)) ]

theorem ops0c_sub : (ops0c : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

/-- Layer one up to its statistics: the product with the first weight matrix, the gather of the source rows, the scaling by the edge weights, the sum into the destination rows, the bias, and the column sums. -/
abbrev ops0d : List (HloOp τ sig (Elt F)) :=
  [ StableHlo.binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_6 (constantI S_ 32 0#32),
    StableHlo.unary main_c_6 main_v31 (broadcastInDim S650000 ![] bcast_S_S650000 : (⟨S_, .i32⟩ : BufTy).Contents (Elt F) → (⟨S650000, .i32⟩ : BufTy).Contents (Elt F)),
    StableHlo.binary main_v5 main_v31 main_v32 (cmpi .slt : (⟨S650000, .i32⟩ : BufTy).Contents (Elt F) → (⟨S650000, .i32⟩ : BufTy).Contents (Elt F) → (⟨S650000, .i1⟩ : BufTy).Contents (Elt F)),
    StableHlo.nullary main_c_7 (constantI S_ 32 50000#32),
    StableHlo.unary main_c_7 main_v33 (broadcastInDim S650000 ![] bcast_S_S650000 : (⟨S_, .i32⟩ : BufTy).Contents (Elt F) → (⟨S650000, .i32⟩ : BufTy).Contents (Elt F)),
    StableHlo.binary main_v5 main_v33 main_v34 (addi : (⟨S650000, .i32⟩ : BufTy).Contents (Elt F) → (⟨S650000, .i32⟩ : BufTy).Contents (Elt F) → (⟨S650000, .i32⟩ : BufTy).Contents (Elt F)),
    StableHlo.ternary main_v32 main_v34 main_v5 main_v35 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v35 main_v36 (broadcastInDim S650000x1 ![0] bcast_S650000_S650000x1_0 : (⟨S650000, .i32⟩ : BufTy).Contents (Elt F) → (⟨S650000x1, .i32⟩ : BufTy).Contents (Elt F)),
    StableHlo.binary main_v30 main_v36 main_v37 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v29 main_v38 (broadcastInDim S650000x1 ![0] bcast_S650000_S650000x1_0 : (⟨S650000, .f32⟩ : BufTy).Contents (Elt F) → (⟨S650000x1, .f32⟩ : BufTy).Contents (Elt F)),
    StableHlo.unary main_v38 main_v39 (broadcastInDim S650000x128 ![0, 1] bcast_S650000x1_S650000x128_0_1 : (⟨S650000x1, .f32⟩ : BufTy).Contents (Elt F) → (⟨S650000x128, .f32⟩ : BufTy).Contents (Elt F)),
    StableHlo.binary main_v37 main_v39 main_v40 (mulf : (⟨S650000x128, .f32⟩ : BufTy).Contents (Elt F) → (⟨S650000x128, .f32⟩ : BufTy).Contents (Elt F) → (⟨S650000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v6 main_v42 (broadcastInDim S650000x1 ![0] bcast_S650000_S650000x1_0 : (⟨S650000, .i32⟩ : BufTy).Contents (Elt F) → (⟨S650000x1, .i32⟩ : BufTy).Contents (Elt F)),
    StableHlo.ternary main_v41 main_v42 main_v40 main_v43 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x00000000#32),
    StableHlo.binary main_v46 main_cst_9 main_v47 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ]

theorem ops0d_sub : (ops0d : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.binary_bufs_sub ..⟩

/-- The column means of layer one and its column variances (`_var` unfolded into its twenty-three operations, `_where_0` among them). -/
abbrev ops1a : List (HloOp τ sig (Elt F)) :=
  [ StableHlo.nullary main_cst_10 (constant S_ .f32 0x47435000#32),
    StableHlo.unary main_cst_10 main_v48 (broadcastInDim S128 ![] bcast_S_S128 : (⟨S_, .f32⟩ : BufTy).Contents (Elt F) → (⟨S128, .f32⟩ : BufTy).Contents (Elt F)),
    StableHlo.binary main_v47 main_v48 main_v49 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call1.cst (constant S_ .f32 0x00000000#32),
    StableHlo.TRef.binary (.of main_v46 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v46 : StableHlo.TRef sig ⟨S50000x128, .f32⟩) main_call1.v4 main_call1.v5 subf,
    StableHlo.TRef.binary main_call1.v5 main_call1.v5 main_call1.v6 mulf,
    StableHlo.TRef.unary (.of main_c_11 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

theorem ops1a_sub : (ops1a : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

/-- Layer one normalised, scaled, shifted and rectified (`relu` unfolded into its three operations). -/
abbrev ops1b : List (HloOp τ sig (Elt F)) :=
  [ StableHlo.unary main_v49 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S50000x128 ![0, 1] bcast_S1x128_S50000x128_0_1 : (⟨S1x128, .f32⟩ : BufTy).Contents (Elt F) → (⟨S50000x128, .f32⟩ : BufTy).Contents (Elt F)),
    StableHlo.binary main_v46 main_v52 main_v53 (subf : (⟨S50000x128, .f32⟩ : BufTy).Contents (Elt F) → (⟨S50000x128, .f32⟩ : BufTy).Contents (Elt F) → (⟨S50000x128, .f32⟩ : BufTy).Contents (Elt F)),
    StableHlo.unary main_arg4 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),
    StableHlo.binary main_v55 main_v53 main_v56 (mulf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v57 (broadcastInDim S128 ![] bcast_S_S128 : (⟨S_, .f32⟩ : BufTy).Contents (Elt F) → (⟨S128, .f32⟩ : BufTy).Contents (Elt F)),
    StableHlo.binary main_v50 main_v57 main_v58 (addf : (⟨S128, .f32⟩ : BufTy).Contents (Elt F) → (⟨S128, .f32⟩ : BufTy).Contents (Elt F) → (⟨S128, .f32⟩ : BufTy).Contents (Elt F)),
    StableHlo.unary main_v58 main_v59 (Host.rsqrt : (⟨S128, .f32⟩ : BufTy).Contents (Elt F) → (⟨S128, .f32⟩ : BufTy).Contents (Elt F)),
    StableHlo.unary main_v59 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v61 main_v62 (mulf : (⟨S50000x128, .f32⟩ : BufTy).Contents (Elt F) → (⟨S50000x128, .f32⟩ : BufTy).Contents (Elt F) → (⟨S50000x128, .f32⟩ : BufTy).Contents (Elt F)),
    StableHlo.unary main_arg5 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S50000x128 ![0, 1] bcast_S1x128_S50000x128_0_1 : (⟨S1x128, .f32⟩ : BufTy).Contents (Elt F) → (⟨S50000x128, .f32⟩ : BufTy).Contents (Elt F)),
    StableHlo.binary main_v62 main_v64 main_v65 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v65 : StableHlo.TRef sig ⟨S50000x128, .f32⟩) main_call2.v0 main_call2.v1 maximumf ]

theorem ops1b_sub : (ops1b : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Layer two up to its statistics: matrix product, gather, scaling, sum into the destination rows, bias, column sums. -/
abbrev ops1c : List (HloOp τ sig (Elt F)) :=
  [ StableHlo.binary main_v66 main_arg6 main_v67 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_13 (constantI S_ 32 0#32),
    StableHlo.unary main_c_13 main_v68 (broadcastInDim S650000 ![] bcast_S_S650000 : (⟨S_, .i32⟩ : BufTy).Contents (Elt F) → (⟨S650000, .i32⟩ : BufTy).Contents (Elt F)),
    StableHlo.binary main_v5 main_v68 main_v69 (cmpi .slt : (⟨S650000, .i32⟩ : BufTy).Contents (Elt F) → (⟨S650000, .i32⟩ : BufTy).Contents (Elt F) → (⟨S650000, .i1⟩ : BufTy).Contents (Elt F)),
    StableHlo.nullary main_c_14 (constantI S_ 32 50000#32),
    StableHlo.unary main_c_14 main_v70 (broadcastInDim S650000 ![] bcast_S_S650000 : (⟨S_, .i32⟩ : BufTy).Contents (Elt F) → (⟨S650000, .i32⟩ : BufTy).Contents (Elt F)),
    StableHlo.binary main_v5 main_v70 main_v71 (addi : (⟨S650000, .i32⟩ : BufTy).Contents (Elt F) → (⟨S650000, .i32⟩ : BufTy).Contents (Elt F) → (⟨S650000, .i32⟩ : BufTy).Contents (Elt F)),
    StableHlo.ternary main_v69 main_v71 main_v5 main_v72 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v72 main_v73 (broadcastInDim S650000x1 ![0] bcast_S650000_S650000x1_0 : (⟨S650000, .i32⟩ : BufTy).Contents (Elt F) → (⟨S650000x1, .i32⟩ : BufTy).Contents (Elt F)),
    StableHlo.binary main_v67 main_v73 main_v74 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v29 main_v75 (broadcastInDim S650000x1 ![0] bcast_S650000_S650000x1_0 : (⟨S650000, .f32⟩ : BufTy).Contents (Elt F) → (⟨S650000x1, .f32⟩ : BufTy).Contents (Elt F)),
    StableHlo.unary main_v75 main_v76 (broadcastInDim S650000x128 ![0, 1] bcast_S650000x1_S650000x128_0_1 : (⟨S650000x1, .f32⟩ : BufTy).Contents (Elt F) → (⟨S650000x128, .f32⟩ : BufTy).Contents (Elt F)),
    StableHlo.binary main_v74 main_v76 main_v77 (mulf : (⟨S650000x128, .f32⟩ : BufTy).Contents (Elt F) → (⟨S650000x128, .f32⟩ : BufTy).Contents (Elt F) → (⟨S650000x128, .f32⟩ : BufTy).Contents (Elt F)),
    StableHlo.nullary main_cst_15 (constant S_ .f32 0x00000000#32),
    StableHlo.unary main_cst_15 main_v78 (broadcastInDim S50000x128 ![] bcast_S_S50000x128 : (⟨S_, .f32⟩ : BufTy).Contents (Elt F) → (⟨S50000x128, .f32⟩ : BufTy).Contents (Elt F)),
    StableHlo.unary main_v6 main_v79 (broadcastInDim S650000x1 ![0] bcast_S650000_S650000x1_0 : (⟨S650000, .i32⟩ : BufTy).Contents (Elt F) → (⟨S650000x1, .i32⟩ : BufTy).Contents (Elt F)),
    StableHlo.ternary main_v78 main_v79 main_v77 main_v80 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_arg7 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v80 main_v82 main_v83 (addf : (⟨S50000x128, .f32⟩ : BufTy).Contents (Elt F) → (⟨S50000x128, .f32⟩ : BufTy).Contents (Elt F) → (⟨S50000x128, .f32⟩ : BufTy).Contents (Elt F)),
    StableHlo.nullary main_cst_16 (constant S_ .f32 0x00000000#32),
    StableHlo.binary main_v83 main_cst_16 main_v84 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ]

theorem ops1c_sub : (ops1c : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.binary_bufs_sub ..⟩

/-- The column means of layer two and its column variances (`_var` unfolded). -/
abbrev ops1d : List (HloOp τ sig (Elt F)) :=
  [ StableHlo.nullary main_cst_17 (constant S_ .f32 0x47435000#32),
    StableHlo.unary main_cst_17 main_v85 (broadcastInDim S128 ![] bcast_S_S128 : (⟨S_, .f32⟩ : BufTy).Contents (Elt F) → (⟨S128, .f32⟩ : BufTy).Contents (Elt F)),
    StableHlo.binary main_v84 main_v85 main_v86 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call3.cst (constant S_ .f32 0x00000000#32),
    StableHlo.TRef.binary (.of main_v83 : StableHlo.TRef sig ⟨S50000x128, .f32⟩) main_call3.cst main_call3.v0 (fun x v => Host.reduceAdd x v reducesTo_S50000x128_S128_d0 h_S_),
    StableHlo.TRef.unary main_call3.v0 main_call3.v1 (broadcastInDim S1x128 ![1] bcast_S128_S1x128_1),
    StableHlo.TRef.nullary main_call3.cst_0 (constant S_ .f32 0x47435000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S50000x128 ![0, 1] bcast_S1x128_S50000x128_0_1),
    StableHlo.TRef.binary (.of main_v83 : StableHlo.TRef sig ⟨S50000x128, .f32⟩) main_call3.v4 main_call3.v5 subf,
    StableHlo.TRef.binary main_call3.v5 main_call3.v5 main_call3.v6 mulf,
    StableHlo.TRef.unary (.of main_c_18 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b) ]

theorem ops1d_sub : (ops1d : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

/-- Layer two centred and scaled, and the row of inverse standard deviations. -/
abbrev ops1e : List (HloOp τ sig (Elt F)) :=
  [ StableHlo.unary main_v86 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v89 main_v90 (subf : (⟨S50000x128, .f32⟩ : BufTy).Contents (Elt F) → (⟨S50000x128, .f32⟩ : BufTy).Contents (Elt F) → (⟨S50000x128, .f32⟩ : BufTy).Contents (Elt F)),
    StableHlo.unary main_arg8 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v90 main_v93 (mulf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v94 (broadcastInDim S128 ![] bcast_S_S128 : (⟨S_, .f32⟩ : BufTy).Contents (Elt F) → (⟨S128, .f32⟩ : BufTy).Contents (Elt F)),
    StableHlo.binary main_v87 main_v94 main_v95 (addf : (⟨S128, .f32⟩ : BufTy).Contents (Elt F) → (⟨S128, .f32⟩ : BufTy).Contents (Elt F) → (⟨S128, .f32⟩ : BufTy).Contents (Elt F)),
    StableHlo.unary main_v95 main_v96 (Host.rsqrt : (⟨S128, .f32⟩ : BufTy).Contents (Elt F) → (⟨S128, .f32⟩ : BufTy).Contents (Elt F)),
    StableHlo.unary main_v96 main_v97 (broadcastInDim S1x128 ![1] bcast_S128_S1x128_1 : (⟨S128, .f32⟩ : BufTy).Contents (Elt F) → (⟨S1x128, .f32⟩ : BufTy).Contents (Elt F)) ]

theorem ops1e_sub : (ops1e : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub ..⟩

/-- Layer two normalised, shifted and rectified (`relu` unfolded). -/
abbrev ops2a : List (HloOp τ sig (Elt F)) :=
  [ StableHlo.unary main_v97 main_v98 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v98 main_v99 (mulf : (⟨S50000x128, .f32⟩ : BufTy).Contents (Elt F) → (⟨S50000x128, .f32⟩ : BufTy).Contents (Elt F) → (⟨S50000x128, .f32⟩ : BufTy).Contents (Elt F)),
    StableHlo.unary main_arg9 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S50000x128 ![0, 1] bcast_S1x128_S50000x128_0_1 : (⟨S1x128, .f32⟩ : BufTy).Contents (Elt F) → (⟨S50000x128, .f32⟩ : BufTy).Contents (Elt F)),
    StableHlo.binary main_v99 main_v101 main_v102 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v102 : StableHlo.TRef sig ⟨S50000x128, .f32⟩) main_call4.v0 main_call4.v1 maximumf ]

theorem ops2a_sub : (ops2a : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Layer three: the product with the last weight matrix, gather, scaling, sum into the destination rows, bias. -/
abbrev ops2b : List (HloOp τ sig (Elt F)) :=
  [ StableHlo.binary main_v103 main_arg10 main_v104 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_20 (constantI S_ 32 0#32),
    StableHlo.unary main_c_20 main_v105 (broadcastInDim S650000 ![] bcast_S_S650000 : (⟨S_, .i32⟩ : BufTy).Contents (Elt F) → (⟨S650000, .i32⟩ : BufTy).Contents (Elt F)),
    StableHlo.binary main_v5 main_v105 main_v106 (cmpi .slt : (⟨S650000, .i32⟩ : BufTy).Contents (Elt F) → (⟨S650000, .i32⟩ : BufTy).Contents (Elt F) → (⟨S650000, .i1⟩ : BufTy).Contents (Elt F)),
    StableHlo.nullary main_c_21 (constantI S_ 32 50000#32),
    StableHlo.unary main_c_21 main_v107 (broadcastInDim S650000 ![] bcast_S_S650000 : (⟨S_, .i32⟩ : BufTy).Contents (Elt F) → (⟨S650000, .i32⟩ : BufTy).Contents (Elt F)),
    StableHlo.binary main_v5 main_v107 main_v108 (addi : (⟨S650000, .i32⟩ : BufTy).Contents (Elt F) → (⟨S650000, .i32⟩ : BufTy).Contents (Elt F) → (⟨S650000, .i32⟩ : BufTy).Contents (Elt F)),
    StableHlo.ternary main_v106 main_v108 main_v5 main_v109 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v109 main_v110 (broadcastInDim S650000x1 ![0] bcast_S650000_S650000x1_0 : (⟨S650000, .i32⟩ : BufTy).Contents (Elt F) → (⟨S650000x1, .i32⟩ : BufTy).Contents (Elt F)),
    StableHlo.binary main_v104 main_v110 main_v111 ((fun x i => Host.gather gather_S50000x64_S650000x1_S650000x64_1_0_n_n_0_1_164 x i) : (⟨S50000x64, .f32⟩ : BufTy).Contents (Elt F) → (⟨S650000x1, .i32⟩ : BufTy).Contents (Elt F) → (⟨S650000x64, .f32⟩ : BufTy).Contents (Elt F)),
    StableHlo.unary main_v29 main_v112 (broadcastInDim S650000x1 ![0] bcast_S650000_S650000x1_0 : (⟨S650000, .f32⟩ : BufTy).Contents (Elt F) → (⟨S650000x1, .f32⟩ : BufTy).Contents (Elt F)),
    StableHlo.unary main_v112 main_v113 (broadcastInDim S650000x64 ![0, 1] bcast_S650000x1_S650000x64_0_1 : (⟨S650000x1, .f32⟩ : BufTy).Contents (Elt F) → (⟨S650000x64, .f32⟩ : BufTy).Contents (Elt F)),
    StableHlo.binary main_v111 main_v113 main_v114 (mulf : (⟨S650000x64, .f32⟩ : BufTy).Contents (Elt F) → (⟨S650000x64, .f32⟩ : BufTy).Contents (Elt F) → (⟨S650000x64, .f32⟩ : BufTy).Contents (Elt F)),
    StableHlo.nullary main_cst_22 (constant S_ .f32 0x00000000#32),
    StableHlo.unary main_cst_22 main_v115 (broadcastInDim S50000x64 ![] bcast_S_S50000x64 : (⟨S_, .f32⟩ : BufTy).Contents (Elt F) → (⟨S50000x64, .f32⟩ : BufTy).Contents (Elt F)),
    StableHlo.unary main_v6 main_v116 (broadcastInDim S650000x1 ![0] bcast_S650000_S650000x1_0 : (⟨S650000, .i32⟩ : BufTy).Contents (Elt F) → (⟨S650000x1, .i32⟩ : BufTy).Contents (Elt F)),
    StableHlo.ternary main_v115 main_v116 main_v114 main_v117 ((fun x i u => Host.scatterAdd scatter_S50000x64_S650000x1_S650000x64_1_0_0_1 x i u) : (⟨S50000x64, .f32⟩ : BufTy).Contents (Elt F) → (⟨S650000x1, .i32⟩ : BufTy).Contents (Elt F) → (⟨S650000x64, .f32⟩ : BufTy).Contents (Elt F) → (⟨S50000x64, .f32⟩ : BufTy).Contents (Elt F)),
    StableHlo.unary main_arg11 main_v118 (broadcastInDim S1x64 ![1] bcast_S64_S1x64_1 : (⟨S64, .f32⟩ : BufTy).Contents (Elt F) → (⟨S1x64, .f32⟩ : BufTy).Contents (Elt F)),
    StableHlo.unary main_v118 main_v119 (broadcastInDim S50000x64 ![0, 1] bcast_S1x64_S50000x64_0_1 : (⟨S1x64, .f32⟩ : BufTy).Contents (Elt F) → (⟨S50000x64, .f32⟩ : BufTy).Contents (Elt F)),
    StableHlo.binary main_v117 main_v119 main_v120 (addf : (⟨S50000x64, .f32⟩ : BufTy).Contents (Elt F) → (⟨S50000x64, .f32⟩ : BufTy).Contents (Elt F) → (⟨S50000x64, .f32⟩ : BufTy).Contents (Elt F)) ]

theorem ops2b_sub : (ops2b : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

/-! ## The windows and the whole line -/

/-- The operations of window 0. -/
abbrev ops0 : List (HloOp τ sig (Elt F)) := ops0a ++ ops0b ++ ops0c ++ ops0d

/-- The operations of window 1. -/
abbrev ops1 : List (HloOp τ sig (Elt F)) := ops1a ++ ops1b ++ ops1c ++ ops1d ++ ops1e

/-- The operations of window 2. -/
abbrev ops2 : List (HloOp τ sig (Elt F)) := ops2a ++ ops2b

/-- All the operations of the host function, in order. -/
abbrev ops : List (HloOp τ sig (Elt F)) := ops0 ++ ops1 ++ ops2

set_option maxRecDepth 8192 in
set_option maxHeartbeats 4000000 in
/-- Window 0 is the straight line of its operations: the outlined functions unfolded at their calls, the
    sequencing reassociated, both sides are one chain of steps. -/
theorem part0_eq (c : Dev nD) : main_part0 (F := F) c = StableHlo.seq ops0 := by
  simp only [main_part0, fn_where.body, ops0, ops0a, ops0b, ops0c, ops0d, StableHlo.seq_append, StableHlo.seq, bind_assoc, pure_bind]
  try rfl

set_option maxRecDepth 8192 in
set_option maxHeartbeats 4000000 in
/-- Window 1 is the straight line of its operations: the outlined functions unfolded at their calls, the
    sequencing reassociated, both sides are one chain of steps. -/
theorem part1_eq (c : Dev nD) : main_part1 (F := F) c = StableHlo.seq ops1 := by
  simp only [main_part1, fn_var.body, fn_where_0.body, fn_relu.body, ops1, ops1a, ops1b, ops1c, ops1d, ops1e, StableHlo.seq_append, StableHlo.seq, bind_assoc, pure_bind]
  try rfl

set_option maxRecDepth 8192 in
set_option maxHeartbeats 4000000 in
/-- Window 2 is the straight line of its operations: the outlined functions unfolded at their calls, the
    sequencing reassociated, both sides are one chain of steps. -/
theorem part2_eq (c : Dev nD) : main_part2 (F := F) c = StableHlo.seq ops2 := by
  simp only [main_part2, fn_relu.body, ops2, ops2a, ops2b, StableHlo.seq_append, StableHlo.seq, bind_assoc, pure_bind]
  try rfl

/-- The host function is the straight line of all its operations. -/
theorem main_eq (c : Dev nD) : main (F := F) c = StableHlo.seq ops := by
  show main (F := F) c = StableHlo.seq (ops0 ++ ops1 ++ ops2)
  rw [StableHlo.seq_append, StableHlo.seq_append, ← part0_eq c, ← part1_eq c, ← part2_eq c, bind_assoc]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ StableHlo.tcRefs τ sig :=
  List.forall_append.mpr ⟨List.forall_append.mpr ⟨
    List.forall_append.mpr ⟨List.forall_append.mpr ⟨List.forall_append.mpr ⟨ops0a_sub, ops0b_sub⟩, ops0c_sub⟩, ops0d_sub⟩,
    List.forall_append.mpr ⟨List.forall_append.mpr ⟨List.forall_append.mpr ⟨List.forall_append.mpr ⟨ops1a_sub, ops1b_sub⟩, ops1c_sub⟩, ops1d_sub⟩, ops1e_sub⟩⟩,
    List.forall_append.mpr ⟨ops2a_sub, ops2b_sub⟩⟩

theorem ops0a_fresh : (ops0a : List (HloOp τ sig (Elt F))).Forall fun op => op.fresh = ∅ :=
  ⟨rfl, rfl, rfl, rfl, rfl, rfl, rfl⟩

theorem ops0b_fresh : (ops0b : List (HloOp τ sig (Elt F))).Forall fun op => op.fresh = ∅ :=
  ⟨rfl, rfl, rfl, rfl, rfl, rfl, rfl, rfl, rfl, rfl, rfl, rfl, rfl, rfl⟩

theorem ops0c_fresh : (ops0c : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem ops0d_fresh : (ops0d : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem ops1a_fresh : (ops1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

theorem ops1b_fresh : (ops1b : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem ops1c_fresh : (ops1c : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem ops1d_fresh : (ops1d : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

theorem ops1e_fresh : (ops1e : List (HloOp τ sig (Elt F))).Forall fun op => op.fresh = ∅ :=
  ⟨rfl, rfl, rfl, rfl, rfl, rfl, rfl, rfl, rfl, rfl, rfl⟩

theorem ops2a_fresh : (ops2a : List (HloOp τ sig (Elt F))).Forall fun op => op.fresh = ∅ :=
  ⟨rfl, rfl, rfl, rfl, rfl, rfl, rfl, rfl⟩

theorem ops2b_fresh : (ops2b : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Every operation determines its results: none allocates. -/
theorem ops_fresh : (ops : List (HloOp τ sig (Elt F))).Forall fun op => op.fresh = ∅ :=
  List.forall_append.mpr ⟨List.forall_append.mpr ⟨
    List.forall_append.mpr ⟨List.forall_append.mpr ⟨List.forall_append.mpr ⟨ops0a_fresh, ops0b_fresh⟩, ops0c_fresh⟩, ops0d_fresh⟩,
    List.forall_append.mpr ⟨List.forall_append.mpr ⟨List.forall_append.mpr ⟨List.forall_append.mpr ⟨ops1a_fresh, ops1b_fresh⟩, ops1c_fresh⟩, ops1d_fresh⟩, ops1e_fresh⟩⟩,
    List.forall_append.mpr ⟨ops2a_fresh, ops2b_fresh⟩⟩

/-- At the compiled mesh, for any float values, from any memory with zero counters: every weakly fair execution of
    the host function on the TensorCore terminates, and every final state has each TensorCore buffer at the
    operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ
    (fun _ => List.forall_iff_forall_mem.mp ops_fresh)

end Cert.ReferenceIdeal.RefValue

end
-- ==== Proof.RefSpec.lean ====
/-
  The reference computation, stage by stage, in the host program's own spelling at the ideal values:
  the edge list with self loops appended, the degree normalisation D^(-1/2) (A + I) D^(-1/2) as one weight
  per edge, the aggregation (gather the source rows, scale by the edge weight, add into the destination
  rows, add the bias), the batch statistics with the variance as the mean of the squared deviations, and
  the normalised, rectified layer. `refOut` composes three layers.
-/
import proofs.«173831_j84808424227048_1_alg».proof.ReferenceIdeal
import proofs.«173831_j84808424227048_1_alg».proof.Proof.Gen.ReferenceIdeal
import Idealize.ShloMosaic.PureOps.Ideal
import Idealize.ShloMosaic.PureOps.Ideal.Laws

noncomputable section

namespace Cert.ReferenceIdeal.RefValue

open Idealize.ShloMosaic Cert.ReferenceIdeal Cert.ReferenceIdeal.Gen

/-- Row 0 of the edge list (the sources), then the self loops `0 … 49999`. -/
def srcIdx (ei : IVec S2x600000 32) : IVec S650000 32 :=
  (fun (a : IVec S600000 32) (b : IVec S50000 32) => concatenate S650000 0 [⟨S600000, a⟩, ⟨S50000, b⟩] concatenates_S600000_S50000_S650000_d0)
    (shapeCast S600000 (extractStridedSlice S1x600000 ![0, 0] ei slices_S2x600000_S1x600000_0_0) shapeCasts_S1x600000_S600000)
    (iotaInDim S50000 32 0)

/-- Row 1 of the edge list (the destinations), then the self loops. -/
def dstIdx (ei : IVec S2x600000 32) : IVec S650000 32 :=
  (fun (a : IVec S600000 32) (b : IVec S50000 32) => concatenate S650000 0 [⟨S600000, a⟩, ⟨S50000, b⟩] concatenates_S600000_S50000_S650000_d0)
    (shapeCast S600000 (extractStridedSlice S1x600000 ![1, 0] ei slices_S2x600000_S1x600000_1_0) shapeCasts_S1x600000_S600000)
    (iotaInDim S50000 32 0)

/-- An index list as a column of start indices, a negative index wrapped by `+ 50000` first. -/
def wrapCol (s : IVec S650000 32) : IVec S650000x1 32 :=
  broadcastInDim S650000x1 ![0] bcast_S650000_S650000x1_0
    (select (cmpi .slt s (broadcastInDim S650000 ![] bcast_S_S650000 (constantI S_ 32 0#32)))
      (addi s (broadcastInDim S650000 ![] bcast_S_S650000 (constantI S_ 32 50000#32))) s)

/-- An index list as a column of scatter indices. -/
def col (d : IVec S650000 32) : IVec S650000x1 32 := broadcastInDim S650000x1 ![0] bcast_S650000_S650000x1_0 d

/-- The in-degree of every node (self loop included): ones added at the destinations. -/
def degOf (d : IVec S650000 32) : FVec Ideal S50000 .f32 :=
  Host.scatterAdd scatter_S50000_S650000x1_S650000_n_0_0_1
    (broadcastInDim S50000 ![] bcast_S_S50000 (constant S_ .f32 0x00000000#32)) (col d)
    (broadcastInDim S650000 ![] bcast_S_S650000 (constant S_ .f32 0x3F800000#32))

/-- `deg^(-1/2)` where the degree is positive, else zero. -/
def dinvOf (d : IVec S650000 32) : FVec Ideal S50000 .f32 :=
  select (cmpf .ogt (degOf d) (broadcastInDim S50000 ![] bcast_S_S50000 (constant S_ .f32 0x00000000#32)))
    (Host.rsqrt (degOf d)) (broadcastInDim S50000 ![] bcast_S_S50000 (constant S_ .f32 0x00000000#32))

/-- The weight of every edge: `dinv` at its source times `dinv` at its destination. -/
def normOf (s d : IVec S650000 32) : FVec Ideal S650000 .f32 :=
  mulf (Host.gather gather_S50000_S650000x1_S650000_n_0_n_n_0_1_1 (dinvOf d) (wrapCol s))
    (Host.gather gather_S50000_S650000x1_S650000_n_0_n_n_0_1_1 (dinvOf d) (wrapCol d))

/-- Aggregation at width 128: the rows of `h` at the sources, each scaled by its edge's weight, added into
    the destination rows of a zero array; then the bias row added to every row. -/
def aggr128 (s d : IVec S650000 32) (nm : FVec Ideal S650000 .f32) (h : FVec Ideal S50000x128 .f32) (b : FVec Ideal S128 .f32) :
    FVec Ideal S50000x128 .f32 :=
  addf
    (Host.scatterAdd scatter_S50000x128_S650000x1_S650000x128_1_0_0_1
      (broadcastInDim S50000x128 ![] bcast_S_S50000x128 (constant S_ .f32 0x00000000#32)) (col d)
      (mulf (Host.gather gather_S50000x128_S650000x1_S650000x128_1_0_n_n_0_1_1128 h (wrapCol s))
        (broadcastInDim S650000x128 ![0, 1] bcast_S650000x1_S650000x128_0_1 (broadcastInDim S650000x1 ![0] bcast_S650000_S650000x1_0 nm))))
    (broadcastInDim S50000x128 ![0, 1] bcast_S1x128_S50000x128_0_1 (broadcastInDim S1x128 ![1] bcast_S128_S1x128_1 b))

/-- Aggregation at width 64. -/
def aggr64 (s d : IVec S650000 32) (nm : FVec Ideal S650000 .f32) (h : FVec Ideal S50000x64 .f32) (b : FVec Ideal S64 .f32) :
    FVec Ideal S50000x64 .f32 :=
  addf
    (Host.scatterAdd scatter_S50000x64_S650000x1_S650000x64_1_0_0_1
      (broadcastInDim S50000x64 ![] bcast_S_S50000x64 (constant S_ .f32 0x00000000#32)) (col d)
      (mulf (Host.gather gather_S50000x64_S650000x1_S650000x64_1_0_n_n_0_1_164 h (wrapCol s))
        (broadcastInDim S650000x64 ![0, 1] bcast_S650000x1_S650000x64_0_1 (broadcastInDim S650000x1 ![0] bcast_S650000_S650000x1_0 nm))))
    (broadcastInDim S50000x64 ![0, 1] bcast_S1x64_S50000x64_0_1 (broadcastInDim S1x64 ![1] bcast_S64_S1x64_1 b))

/-- The two matrix products. -/
def dot128 (x : FVec Ideal S50000x128 .f32) (w : FVec Ideal S128x128 .f32) : FVec Ideal S50000x128 .f32 :=
  Host.dotGeneral dot_S50000x128_S128x128_S50000x128_1_0_0_1_n_n none x w
def dot64 (x : FVec Ideal S50000x128 .f32) (w : FVec Ideal S128x64 .f32) : FVec Ideal S50000x64 .f32 :=
  Host.dotGeneral dot_S50000x128_S128x64_S50000x64_1_0_0_1_n_n none x w

/-- The column sums over the rows, from zero. -/
def sumRows (x : FVec Ideal S50000x128 .f32) : FVec Ideal S128 .f32 :=
  Host.reduceAdd x (constant S_ .f32 0x00000000#32) reducesTo_S50000x128_S128_d0 h_S_

/-- The column means: the column sums divided by `50000`. -/
def meanRef (x : FVec Ideal S50000x128 .f32) : FVec Ideal S128 .f32 :=
  Host.divf (sumRows x) (broadcastInDim S128 ![] bcast_S_S128 (constant S_ .f32 0x47435000#32))

/-- The column variances as jnp spells them: the mean (kept as a [1,128] row, divided there) subtracted, the
    deviations squared and summed, divided by `50000 − 0`, and that kept where `50000 − 0 > 0`. -/
def varRef (x : FVec Ideal S50000x128 .f32) : FVec Ideal S128 .f32 :=
  (fun (p : IVec S_ 1) (a b : FVec Ideal S128 .f32) => select (broadcastInDim S128 ![] bcast_S_S128 p) a b)
    (cmpf .ogt (subf (constant (F := Ideal) S_ .f32 0x47435000#32) (sitofp .f32 (constantI S_ 32 0#32))) (constant (F := Ideal) S_ .f32 0x00000000#32))
    (Host.divf
      (sumRows
        ((fun (v5 : FVec Ideal S50000x128 .f32) => mulf v5 v5)
          (subf x (broadcastInDim S50000x128 ![0, 1] bcast_S1x128_S50000x128_0_1
            (Host.divf (broadcastInDim S1x128 ![1] bcast_S128_S1x128_1 (sumRows x))
              (broadcastInDim S1x128 ![] bcast_S_S1x128 (constant S_ .f32 0x47435000#32)))))))
      (broadcastInDim S128 ![] bcast_S_S128 (subf (constant S_ .f32 0x47435000#32) (sitofp .f32 (constantI S_ 32 0#32)))))
    (broadcastInDim S128 ![] bcast_S_S128 (constant S_ .f32 0x7FC00000#32))

/-- A vector of 128 as the [50000,128] array holding it in every row. -/
def rowB (v : FVec Ideal S128 .f32) : FVec Ideal S50000x128 .f32 :=
  broadcastInDim S50000x128 ![0, 1] bcast_S1x128_S50000x128_0_1 (broadcastInDim S1x128 ![1] bcast_S128_S1x128_1 v)

/-- Batch normalisation over the rows, scale, shift, rectify. -/
def bnRef (x : FVec Ideal S50000x128 .f32) (g be : FVec Ideal S128 .f32) : FVec Ideal S50000x128 .f32 :=
  maximumf
    (addf
      (mulf (mulf (rowB g) (subf x (rowB (meanRef x))))
        (rowB (Host.rsqrt (addf (varRef x) (broadcastInDim S128 ![] bcast_S_S128 (constant S_ .f32 0x3727C5AC#32))))))
      (rowB be))
    (broadcastInDim S50000x128 ![] bcast_S_S50000x128 (constant S_ .f32 0x00000000#32))

/-- The reference: three graph-convolution layers, the first two normalised and rectified. -/
def refOut (x : FVec Ideal S50000x128 .f32) (ei : IVec S2x600000 32) (W1 : FVec Ideal S128x128 .f32) (b1 g1 be1 : FVec Ideal S128 .f32)
    (W2 : FVec Ideal S128x128 .f32) (b2 g2 be2 : FVec Ideal S128 .f32) (W3 : FVec Ideal S128x64 .f32) (b3 : FVec Ideal S64 .f32) :
    FVec Ideal S50000x64 .f32 :=
  aggr64 (srcIdx ei) (dstIdx ei) (normOf (srcIdx ei) (dstIdx ei))
    (dot64
      (bnRef
        (aggr128 (srcIdx ei) (dstIdx ei) (normOf (srcIdx ei) (dstIdx ei))
          (dot128
            (bnRef (aggr128 (srcIdx ei) (dstIdx ei) (normOf (srcIdx ei) (dstIdx ei)) (dot128 x W1) b1) g1 be1)
            W2)
          b2)
        g2 be2)
      W3)
    b3

end Cert.ReferenceIdeal.RefValue

end
-- ==== Proof.RefPieces.lean ====
/-
  Each of the eleven pieces of the reference's operation list read on its own, from ANY contents at its entry:
  the buffers later pieces use, as the specification's stage applied to the entry contents at the piece's inputs.
  Three stages the specification does not name on their own (the edge weights from given inverse square-root
  degrees, the means from given column sums, the normalised layer from a given mean and variance) are named here,
  with the specification's stages as their instances.
-/
import proofs.«173831_j84808424227048_1_alg».proof.Proof.RefOps
import proofs.«173831_j84808424227048_1_alg».proof.Proof.RefSpec

set_option Elab.async false

noncomputable section

namespace Cert.ReferenceIdeal.RefValue

open Idealize.ShloMosaic Idealize.SL.Sem Idealize.ShloMosaic.TcCoe Cert.ReferenceIdeal Cert.ReferenceIdeal.Gen

/-! ## Stages the specification does not name on their own -/

/-- The weight of every edge from a given vector of inverse square-root degrees: its value at the wrapped
    source times its value at the wrapped destination. -/
def normFrom (dinv : FVec Ideal S50000 .f32) (s d : IVec S650000 32) : FVec Ideal S650000 .f32 :=
  mulf (Host.gather gather_S50000_S650000x1_S650000_n_0_n_n_0_1_1 dinv (wrapCol s))
    (Host.gather gather_S50000_S650000x1_S650000_n_0_n_n_0_1_1 dinv (wrapCol d))

theorem normOf_eq_normFrom (s d : IVec S650000 32) : normOf s d = normFrom (dinvOf d) s d := rfl

/-- The column means from the column sums: divided by `50000`. -/
def meanFrom (t : FVec Ideal S128 .f32) : FVec Ideal S128 .f32 :=
  Host.divf t (broadcastInDim S128 ![] bcast_S_S128 (constant S_ .f32 0x47435000#32))

theorem meanRef_eq_meanFrom (x : FVec Ideal S50000x128 .f32) : meanRef x = meanFrom (sumRows x) := rfl

/-- The normalised, scaled, shifted and rectified layer from a given mean and variance per column. -/
def bnFrom (x : FVec Ideal S50000x128 .f32) (mu var g be : FVec Ideal S128 .f32) : FVec Ideal S50000x128 .f32 :=
  maximumf
    (addf
      (mulf (mulf (rowB g) (subf x (rowB mu)))
        (rowB (Host.rsqrt (addf var (broadcastInDim S128 ![] bcast_S_S128 (constant S_ .f32 0x3727C5AC#32))))))
      (rowB be))
    (broadcastInDim S50000x128 ![] bcast_S_S50000x128 (constant S_ .f32 0x00000000#32))

theorem bnRef_eq_bnFrom (x : FVec Ideal S50000x128 .f32) (g be : FVec Ideal S128 .f32) :
    bnRef x g be = bnFrom x (meanRef x) (varRef x) g be := rfl

/-! ## Each piece read at the buffers later pieces use, from any entry contents -/

attribute [local irreducible] Host.gather Host.scatterAdd Host.reduceAdd

/-- After the first piece the source list is row 0 of the edge list followed by the self loops. -/
theorem p0a_src (V : Valuation τ sig (Elt Ideal)) :
    (StableHlo.after (ops0a (F := Ideal)) V (main_v5 : DevRef τ sig) : IVec S650000 32) = srcIdx (V (main_arg1 : DevRef τ sig)) := by
  after_results_simp
  rfl

/-- After the first piece the destination list is row 1 of the edge list followed by the self loops. -/
theorem p0a_dst (V : Valuation τ sig (Elt Ideal)) :
    (StableHlo.after (ops0a (F := Ideal)) V (main_v6 : DevRef τ sig) : IVec S650000 32) = dstIdx (V (main_arg1 : DevRef τ sig)) := by
  after_results_simp
  rfl

/-- The second piece leaves the inverse square-root degrees of the destination list it finds. -/
theorem p0b (V : Valuation τ sig (Elt Ideal)) :
    (StableHlo.after (ops0b (F := Ideal)) V (main_v14 : DevRef τ sig) : FVec Ideal S50000 .f32) = dinvOf (V (main_v6 : DevRef τ sig)) := by
  after_results_simp
  rfl

/-- The third piece leaves the edge weights of the degrees and index lists it finds. -/
theorem p0c (V : Valuation τ sig (Elt Ideal)) :
    (StableHlo.after (ops0c (F := Ideal)) V (main_v29 : DevRef τ sig) : FVec Ideal S650000 .f32)
      = normFrom (V (main_v14 : DevRef τ sig)) (V (main_v5 : DevRef τ sig)) (V (main_v6 : DevRef τ sig)) := by
  after_results_simp
  rfl

/-- The fourth piece leaves the first layer's aggregation of the product with the first weight matrix. -/
theorem p0d_46 (V : Valuation τ sig (Elt Ideal)) :
    (StableHlo.after (ops0d (F := Ideal)) V (main_v46 : DevRef τ sig) : FVec Ideal S50000x128 .f32)
      = aggr128 (V (main_v5 : DevRef τ sig)) (V (main_v6 : DevRef τ sig)) (V (main_v29 : DevRef τ sig))
          (dot128 (V (main_arg0 : DevRef τ sig)) (V (main_arg2 : DevRef τ sig))) (V (main_arg3 : DevRef τ sig)) := by
  after_results_simp
  rfl

/-- … and its column sums. -/
theorem p0d_47 (V : Valuation τ sig (Elt Ideal)) :
    (StableHlo.after (ops0d (F := Ideal)) V (main_v47 : DevRef τ sig) : FVec Ideal S128 .f32)
      = sumRows (aggr128 (V (main_v5 : DevRef τ sig)) (V (main_v6 : DevRef τ sig)) (V (main_v29 : DevRef τ sig))
          (dot128 (V (main_arg0 : DevRef τ sig)) (V (main_arg2 : DevRef τ sig))) (V (main_arg3 : DevRef τ sig))) := by
  after_results_simp
  rfl

/-- The fifth piece leaves the column means from the column sums it finds … -/
theorem p1a_49 (V : Valuation τ sig (Elt Ideal)) :
    (StableHlo.after (ops1a (F := Ideal)) V (main_v49 : DevRef τ sig) : FVec Ideal S128 .f32) = meanFrom (V (main_v47 : DevRef τ sig)) := by
  after_results_simp
  rfl

/-- … and the column variances of the layer it finds. -/
theorem p1a_50 (V : Valuation τ sig (Elt Ideal)) :
    (StableHlo.after (ops1a (F := Ideal)) V (main_v50 : DevRef τ sig) : FVec Ideal S128 .f32) = varRef (V (main_v46 : DevRef τ sig)) := by
  after_results_simp
  rfl

/-- The sixth piece normalises, scales, shifts and rectifies the layer it finds by the mean and variance it finds. -/
theorem p1b (V : Valuation τ sig (Elt Ideal)) :
    (StableHlo.after (ops1b (F := Ideal)) V (main_v66 : DevRef τ sig) : FVec Ideal S50000x128 .f32)
      = bnFrom (V (main_v46 : DevRef τ sig)) (V (main_v49 : DevRef τ sig)) (V (main_v50 : DevRef τ sig)) (V (main_arg4 : DevRef τ sig)) (V (main_arg5 : DevRef τ sig)) := by
  after_results_simp
  rfl

/-- The seventh piece leaves the second layer's aggregation of the product with the second weight matrix … -/
theorem p1c_83 (V : Valuation τ sig (Elt Ideal)) :
    (StableHlo.after (ops1c (F := Ideal)) V (main_v83 : DevRef τ sig) : FVec Ideal S50000x128 .f32)
      = aggr128 (V (main_v5 : DevRef τ sig)) (V (main_v6 : DevRef τ sig)) (V (main_v29 : DevRef τ sig))
          (dot128 (V (main_v66 : DevRef τ sig)) (V (main_arg6 : DevRef τ sig))) (V (main_arg7 : DevRef τ sig)) := by
  after_results_simp
  rfl

/-- … and its column sums. -/
theorem p1c_84 (V : Valuation τ sig (Elt Ideal)) :
    (StableHlo.after (ops1c (F := Ideal)) V (main_v84 : DevRef τ sig) : FVec Ideal S128 .f32)
      = sumRows (aggr128 (V (main_v5 : DevRef τ sig)) (V (main_v6 : DevRef τ sig)) (V (main_v29 : DevRef τ sig))
          (dot128 (V (main_v66 : DevRef τ sig)) (V (main_arg6 : DevRef τ sig))) (V (main_arg7 : DevRef τ sig))) := by
  after_results_simp
  rfl

/-- The eighth piece leaves the column means from the column sums it finds … -/
theorem p1d_86 (V : Valuation τ sig (Elt Ideal)) :
    (StableHlo.after (ops1d (F := Ideal)) V (main_v86 : DevRef τ sig) : FVec Ideal S128 .f32) = meanFrom (V (main_v84 : DevRef τ sig)) := by
  after_results_simp
  rfl

/-- … and the column variances of the layer it finds. -/
theorem p1d_87 (V : Valuation τ sig (Elt Ideal)) :
    (StableHlo.after (ops1d (F := Ideal)) V (main_v87 : DevRef τ sig) : FVec Ideal S128 .f32) = varRef (V (main_v83 : DevRef τ sig)) := by
  after_results_simp
  rfl

/-- The ninth and tenth pieces together normalise, scale, shift and rectify the second layer. -/
theorem p1e2a (V : Valuation τ sig (Elt Ideal)) :
    (StableHlo.after (ops2a (F := Ideal)) (StableHlo.after (ops1e (F := Ideal)) V) (main_v103 : DevRef τ sig) : FVec Ideal S50000x128 .f32)
      = bnFrom (V (main_v83 : DevRef τ sig)) (V (main_v86 : DevRef τ sig)) (V (main_v87 : DevRef τ sig)) (V (main_arg8 : DevRef τ sig)) (V (main_arg9 : DevRef τ sig)) := by
  after_results_simp
  rfl

/-- The last piece leaves the third layer's aggregation of the product with the last weight matrix. -/
theorem p2b (V : Valuation τ sig (Elt Ideal)) :
    (StableHlo.after (ops2b (F := Ideal)) V (main_v120 : DevRef τ sig) : FVec Ideal S50000x64 .f32)
      = aggr64 (V (main_v5 : DevRef τ sig)) (V (main_v6 : DevRef τ sig)) (V (main_v29 : DevRef τ sig))
          (dot64 (V (main_v103 : DevRef τ sig)) (V (main_arg10 : DevRef τ sig))) (V (main_arg11 : DevRef τ sig)) := by
  after_results_simp
  rfl

end Cert.ReferenceIdeal.RefValue

end
-- ==== Proof.LibKeep.lean ====
/-
  Two facts about a straight line of host operations, for reading its fold piece by piece: an operation whose
  result buffer is one of a list of references writes inside that list's buffers, and a line that writes only
  inside a list leaves every reference outside it as it found it — so two contents that agree on a list of
  references still agree after a line that writes none of them.
-/
import Idealize.ShloMosaic.Lib.StableHlo.Run

namespace Cert.LibKeep

open Idealize.ShloMosaic Idealize.SL.Sem

variable {τ : Topo} {sig : RefSig} {Val : EltTy → Type}

/-- The one buffer of a reference that is in a list lies among the list's buffers. -/
theorem single_sub_of_mem {Wl : List (Ref sig .tc)} {y : Ref sig .tc} (h : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map.mpr ⟨y, h, rfl⟩))

/-- `W` holds at every reference of `L` what `V` holds there. -/
def Agree (L : List (Ref sig .tc)) (V W : Valuation τ sig Val) : Prop :=
  ∀ r ∈ L, W (Proc.devRef .tc r) = V (Proc.devRef .tc r)

/-- Contents agree with themselves. -/
theorem Agree.refl (L : List (Ref sig .tc)) (V : Valuation τ sig Val) : Agree L V V := fun _ _ => rfl

/-- A line that writes only references of `Wl`, none of them in `L`, keeps agreement on `L`. -/
theorem Agree.after {L Wl : List (Ref sig .tc)} {V W : Valuation τ sig Val} (h : Agree L V W)
    (ops : List (HloOp τ sig Val))
    (hW : ops.Forall fun op => op.writes ⊆ (Wl.map (Proc.devRef (τ := τ) .tc)).toFinset) (hd : ∀ r ∈ L, r ∉ Wl) :
    Agree L V (StableHlo.after ops W) :=
  fun r hr => (StableHlo.after_of_writes_sub ops W hW (hd r hr)).trans (h r hr)

/-- The fold of two lines one after the other is the second's fold from the first's. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

end Cert.LibKeep
-- ==== Proof.RefRead.lean ====
/-
  The fold of the reference's operations read back as a function of the arguments. A piece of the operation list
  leaves every buffer it does not write as it found it, so the index lists, the edge weights and the twelve
  arguments travel unchanged through the later pieces. Chaining the pieces' readings gives the result buffer as
  the specification's three layers of the arguments' contents, and the arguments as they were; with the run of
  the operation list this is the run of the host function at the ideal values.
-/
import proofs.«173831_j84808424227048_1_alg».proof.Proof.RefPieces
import proofs.«173831_j84808424227048_1_alg».proof.Proof.LibKeep

noncomputable section

namespace Cert.ReferenceIdeal.RefValue

open Idealize.ShloMosaic Idealize.SL.Sem Idealize.ShloMosaic.TcCoe Cert.ReferenceIdeal Cert.ReferenceIdeal.Gen Cert.LibKeep

/-! ## What each piece writes -/

/-- The references piece `ops0a` writes. -/
abbrev w0a : List (Ref sig .tc) :=
  [main_v0, main_v1, main_v2, main_v3, main_v4, main_v5, main_v6]

theorem ops0a_writes {F : FTy → Type} [FloatOps F] :
    (ops0a (F := F)).Forall fun op => op.writes ⊆ (w0a.map (Proc.devRef (τ := τ) .tc)).toFinset :=
  ⟨single_sub_of_mem (y := main_v0) (by decide),
   single_sub_of_mem (y := main_v1) (by decide),
   single_sub_of_mem (y := main_v2) (by decide),
   single_sub_of_mem (y := main_v3) (by decide),
   single_sub_of_mem (y := main_v4) (by decide),
   single_sub_of_mem (y := main_v5) (by decide),
   single_sub_of_mem (y := main_v6) (by decide)⟩

/-- The references piece `ops0b` writes. -/
abbrev w0b : List (Ref sig .tc) :=
  [main_cst, main_v7, main_cst_0, main_v8, main_v9, main_v10, main_cst_1, main_v11, main_v12, main_v13, main_cst_2, main_call0_v0, main_call0_v1, main_v14]

theorem ops0b_writes {F : FTy → Type} [FloatOps F] :
    (ops0b (F := F)).Forall fun op => op.writes ⊆ (w0b.map (Proc.devRef (τ := τ) .tc)).toFinset :=
  ⟨single_sub_of_mem (y := main_cst) (by decide),
   single_sub_of_mem (y := main_v7) (by decide),
   single_sub_of_mem (y := main_cst_0) (by decide),
   single_sub_of_mem (y := main_v8) (by decide),
   single_sub_of_mem (y := main_v9) (by decide),
   single_sub_of_mem (y := main_v10) (by decide),
   single_sub_of_mem (y := main_cst_1) (by decide),
   single_sub_of_mem (y := main_v11) (by decide),
   single_sub_of_mem (y := main_v12) (by decide),
   single_sub_of_mem (y := main_v13) (by decide),
   single_sub_of_mem (y := main_cst_2) (by decide),
   single_sub_of_mem (y := main_call0_v0) (by decide),
   single_sub_of_mem (y := main_call0_v1) (by decide),
   single_sub_of_mem (y := main_v14) (by decide)⟩

/-- The references piece `ops0c` writes. -/
abbrev w0c : List (Ref sig .tc) :=
  [main_c, main_v15, main_v16, main_c_3, main_v17, main_v18, main_v19, main_v20, main_v21, main_c_4, main_v22, main_v23, main_c_5, main_v24, main_v25, main_v26, main_v27, main_v28, main_v29]

theorem ops0c_writes {F : FTy → Type} [FloatOps F] :
    (ops0c (F := F)).Forall fun op => op.writes ⊆ (w0c.map (Proc.devRef (τ := τ) .tc)).toFinset :=
  ⟨single_sub_of_mem (y := main_c) (by decide),
   single_sub_of_mem (y := main_v15) (by decide),
   single_sub_of_mem (y := main_v16) (by decide),
   single_sub_of_mem (y := main_c_3) (by decide),
   single_sub_of_mem (y := main_v17) (by decide),
   single_sub_of_mem (y := main_v18) (by decide),
   single_sub_of_mem (y := main_v19) (by decide),
   single_sub_of_mem (y := main_v20) (by decide),
   single_sub_of_mem (y := main_v21) (by decide),
   single_sub_of_mem (y := main_c_4) (by decide),
   single_sub_of_mem (y := main_v22) (by decide),
   single_sub_of_mem (y := main_v23) (by decide),
   single_sub_of_mem (y := main_c_5) (by decide),
   single_sub_of_mem (y := main_v24) (by decide),
   single_sub_of_mem (y := main_v25) (by decide),
   single_sub_of_mem (y := main_v26) (by decide),
   single_sub_of_mem (y := main_v27) (by decide),
   single_sub_of_mem (y := main_v28) (by decide),
   single_sub_of_mem (y := main_v29) (by decide)⟩

/-- The references piece `ops0d` writes. -/
abbrev w0d : List (Ref sig .tc) :=
  [main_v30, main_c_6, main_v31, main_v32, main_c_7, main_v33, main_v34, main_v35, main_v36, main_v37, main_v38, main_v39, main_v40, main_cst_8, main_v41, main_v42, main_v43, main_v44, main_v45, main_v46, main_cst_9, main_v47]

theorem ops0d_writes {F : FTy → Type} [FloatOps F] :
    (ops0d (F := F)).Forall fun op => op.writes ⊆ (w0d.map (Proc.devRef (τ := τ) .tc)).toFinset :=
  ⟨single_sub_of_mem (y := main_v30) (by decide),
   single_sub_of_mem (y := main_c_6) (by decide),
   single_sub_of_mem (y := main_v31) (by decide),
   single_sub_of_mem (y := main_v32) (by decide),
   single_sub_of_mem (y := main_c_7) (by decide),
   single_sub_of_mem (y := main_v33) (by decide),
   single_sub_of_mem (y := main_v34) (by decide),
   single_sub_of_mem (y := main_v35) (by decide),
   single_sub_of_mem (y := main_v36) (by decide),
   single_sub_of_mem (y := main_v37) (by decide),
   single_sub_of_mem (y := main_v38) (by decide),
   single_sub_of_mem (y := main_v39) (by decide),
   single_sub_of_mem (y := main_v40) (by decide),
   single_sub_of_mem (y := main_cst_8) (by decide),
   single_sub_of_mem (y := main_v41) (by decide),
   single_sub_of_mem (y := main_v42) (by decide),
   single_sub_of_mem (y := main_v43) (by decide),
   single_sub_of_mem (y := main_v44) (by decide),
   single_sub_of_mem (y := main_v45) (by decide),
   single_sub_of_mem (y := main_v46) (by decide),
   single_sub_of_mem (y := main_cst_9) (by decide),
   single_sub_of_mem (y := main_v47) (by decide)⟩

/-- The references piece `ops1a` writes. -/
abbrev w1a : List (Ref sig .tc) :=
  [main_cst_10, main_v48, main_v49, main_c_11, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v50]

theorem ops1a_writes {F : FTy → Type} [FloatOps F] :
    (ops1a (F := F)).Forall fun op => op.writes ⊆ (w1a.map (Proc.devRef (τ := τ) .tc)).toFinset :=
  ⟨single_sub_of_mem (y := main_cst_10) (by decide),
   single_sub_of_mem (y := main_v48) (by decide),
   single_sub_of_mem (y := main_v49) (by decide),
   single_sub_of_mem (y := main_c_11) (by decide),
   single_sub_of_mem (y := main_call1_cst) (by decide),
   single_sub_of_mem (y := main_call1_v0) (by decide),
   single_sub_of_mem (y := main_call1_v1) (by decide),
   single_sub_of_mem (y := main_call1_cst_0) (by decide),
   single_sub_of_mem (y := main_call1_v2) (by decide),
   single_sub_of_mem (y := main_call1_v3) (by decide),
   single_sub_of_mem (y := main_call1_v4) (by decide),
   single_sub_of_mem (y := main_call1_v5) (by decide),
   single_sub_of_mem (y := main_call1_v6) (by decide),
   single_sub_of_mem (y := main_call1_v7) (by decide),
   single_sub_of_mem (y := main_call1_cst_1) (by decide),
   single_sub_of_mem (y := main_call1_v8) (by decide),
   single_sub_of_mem (y := main_call1_cst_2) (by decide),
   single_sub_of_mem (y := main_call1_v9) (by decide),
   single_sub_of_mem (y := main_call1_v10) (by decide),
   single_sub_of_mem (y := main_call1_v11) (by decide),
   single_sub_of_mem (y := main_call1_cst_3) (by decide),
   single_sub_of_mem (y := main_call1_v12) (by decide),
   single_sub_of_mem (y := main_call1_cst_4) (by decide),
   single_sub_of_mem (y := main_call1_call0_v0) (by decide),
   single_sub_of_mem (y := main_call1_call0_v1) (by decide),
   single_sub_of_mem (y := main_v50) (by decide)⟩

/-- The references piece `ops1b` writes. -/
abbrev w1b : List (Ref sig .tc) :=
  [main_v51, main_v52, main_v53, main_v54, main_v55, main_v56, main_cst_12, main_v57, main_v58, main_v59, main_v60, main_v61, main_v62, main_v63, main_v64, main_v65, main_call2_cst, main_call2_v0, main_v66]

theorem ops1b_writes {F : FTy → Type} [FloatOps F] :
    (ops1b (F := F)).Forall fun op => op.writes ⊆ (w1b.map (Proc.devRef (τ := τ) .tc)).toFinset :=
  ⟨single_sub_of_mem (y := main_v51) (by decide),
   single_sub_of_mem (y := main_v52) (by decide),
   single_sub_of_mem (y := main_v53) (by decide),
   single_sub_of_mem (y := main_v54) (by decide),
   single_sub_of_mem (y := main_v55) (by decide),
   single_sub_of_mem (y := main_v56) (by decide),
   single_sub_of_mem (y := main_cst_12) (by decide),
   single_sub_of_mem (y := main_v57) (by decide),
   single_sub_of_mem (y := main_v58) (by decide),
   single_sub_of_mem (y := main_v59) (by decide),
   single_sub_of_mem (y := main_v60) (by decide),
   single_sub_of_mem (y := main_v61) (by decide),
   single_sub_of_mem (y := main_v62) (by decide),
   single_sub_of_mem (y := main_v63) (by decide),
   single_sub_of_mem (y := main_v64) (by decide),
   single_sub_of_mem (y := main_v65) (by decide),
   single_sub_of_mem (y := main_call2_cst) (by decide),
   single_sub_of_mem (y := main_call2_v0) (by decide),
   single_sub_of_mem (y := main_v66) (by decide)⟩

/-- The references piece `ops1c` writes. -/
abbrev w1c : List (Ref sig .tc) :=
  [main_v67, main_c_13, main_v68, main_v69, main_c_14, main_v70, main_v71, main_v72, main_v73, main_v74, main_v75, main_v76, main_v77, main_cst_15, main_v78, main_v79, main_v80, main_v81, main_v82, main_v83, main_cst_16, main_v84]

theorem ops1c_writes {F : FTy → Type} [FloatOps F] :
    (ops1c (F := F)).Forall fun op => op.writes ⊆ (w1c.map (Proc.devRef (τ := τ) .tc)).toFinset :=
  ⟨single_sub_of_mem (y := main_v67) (by decide),
   single_sub_of_mem (y := main_c_13) (by decide),
   single_sub_of_mem (y := main_v68) (by decide),
   single_sub_of_mem (y := main_v69) (by decide),
   single_sub_of_mem (y := main_c_14) (by decide),
   single_sub_of_mem (y := main_v70) (by decide),
   single_sub_of_mem (y := main_v71) (by decide),
   single_sub_of_mem (y := main_v72) (by decide),
   single_sub_of_mem (y := main_v73) (by decide),
   single_sub_of_mem (y := main_v74) (by decide),
   single_sub_of_mem (y := main_v75) (by decide),
   single_sub_of_mem (y := main_v76) (by decide),
   single_sub_of_mem (y := main_v77) (by decide),
   single_sub_of_mem (y := main_cst_15) (by decide),
   single_sub_of_mem (y := main_v78) (by decide),
   single_sub_of_mem (y := main_v79) (by decide),
   single_sub_of_mem (y := main_v80) (by decide),
   single_sub_of_mem (y := main_v81) (by decide),
   single_sub_of_mem (y := main_v82) (by decide),
   single_sub_of_mem (y := main_v83) (by decide),
   single_sub_of_mem (y := main_cst_16) (by decide),
   single_sub_of_mem (y := main_v84) (by decide)⟩

/-- The references piece `ops1d` writes. -/
abbrev w1d : List (Ref sig .tc) :=
  [main_cst_17, main_v85, main_v86, main_c_18, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v87]

theorem ops1d_writes {F : FTy → Type} [FloatOps F] :
    (ops1d (F := F)).Forall fun op => op.writes ⊆ (w1d.map (Proc.devRef (τ := τ) .tc)).toFinset :=
  ⟨single_sub_of_mem (y := main_cst_17) (by decide),
   single_sub_of_mem (y := main_v85) (by decide),
   single_sub_of_mem (y := main_v86) (by decide),
   single_sub_of_mem (y := main_c_18) (by decide),
   single_sub_of_mem (y := main_call3_cst) (by decide),
   single_sub_of_mem (y := main_call3_v0) (by decide),
   single_sub_of_mem (y := main_call3_v1) (by decide),
   single_sub_of_mem (y := main_call3_cst_0) (by decide),
   single_sub_of_mem (y := main_call3_v2) (by decide),
   single_sub_of_mem (y := main_call3_v3) (by decide),
   single_sub_of_mem (y := main_call3_v4) (by decide),
   single_sub_of_mem (y := main_call3_v5) (by decide),
   single_sub_of_mem (y := main_call3_v6) (by decide),
   single_sub_of_mem (y := main_call3_v7) (by decide),
   single_sub_of_mem (y := main_call3_cst_1) (by decide),
   single_sub_of_mem (y := main_call3_v8) (by decide),
   single_sub_of_mem (y := main_call3_cst_2) (by decide),
   single_sub_of_mem (y := main_call3_v9) (by decide),
   single_sub_of_mem (y := main_call3_v10) (by decide),
   single_sub_of_mem (y := main_call3_v11) (by decide),
   single_sub_of_mem (y := main_call3_cst_3) (by decide),
   single_sub_of_mem (y := main_call3_v12) (by decide),
   single_sub_of_mem (y := main_call3_cst_4) (by decide),
   single_sub_of_mem (y := main_call3_call0_v0) (by decide),
   single_sub_of_mem (y := main_call3_call0_v1) (by decide),
   single_sub_of_mem (y := main_v87) (by decide)⟩

/-- The references piece `ops1e` writes. -/
abbrev w1e : List (Ref sig .tc) :=
  [main_v88, main_v89, main_v90, main_v91, main_v92, main_v93, main_cst_19, main_v94, main_v95, main_v96, main_v97]

theorem ops1e_writes {F : FTy → Type} [FloatOps F] :
    (ops1e (F := F)).Forall fun op => op.writes ⊆ (w1e.map (Proc.devRef (τ := τ) .tc)).toFinset :=
  ⟨single_sub_of_mem (y := main_v88) (by decide),
   single_sub_of_mem (y := main_v89) (by decide),
   single_sub_of_mem (y := main_v90) (by decide),
   single_sub_of_mem (y := main_v91) (by decide),
   single_sub_of_mem (y := main_v92) (by decide),
   single_sub_of_mem (y := main_v93) (by decide),
   single_sub_of_mem (y := main_cst_19) (by decide),
   single_sub_of_mem (y := main_v94) (by decide),
   single_sub_of_mem (y := main_v95) (by decide),
   single_sub_of_mem (y := main_v96) (by decide),
   single_sub_of_mem (y := main_v97) (by decide)⟩

/-- The references piece `ops2a` writes. -/
abbrev w2a : List (Ref sig .tc) :=
  [main_v98, main_v99, main_v100, main_v101, main_v102, main_call4_cst, main_call4_v0, main_v103]

theorem ops2a_writes {F : FTy → Type} [FloatOps F] :
    (ops2a (F := F)).Forall fun op => op.writes ⊆ (w2a.map (Proc.devRef (τ := τ) .tc)).toFinset :=
  ⟨single_sub_of_mem (y := main_v98) (by decide),
   single_sub_of_mem (y := main_v99) (by decide),
   single_sub_of_mem (y := main_v100) (by decide),
   single_sub_of_mem (y := main_v101) (by decide),
   single_sub_of_mem (y := main_v102) (by decide),
   single_sub_of_mem (y := main_call4_cst) (by decide),
   single_sub_of_mem (y := main_call4_v0) (by decide),
   single_sub_of_mem (y := main_v103) (by decide)⟩

/-- The references piece `ops2b` writes. -/
abbrev w2b : List (Ref sig .tc) :=
  [main_v104, main_c_20, main_v105, main_v106, main_c_21, main_v107, main_v108, main_v109, main_v110, main_v111, main_v112, main_v113, main_v114, main_cst_22, main_v115, main_v116, main_v117, main_v118, main_v119, main_v120]

theorem ops2b_writes {F : FTy → Type} [FloatOps F] :
    (ops2b (F := F)).Forall fun op => op.writes ⊆ (w2b.map (Proc.devRef (τ := τ) .tc)).toFinset :=
  ⟨single_sub_of_mem (y := main_v104) (by decide),
   single_sub_of_mem (y := main_c_20) (by decide),
   single_sub_of_mem (y := main_v105) (by decide),
   single_sub_of_mem (y := main_v106) (by decide),
   single_sub_of_mem (y := main_c_21) (by decide),
   single_sub_of_mem (y := main_v107) (by decide),
   single_sub_of_mem (y := main_v108) (by decide),
   single_sub_of_mem (y := main_v109) (by decide),
   single_sub_of_mem (y := main_v110) (by decide),
   single_sub_of_mem (y := main_v111) (by decide),
   single_sub_of_mem (y := main_v112) (by decide),
   single_sub_of_mem (y := main_v113) (by decide),
   single_sub_of_mem (y := main_v114) (by decide),
   single_sub_of_mem (y := main_cst_22) (by decide),
   single_sub_of_mem (y := main_v115) (by decide),
   single_sub_of_mem (y := main_v116) (by decide),
   single_sub_of_mem (y := main_v117) (by decide),
   single_sub_of_mem (y := main_v118) (by decide),
   single_sub_of_mem (y := main_v119) (by decide),
   single_sub_of_mem (y := main_v120) (by decide)⟩

/-- The twelve arguments' references. -/
abbrev argL : List (Ref sig .tc) :=
  [main_arg0, main_arg1, main_arg2, main_arg3, main_arg4, main_arg5, main_arg6, main_arg7, main_arg8, main_arg9, main_arg10, main_arg11]
/-- The two index lists' references. -/
abbrev idxL : List (Ref sig .tc) := [main_v5, main_v6]
/-- The edge weights' reference. -/
abbrev nmL : List (Ref sig .tc) := [main_v29]

/-- The fold over all the operations is the pieces' folds one after the other. -/
theorem after_ops_eq {F : FTy → Type} [FloatOps F] (V : Valuation τ sig (Elt F)) :
    StableHlo.after ops V = StableHlo.after ops2b (StableHlo.after ops2a (StableHlo.after ops1e (StableHlo.after ops1d (StableHlo.after ops1c (StableHlo.after ops1b (StableHlo.after ops1a (StableHlo.after ops0d (StableHlo.after ops0c (StableHlo.after ops0b (StableHlo.after ops0a V)))))))))) := by
  simp only [ops, ops0, ops1, ops2, after_append]

/-- No operation writes an argument: the fold leaves the twelve arguments as it found them. -/
theorem args_agree {F : FTy → Type} [FloatOps F] (V : Valuation τ sig (Elt F)) : Agree argL V (StableHlo.after ops V) := by
  rw [after_ops_eq]
  exact ((((((((((((Agree.refl argL V).after ops0a ops0a_writes (by decide)).after ops0b ops0b_writes (by decide)).after ops0c ops0c_writes (by decide)).after ops0d ops0d_writes (by decide)).after ops1a ops1a_writes (by decide)).after ops1b ops1b_writes (by decide)).after ops1c ops1c_writes (by decide)).after ops1d ops1d_writes (by decide)).after ops1e ops1e_writes (by decide)).after ops2a ops2a_writes (by decide)).after ops2b ops2b_writes (by decide))

/-! ## The fold read at the result and at the arguments -/

/-- The result buffer ends holding the specification's three layers of the arguments' contents: each piece read
    from the contents the pieces before it leave, the index lists, the edge weights and the arguments carried
    unchanged through the pieces that do not write them. -/
theorem out_eq (V : Valuation τ sig (Elt Ideal)) :
    (StableHlo.after ops V (main_v120 : DevRef τ sig) : FVec Ideal S50000x64 .f32)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [after_ops_eq]
  have A1 : Agree argL V (StableHlo.after ops0a V) := (Agree.refl argL V).after ops0a ops0a_writes (by decide)
  have A2 : Agree argL V (StableHlo.after ops0b (StableHlo.after ops0a V)) := A1.after ops0b ops0b_writes (by decide)
  have A3 : Agree argL V (StableHlo.after ops0c (StableHlo.after ops0b (StableHlo.after ops0a V))) := A2.after ops0c ops0c_writes (by decide)
  have A4 : Agree argL V (StableHlo.after ops0d (StableHlo.after ops0c (StableHlo.after ops0b (StableHlo.after ops0a V)))) := A3.after ops0d ops0d_writes (by decide)
  have A5 : Agree argL V (StableHlo.after ops1a (StableHlo.after ops0d (StableHlo.after ops0c (StableHlo.after ops0b (StableHlo.after ops0a V))))) := A4.after ops1a ops1a_writes (by decide)
  have A6 : Agree argL V (StableHlo.after ops1b (StableHlo.after ops1a (StableHlo.after ops0d (StableHlo.after ops0c (StableHlo.after ops0b (StableHlo.after ops0a V)))))) := A5.after ops1b ops1b_writes (by decide)
  have A7 : Agree argL V (StableHlo.after ops1c (StableHlo.after ops1b (StableHlo.after ops1a (StableHlo.after ops0d (StableHlo.after ops0c (StableHlo.after ops0b (StableHlo.after ops0a V))))))) := A6.after ops1c ops1c_writes (by decide)
  have A8 : Agree argL V (StableHlo.after ops1d (StableHlo.after ops1c (StableHlo.after ops1b (StableHlo.after ops1a (StableHlo.after ops0d (StableHlo.after ops0c (StableHlo.after ops0b (StableHlo.after ops0a V)))))))) := A7.after ops1d ops1d_writes (by decide)
  have A9 : Agree argL V (StableHlo.after ops1e (StableHlo.after ops1d (StableHlo.after ops1c (StableHlo.after ops1b (StableHlo.after ops1a (StableHlo.after ops0d (StableHlo.after ops0c (StableHlo.after ops0b (StableHlo.after ops0a V))))))))) := A8.after ops1e ops1e_writes (by decide)
  have A10 : Agree argL V (StableHlo.after ops2a (StableHlo.after ops1e (StableHlo.after ops1d (StableHlo.after ops1c (StableHlo.after ops1b (StableHlo.after ops1a (StableHlo.after ops0d (StableHlo.after ops0c (StableHlo.after ops0b (StableHlo.after ops0a V)))))))))) := A9.after ops2a ops2a_writes (by decide)
  have B2 : Agree idxL (StableHlo.after ops0a V) (StableHlo.after ops0b (StableHlo.after ops0a V)) := (Agree.refl idxL (StableHlo.after ops0a V)).after ops0b ops0b_writes (by decide)
  have B3 : Agree idxL (StableHlo.after ops0a V) (StableHlo.after ops0c (StableHlo.after ops0b (StableHlo.after ops0a V))) := B2.after ops0c ops0c_writes (by decide)
  have B4 : Agree idxL (StableHlo.after ops0a V) (StableHlo.after ops0d (StableHlo.after ops0c (StableHlo.after ops0b (StableHlo.after ops0a V)))) := B3.after ops0d ops0d_writes (by decide)
  have B5 : Agree idxL (StableHlo.after ops0a V) (StableHlo.after ops1a (StableHlo.after ops0d (StableHlo.after ops0c (StableHlo.after ops0b (StableHlo.after ops0a V))))) := B4.after ops1a ops1a_writes (by decide)
  have B6 : Agree idxL (StableHlo.after ops0a V) (StableHlo.after ops1b (StableHlo.after ops1a (StableHlo.after ops0d (StableHlo.after ops0c (StableHlo.after ops0b (StableHlo.after ops0a V)))))) := B5.after ops1b ops1b_writes (by decide)
  have B7 : Agree idxL (StableHlo.after ops0a V) (StableHlo.after ops1c (StableHlo.after ops1b (StableHlo.after ops1a (StableHlo.after ops0d (StableHlo.after ops0c (StableHlo.after ops0b (StableHlo.after ops0a V))))))) := B6.after ops1c ops1c_writes (by decide)
  have B8 : Agree idxL (StableHlo.after ops0a V) (StableHlo.after ops1d (StableHlo.after ops1c (StableHlo.after ops1b (StableHlo.after ops1a (StableHlo.after ops0d (StableHlo.after ops0c (StableHlo.after ops0b (StableHlo.after ops0a V)))))))) := B7.after ops1d ops1d_writes (by decide)
  have B9 : Agree idxL (StableHlo.after ops0a V) (StableHlo.after ops1e (StableHlo.after ops1d (StableHlo.after ops1c (StableHlo.after ops1b (StableHlo.after ops1a (StableHlo.after ops0d (StableHlo.after ops0c (StableHlo.after ops0b (StableHlo.after ops0a V))))))))) := B8.after ops1e ops1e_writes (by decide)
  have B10 : Agree idxL (StableHlo.after ops0a V) (StableHlo.after ops2a (StableHlo.after ops1e (StableHlo.after ops1d (StableHlo.after ops1c (StableHlo.after ops1b (StableHlo.after ops1a (StableHlo.after ops0d (StableHlo.after ops0c (StableHlo.after ops0b (StableHlo.after ops0a V)))))))))) := B9.after ops2a ops2a_writes (by decide)
  have C4 : Agree nmL (StableHlo.after ops0c (StableHlo.after ops0b (StableHlo.after ops0a V))) (StableHlo.after ops0d (StableHlo.after ops0c (StableHlo.after ops0b (StableHlo.after ops0a V)))) := (Agree.refl nmL (StableHlo.after ops0c (StableHlo.after ops0b (StableHlo.after ops0a V)))).after ops0d ops0d_writes (by decide)
  have C5 : Agree nmL (StableHlo.after ops0c (StableHlo.after ops0b (StableHlo.after ops0a V))) (StableHlo.after ops1a (StableHlo.after ops0d (StableHlo.after ops0c (StableHlo.after ops0b (StableHlo.after ops0a V))))) := C4.after ops1a ops1a_writes (by decide)
  have C6 : Agree nmL (StableHlo.after ops0c (StableHlo.after ops0b (StableHlo.after ops0a V))) (StableHlo.after ops1b (StableHlo.after ops1a (StableHlo.after ops0d (StableHlo.after ops0c (StableHlo.after ops0b (StableHlo.after ops0a V)))))) := C5.after ops1b ops1b_writes (by decide)
  have C7 : Agree nmL (StableHlo.after ops0c (StableHlo.after ops0b (StableHlo.after ops0a V))) (StableHlo.after ops1c (StableHlo.after ops1b (StableHlo.after ops1a (StableHlo.after ops0d (StableHlo.after ops0c (StableHlo.after ops0b (StableHlo.after ops0a V))))))) := C6.after ops1c ops1c_writes (by decide)
  have C8 : Agree nmL (StableHlo.after ops0c (StableHlo.after ops0b (StableHlo.after ops0a V))) (StableHlo.after ops1d (StableHlo.after ops1c (StableHlo.after ops1b (StableHlo.after ops1a (StableHlo.after ops0d (StableHlo.after ops0c (StableHlo.after ops0b (StableHlo.after ops0a V)))))))) := C7.after ops1d ops1d_writes (by decide)
  have C9 : Agree nmL (StableHlo.after ops0c (StableHlo.after ops0b (StableHlo.after ops0a V))) (StableHlo.after ops1e (StableHlo.after ops1d (StableHlo.after ops1c (StableHlo.after ops1b (StableHlo.after ops1a (StableHlo.after ops0d (StableHlo.after ops0c (StableHlo.after ops0b (StableHlo.after ops0a V))))))))) := C8.after ops1e ops1e_writes (by decide)
  have C10 : Agree nmL (StableHlo.after ops0c (StableHlo.after ops0b (StableHlo.after ops0a V))) (StableHlo.after ops2a (StableHlo.after ops1e (StableHlo.after ops1d (StableHlo.after ops1c (StableHlo.after ops1b (StableHlo.after ops1a (StableHlo.after ops0d (StableHlo.after ops0c (StableHlo.after ops0b (StableHlo.after ops0a V)))))))))) := C9.after ops2a ops2a_writes (by decide)
  have h5 : (StableHlo.after ops0a V) (Proc.devRef .tc main_v5) = (srcIdx (V (main_arg1 : DevRef τ sig))) := p0a_src V
  have h6 : (StableHlo.after ops0a V) (Proc.devRef .tc main_v6) = (dstIdx (V (main_arg1 : DevRef τ sig))) := p0a_dst V
  have h14 : (StableHlo.after ops0b (StableHlo.after ops0a V)) (Proc.devRef .tc main_v14) = dinvOf (dstIdx (V (main_arg1 : DevRef τ sig))) := by rw [p0b, h6]
  have h29 : (StableHlo.after ops0c (StableHlo.after ops0b (StableHlo.after ops0a V))) (Proc.devRef .tc main_v29) = (normOf (srcIdx (V (main_arg1 : DevRef τ sig))) (dstIdx (V (main_arg1 : DevRef τ sig)))) := by
    rw [p0c, h14, B2 main_v5 (by decide), B2 main_v6 (by decide), h5, h6, ← normOf_eq_normFrom]
  have h46 : (StableHlo.after ops0d (StableHlo.after ops0c (StableHlo.after ops0b (StableHlo.after ops0a V)))) (Proc.devRef .tc main_v46) = (aggr128 (srcIdx (V (main_arg1 : DevRef τ sig))) (dstIdx (V (main_arg1 : DevRef τ sig))) (normOf (srcIdx (V (main_arg1 : DevRef τ sig))) (dstIdx (V (main_arg1 : DevRef τ sig)))) (dot128 (V (main_arg0 : DevRef τ sig)) (V (main_arg2 : DevRef τ sig))) (V (main_arg3 : DevRef τ sig))) := by
    rw [p0d_46, B3 main_v5 (by decide), B3 main_v6 (by decide), h5, h6, h29, A3 main_arg0 (by decide), A3 main_arg2 (by decide), A3 main_arg3 (by decide)]
  have h47 : (StableHlo.after ops0d (StableHlo.after ops0c (StableHlo.after ops0b (StableHlo.after ops0a V)))) (Proc.devRef .tc main_v47) = sumRows (aggr128 (srcIdx (V (main_arg1 : DevRef τ sig))) (dstIdx (V (main_arg1 : DevRef τ sig))) (normOf (srcIdx (V (main_arg1 : DevRef τ sig))) (dstIdx (V (main_arg1 : DevRef τ sig)))) (dot128 (V (main_arg0 : DevRef τ sig)) (V (main_arg2 : DevRef τ sig))) (V (main_arg3 : DevRef τ sig))) := by
    rw [p0d_47, B3 main_v5 (by decide), B3 main_v6 (by decide), h5, h6, h29, A3 main_arg0 (by decide), A3 main_arg2 (by decide), A3 main_arg3 (by decide)]
  have h46' : (StableHlo.after ops1a (StableHlo.after ops0d (StableHlo.after ops0c (StableHlo.after ops0b (StableHlo.after ops0a V))))) (Proc.devRef .tc main_v46) = (aggr128 (srcIdx (V (main_arg1 : DevRef τ sig))) (dstIdx (V (main_arg1 : DevRef τ sig))) (normOf (srcIdx (V (main_arg1 : DevRef τ sig))) (dstIdx (V (main_arg1 : DevRef τ sig)))) (dot128 (V (main_arg0 : DevRef τ sig)) (V (main_arg2 : DevRef τ sig))) (V (main_arg3 : DevRef τ sig))) :=
    (StableHlo.after_of_writes_sub ops1a _ ops1a_writes (by decide)).trans h46
  have h49 : (StableHlo.after ops1a (StableHlo.after ops0d (StableHlo.after ops0c (StableHlo.after ops0b (StableHlo.after ops0a V))))) (Proc.devRef .tc main_v49) = meanRef (aggr128 (srcIdx (V (main_arg1 : DevRef τ sig))) (dstIdx (V (main_arg1 : DevRef τ sig))) (normOf (srcIdx (V (main_arg1 : DevRef τ sig))) (dstIdx (V (main_arg1 : DevRef τ sig)))) (dot128 (V (main_arg0 : DevRef τ sig)) (V (main_arg2 : DevRef τ sig))) (V (main_arg3 : DevRef τ sig))) := by rw [p1a_49, h47, ← meanRef_eq_meanFrom]
  have h50 : (StableHlo.after ops1a (StableHlo.after ops0d (StableHlo.after ops0c (StableHlo.after ops0b (StableHlo.after ops0a V))))) (Proc.devRef .tc main_v50) = varRef (aggr128 (srcIdx (V (main_arg1 : DevRef τ sig))) (dstIdx (V (main_arg1 : DevRef τ sig))) (normOf (srcIdx (V (main_arg1 : DevRef τ sig))) (dstIdx (V (main_arg1 : DevRef τ sig)))) (dot128 (V (main_arg0 : DevRef τ sig)) (V (main_arg2 : DevRef τ sig))) (V (main_arg3 : DevRef τ sig))) := by rw [p1a_50, h46]
  have h66 : (StableHlo.after ops1b (StableHlo.after ops1a (StableHlo.after ops0d (StableHlo.after ops0c (StableHlo.after ops0b (StableHlo.after ops0a V)))))) (Proc.devRef .tc main_v66) = (bnRef (aggr128 (srcIdx (V (main_arg1 : DevRef τ sig))) (dstIdx (V (main_arg1 : DevRef τ sig))) (normOf (srcIdx (V (main_arg1 : DevRef τ sig))) (dstIdx (V (main_arg1 : DevRef τ sig)))) (dot128 (V (main_arg0 : DevRef τ sig)) (V (main_arg2 : DevRef τ sig))) (V (main_arg3 : DevRef τ sig))) (V (main_arg4 : DevRef τ sig)) (V (main_arg5 : DevRef τ sig))) := by
    rw [p1b, h46', h49, h50, A5 main_arg4 (by decide), A5 main_arg5 (by decide), ← bnRef_eq_bnFrom]
  have h83 : (StableHlo.after ops1c (StableHlo.after ops1b (StableHlo.after ops1a (StableHlo.after ops0d (StableHlo.after ops0c (StableHlo.after ops0b (StableHlo.after ops0a V))))))) (Proc.devRef .tc main_v83) = (aggr128 (srcIdx (V (main_arg1 : DevRef τ sig))) (dstIdx (V (main_arg1 : DevRef τ sig))) (normOf (srcIdx (V (main_arg1 : DevRef τ sig))) (dstIdx (V (main_arg1 : DevRef τ sig)))) (dot128 (bnRef (aggr128 (srcIdx (V (main_arg1 : DevRef τ sig))) (dstIdx (V (main_arg1 : DevRef τ sig))) (normOf (srcIdx (V (main_arg1 : DevRef τ sig))) (dstIdx (V (main_arg1 : DevRef τ sig)))) (dot128 (V (main_arg0 : DevRef τ sig)) (V (main_arg2 : DevRef τ sig))) (V (main_arg3 : DevRef τ sig))) (V (main_arg4 : DevRef τ sig)) (V (main_arg5 : DevRef τ sig))) (V (main_arg6 : DevRef τ sig))) (V (main_arg7 : DevRef τ sig))) := by
    rw [p1c_83, B6 main_v5 (by decide), B6 main_v6 (by decide), h5, h6, C6 main_v29 (by decide), h29, h66, A6 main_arg6 (by decide), A6 main_arg7 (by decide)]
  have h84 : (StableHlo.after ops1c (StableHlo.after ops1b (StableHlo.after ops1a (StableHlo.after ops0d (StableHlo.after ops0c (StableHlo.after ops0b (StableHlo.after ops0a V))))))) (Proc.devRef .tc main_v84) = sumRows (aggr128 (srcIdx (V (main_arg1 : DevRef τ sig))) (dstIdx (V (main_arg1 : DevRef τ sig))) (normOf (srcIdx (V (main_arg1 : DevRef τ sig))) (dstIdx (V (main_arg1 : DevRef τ sig)))) (dot128 (bnRef (aggr128 (srcIdx (V (main_arg1 : DevRef τ sig))) (dstIdx (V (main_arg1 : DevRef τ sig))) (normOf (srcIdx (V (main_arg1 : DevRef τ sig))) (dstIdx (V (main_arg1 : DevRef τ sig)))) (dot128 (V (main_arg0 : DevRef τ sig)) (V (main_arg2 : DevRef τ sig))) (V (main_arg3 : DevRef τ sig))) (V (main_arg4 : DevRef τ sig)) (V (main_arg5 : DevRef τ sig))) (V (main_arg6 : DevRef τ sig))) (V (main_arg7 : DevRef τ sig))) := by
    rw [p1c_84, B6 main_v5 (by decide), B6 main_v6 (by decide), h5, h6, C6 main_v29 (by decide), h29, h66, A6 main_arg6 (by decide), A6 main_arg7 (by decide)]
  have h83' : (StableHlo.after ops1d (StableHlo.after ops1c (StableHlo.after ops1b (StableHlo.after ops1a (StableHlo.after ops0d (StableHlo.after ops0c (StableHlo.after ops0b (StableHlo.after ops0a V)))))))) (Proc.devRef .tc main_v83) = (aggr128 (srcIdx (V (main_arg1 : DevRef τ sig))) (dstIdx (V (main_arg1 : DevRef τ sig))) (normOf (srcIdx (V (main_arg1 : DevRef τ sig))) (dstIdx (V (main_arg1 : DevRef τ sig)))) (dot128 (bnRef (aggr128 (srcIdx (V (main_arg1 : DevRef τ sig))) (dstIdx (V (main_arg1 : DevRef τ sig))) (normOf (srcIdx (V (main_arg1 : DevRef τ sig))) (dstIdx (V (main_arg1 : DevRef τ sig)))) (dot128 (V (main_arg0 : DevRef τ sig)) (V (main_arg2 : DevRef τ sig))) (V (main_arg3 : DevRef τ sig))) (V (main_arg4 : DevRef τ sig)) (V (main_arg5 : DevRef τ sig))) (V (main_arg6 : DevRef τ sig))) (V (main_arg7 : DevRef τ sig))) :=
    (StableHlo.after_of_writes_sub ops1d _ ops1d_writes (by decide)).trans h83
  have h86 : (StableHlo.after ops1d (StableHlo.after ops1c (StableHlo.after ops1b (StableHlo.after ops1a (StableHlo.after ops0d (StableHlo.after ops0c (StableHlo.after ops0b (StableHlo.after ops0a V)))))))) (Proc.devRef .tc main_v86) = meanRef (aggr128 (srcIdx (V (main_arg1 : DevRef τ sig))) (dstIdx (V (main_arg1 : DevRef τ sig))) (normOf (srcIdx (V (main_arg1 : DevRef τ sig))) (dstIdx (V (main_arg1 : DevRef τ sig)))) (dot128 (bnRef (aggr128 (srcIdx (V (main_arg1 : DevRef τ sig))) (dstIdx (V (main_arg1 : DevRef τ sig))) (normOf (srcIdx (V (main_arg1 : DevRef τ sig))) (dstIdx (V (main_arg1 : DevRef τ sig)))) (dot128 (V (main_arg0 : DevRef τ sig)) (V (main_arg2 : DevRef τ sig))) (V (main_arg3 : DevRef τ sig))) (V (main_arg4 : DevRef τ sig)) (V (main_arg5 : DevRef τ sig))) (V (main_arg6 : DevRef τ sig))) (V (main_arg7 : DevRef τ sig))) := by rw [p1d_86, h84, ← meanRef_eq_meanFrom]
  have h87 : (StableHlo.after ops1d (StableHlo.after ops1c (StableHlo.after ops1b (StableHlo.after ops1a (StableHlo.after ops0d (StableHlo.after ops0c (StableHlo.after ops0b (StableHlo.after ops0a V)))))))) (Proc.devRef .tc main_v87) = varRef (aggr128 (srcIdx (V (main_arg1 : DevRef τ sig))) (dstIdx (V (main_arg1 : DevRef τ sig))) (normOf (srcIdx (V (main_arg1 : DevRef τ sig))) (dstIdx (V (main_arg1 : DevRef τ sig)))) (dot128 (bnRef (aggr128 (srcIdx (V (main_arg1 : DevRef τ sig))) (dstIdx (V (main_arg1 : DevRef τ sig))) (normOf (srcIdx (V (main_arg1 : DevRef τ sig))) (dstIdx (V (main_arg1 : DevRef τ sig)))) (dot128 (V (main_arg0 : DevRef τ sig)) (V (main_arg2 : DevRef τ sig))) (V (main_arg3 : DevRef τ sig))) (V (main_arg4 : DevRef τ sig)) (V (main_arg5 : DevRef τ sig))) (V (main_arg6 : DevRef τ sig))) (V (main_arg7 : DevRef τ sig))) := by rw [p1d_87, h83]
  have h103 : (StableHlo.after ops2a (StableHlo.after ops1e (StableHlo.after ops1d (StableHlo.after ops1c (StableHlo.after ops1b (StableHlo.after ops1a (StableHlo.after ops0d (StableHlo.after ops0c (StableHlo.after ops0b (StableHlo.after ops0a V)))))))))) (Proc.devRef .tc main_v103) = (bnRef (aggr128 (srcIdx (V (main_arg1 : DevRef τ sig))) (dstIdx (V (main_arg1 : DevRef τ sig))) (normOf (srcIdx (V (main_arg1 : DevRef τ sig))) (dstIdx (V (main_arg1 : DevRef τ sig)))) (dot128 (bnRef (aggr128 (srcIdx (V (main_arg1 : DevRef τ sig))) (dstIdx (V (main_arg1 : DevRef τ sig))) (normOf (srcIdx (V (main_arg1 : DevRef τ sig))) (dstIdx (V (main_arg1 : DevRef τ sig)))) (dot128 (V (main_arg0 : DevRef τ sig)) (V (main_arg2 : DevRef τ sig))) (V (main_arg3 : DevRef τ sig))) (V (main_arg4 : DevRef τ sig)) (V (main_arg5 : DevRef τ sig))) (V (main_arg6 : DevRef τ sig))) (V (main_arg7 : DevRef τ sig))) (V (main_arg8 : DevRef τ sig)) (V (main_arg9 : DevRef τ sig))) := by
    rw [p1e2a, h83', h86, h87, A8 main_arg8 (by decide), A8 main_arg9 (by decide), ← bnRef_eq_bnFrom]
  rw [p2b, B10 main_v5 (by decide), B10 main_v6 (by decide), h5, h6, C10 main_v29 (by decide), h29, h103, A10 main_arg10 (by decide), A10 main_arg11 (by decide)]
  rfl

theorem arg0_eq (V : Valuation τ sig (Elt Ideal)) : StableHlo.after ops V (main_arg0 : DevRef τ sig) = V (main_arg0 : DevRef τ sig) :=
  args_agree V main_arg0 (by decide)

theorem arg1_eq (V : Valuation τ sig (Elt Ideal)) : StableHlo.after ops V (main_arg1 : DevRef τ sig) = V (main_arg1 : DevRef τ sig) :=
  args_agree V main_arg1 (by decide)

theorem arg2_eq (V : Valuation τ sig (Elt Ideal)) : StableHlo.after ops V (main_arg2 : DevRef τ sig) = V (main_arg2 : DevRef τ sig) :=
  args_agree V main_arg2 (by decide)

theorem arg3_eq (V : Valuation τ sig (Elt Ideal)) : StableHlo.after ops V (main_arg3 : DevRef τ sig) = V (main_arg3 : DevRef τ sig) :=
  args_agree V main_arg3 (by decide)

theorem arg4_eq (V : Valuation τ sig (Elt Ideal)) : StableHlo.after ops V (main_arg4 : DevRef τ sig) = V (main_arg4 : DevRef τ sig) :=
  args_agree V main_arg4 (by decide)

theorem arg5_eq (V : Valuation τ sig (Elt Ideal)) : StableHlo.after ops V (main_arg5 : DevRef τ sig) = V (main_arg5 : DevRef τ sig) :=
  args_agree V main_arg5 (by decide)

theorem arg6_eq (V : Valuation τ sig (Elt Ideal)) : StableHlo.after ops V (main_arg6 : DevRef τ sig) = V (main_arg6 : DevRef τ sig) :=
  args_agree V main_arg6 (by decide)

theorem arg7_eq (V : Valuation τ sig (Elt Ideal)) : StableHlo.after ops V (main_arg7 : DevRef τ sig) = V (main_arg7 : DevRef τ sig) :=
  args_agree V main_arg7 (by decide)

theorem arg8_eq (V : Valuation τ sig (Elt Ideal)) : StableHlo.after ops V (main_arg8 : DevRef τ sig) = V (main_arg8 : DevRef τ sig) :=
  args_agree V main_arg8 (by decide)

theorem arg9_eq (V : Valuation τ sig (Elt Ideal)) : StableHlo.after ops V (main_arg9 : DevRef τ sig) = V (main_arg9 : DevRef τ sig) :=
  args_agree V main_arg9 (by decide)

theorem arg10_eq (V : Valuation τ sig (Elt Ideal)) : StableHlo.after ops V (main_arg10 : DevRef τ sig) = V (main_arg10 : DevRef τ sig) :=
  args_agree V main_arg10 (by decide)

theorem arg11_eq (V : Valuation τ sig (Elt Ideal)) : StableHlo.after ops V (main_arg11 : DevRef τ sig) = V (main_arg11 : DevRef τ sig) :=
  args_agree V main_arg11 (by decide)

/-- At the compiled mesh, at the ideal values, from any memory with zero counters: every weakly fair execution of the
    host function terminates with the result buffer at the specification's three layers of the arguments' launch
    contents, and the twelve arguments as launched. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v120) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v120).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run m ρ)

end Cert.ReferenceIdeal.RefValue

end
-- ==== Proof.RefMath.lean ====
/-
  The reference's stages read index by index and identified with plain mathematics on the extended reals:
  the two matrix products are finite sums of products over the contracted coordinate; the column sums,
  means and variances are sums over the rows divided by the row count; the normalised, rectified layer is
  one pointwise expression of them; and every stage built from real entries has real entries.
-/
import proofs.«173831_j84808424227048_1_alg».proof.Proof.RefSpec
import proofs.«173831_j84808424227048_1_alg».proof.Proof.GcnSpec
import proofs.«173831_j84808424227048_1_alg».proof.Proof.LibGcnAlgebra
import Idealize.ShloMosaic.Lib.ValueIdx
import Idealize.ShloMosaic.Lib.IdealHost
import Idealize.ShloMosaic.PureOps.Ideal.Laws

noncomputable section

namespace Cert.ReferenceIdeal.RefValue

open Idealize.ShloMosaic Idealize.ShloMosaic.ValueIdx Cert.ReferenceIdeal Cert.ReferenceIdeal.Gen Cert.Gcn

/-! ## The matrix products -/

/-- In the product with a 128 × 128 right factor, the left operand's row coordinate is the result's row. -/
theorem lhs128_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
/-- … its column coordinate is the contracted one … -/
theorem lhs128_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
/-- … the right operand's row coordinate is the contracted one … -/
theorem rhs128_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
/-- … and its column coordinate is the result's column. -/
theorem rhs128_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The product by a 128 × 128 matrix is the matrix product: entry (r, c) is the sum over k of x (r, k) · w (k, c). -/
theorem dot128_eq_lin (x : FVec Ideal S50000x128 .f32) (w : FVec Ideal S128x128 .f32) :
    dot128 x w = lin (x : Arr2 50000 128) (w : Arr2 128 128) := by
  funext j
  obtain ⟨r, c, rfl⟩ : ∃ (r : Fin 50000) (c : Fin 128), j = ix2 r c := ⟨j 0, j 1, eq_ix2 j⟩
  rw [lin_apply]
  show FloatOps.dotGeneral dot_S50000x128_S128x128_S50000x128_1_0_0_1_n_n none _ x w (ix2 r c) = _
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r c)
      ((contrEquiv1 dot_S50000x128_S128x128_S50000x128_1_0_0_1_n_n 128 rfl rfl).symm k) = ix2 r k :=
    funext fun a => Fin.ext (by
      match a with
      | ⟨0, _⟩ => exact lhs128_0 _ _
      | ⟨1, _⟩ => exact (lhs128_1 _ _).trans hk)
  have er : dot_S50000x128_S128x128_S50000x128_1_0_0_1_n_n.rhsIdx (ix2 r c)
      ((contrEquiv1 dot_S50000x128_S128x128_S50000x128_1_0_0_1_n_n 128 rfl rfl).symm k) = ix2 k c :=
    funext fun a => Fin.ext (by
      match a with
      | ⟨0, _⟩ => exact (rhs128_0 _ _).trans hk
      | ⟨1, _⟩ => exact rhs128_1 _ _)
  rw [el, er]

/-- In the product with a 128 × 64 right factor, the left operand's row coordinate is the result's row. -/
theorem lhs64_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide),
    dif_pos (show (0 : Fin S50000x128.rank) ∈ dot_S50000x128_S128x64_S50000x64_1_0_0_1_n_n.lhsNonContracting by decide)]
  rfl
/-- … its column coordinate is the contracted one … -/
theorem lhs64_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
/-- … the right operand's row coordinate is the contracted one … -/
theorem rhs64_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
/-- … and its column coordinate is the result's column. -/
theorem rhs64_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide),
    dif_pos (show (1 : Fin S128x64.rank) ∈ dot_S50000x128_S128x64_S50000x64_1_0_0_1_n_n.rhsNonContracting by decide)]
  rfl

/-- The product by a 128 × 64 matrix is the matrix product: entry (r, c) is the sum over k of x (r, k) · w (k, c). -/
theorem dot64_eq_lin (x : FVec Ideal S50000x128 .f32) (w : FVec Ideal S128x64 .f32) :
    dot64 x w = lin (x : Arr2 50000 128) (w : Arr2 128 64) := by
  funext j
  obtain ⟨r, c, rfl⟩ : ∃ (r : Fin 50000) (c : Fin 64), j = ix2 r c := ⟨j 0, j 1, eq_ix2 j⟩
  rw [lin_apply]
  show FloatOps.dotGeneral dot_S50000x128_S128x64_S50000x64_1_0_0_1_n_n none _ x w (ix2 r c) = _
  rw [Ideal.dotGeneral_apply,
    ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx (ix2 r c)
      ((contrEquiv1 dot_S50000x128_S128x64_S50000x64_1_0_0_1_n_n 128 rfl rfl).symm k) = ix2 r k :=
    funext fun a => Fin.ext (by
      match a with
      | ⟨0, _⟩ => exact lhs64_0 _ _
      | ⟨1, _⟩ => exact (lhs64_1 _ _).trans hk)
  have er : dot_S50000x128_S128x64_S50000x64_1_0_0_1_n_n.rhsIdx (ix2 r c)
      ((contrEquiv1 dot_S50000x128_S128x64_S50000x64_1_0_0_1_n_n 128 rfl rfl).symm k) = ix2 k c :=
    funext fun a => Fin.ext (by
      match a with
      | ⟨0, _⟩ => exact (rhs64_0 _ _).trans hk
      | ⟨1, _⟩ => exact rhs64_1 _ _)
  rw [el, er]

/-! ## Layout operations read at an index -/

/-- A one-row array held in every row reads, at (r, c), its entry (0, c). -/
theorem bcastRows_apply {α : Type} (y : S1x128.Idx → α) (r : Fin 50000) (c : Fin 128) :
    broadcastInDim S50000x128 ![0, 1] bcast_S1x128_S50000x128_0_1 y (ix2 r c) = y (ix2 (0 : Fin 1) c) :=
by
  unfold broadcastInDim
  exact congrArg y (funext fun a => Fin.ext (by match a with | ⟨0, _⟩ => rfl | ⟨1, _⟩ => rfl))

/-- A vector of 128 as a one-row array reads, at (0, c), its entry c. -/
theorem bcastUnit_apply {α : Type} (v : S128.Idx → α) (c : Fin 128) :
    broadcastInDim S1x128 ![1] bcast_S128_S1x128_1 v (ix2 (0 : Fin 1) c) = v (ix1 c) :=
by
  unfold broadcastInDim
  exact congrArg v (funext fun a => Fin.ext (by match a with | ⟨0, _⟩ => rfl))

/-- A vector of 128 held in every row reads, at (r, c), its entry c. -/
theorem rowB_apply (v : FVec Ideal S128 .f32) (r : Fin 50000) (c : Fin 128) : rowB v (ix2 r c) = v (ix1 c) := by
  unfold rowB
  rw [bcastRows_apply, bcastUnit_apply]

/-- A scalar held in every entry of a vector of 128 reads the scalar. -/
theorem bcastScalar128_apply {α : Type} (y : S_.Idx → α) (k : Fin 128) :
    broadcastInDim S128 ![] bcast_S_S128 y (ix1 k) = y ix0 := broadcastInDim_scalar_apply _ _ _

/-- A scalar held in every entry of a one-row array reads the scalar. -/
theorem bcastScalar1x128_apply {α : Type} (y : S_.Idx → α) (c : Fin 128) :
    broadcastInDim S1x128 ![] bcast_S_S1x128 y (ix2 (0 : Fin 1) c) = y ix0 := broadcastInDim_scalar_apply _ _ _

/-- A scalar held in every entry of a 50000 × 128 array reads the scalar. -/
theorem bcastScalar50000x128_apply {α : Type} (y : S_.Idx → α) (r : Fin 50000) (c : Fin 128) :
    broadcastInDim S50000x128 ![] bcast_S_S50000x128 y (ix2 r c) = y ix0 := broadcastInDim_scalar_apply _ _ _

/-! ## The batch statistics -/

/-- The column sums from zero: entry k is the zero word plus the sum of column k over the rows. -/
theorem sumRows_apply (x : FVec Ideal S50000x128 .f32) (k : Fin 128) :
    sumRows x (ix1 k) = zeroF + colSum (x : Arr2 50000 128) k := by
  unfold sumRows
  rw [hostReduceAdd_apply, Ideal.hostReduceAdd_single reducesTo_S50000x128_S128_d0 (by decide)]
  show _ = zeroF + ∑ r : Fin 50000, x (ix2 r k)
  refine congrArg₂ (· + ·) rfl (Finset.sum_congr rfl fun r _ => ?_)
  exact congrArg x (funext fun a => Fin.ext (by match a with | ⟨0, _⟩ => rfl | ⟨1, _⟩ => rfl))

/-- Adding the zero word changes nothing. -/
theorem zeroF_add (y : EReal) : zeroF + y = y := by
  show Ideal.ofBits .f32 0x00000000#32 + y = y
  rw [Ideal.ofBits_zero_f32, zero_add]

/-- The column means: the column sums divided by the row count. -/
theorem meanRef_apply (x : FVec Ideal S50000x128 .f32) (k : Fin 128) :
    meanRef x (ix1 k) = mean (x : Arr2 50000 128) k := by
  unfold meanRef
  rw [hostDivf_apply, sumRows_apply, zeroF_add, bcastScalar128_apply, constant_apply]
  rfl

/-- The row count's word minus the integer word zero, converted, is the row count's word. -/
theorem rowCount_sub_zero :
    (subf (constant (F := Ideal) S_ .f32 0x47435000#32) (sitofp .f32 (constantI S_ 32 0#32)) : FVec Ideal S_ .f32) ix0 = nF := by
  show Ideal.ofBits .f32 0x47435000#32 - (((0#32 : BitVec 32).toInt : ℝ) : EReal) = nF
  have h0 : (0#32 : BitVec 32).toInt = 0 := by decide
  rw [h0, Int.cast_zero, EReal.coe_zero, sub_zero]
  rfl

/-- The guard of the variance, `50000 − 0 > 0`, holds. -/
theorem guard_eq_one :
    (cmpf .ogt (subf (constant (F := Ideal) S_ .f32 0x47435000#32) (sitofp .f32 (constantI S_ 32 0#32)))
      (constant (F := Ideal) S_ .f32 0x00000000#32) : IVec S_ 1) ix0 = 1#1 := by
  rw [cmpf_apply, rowCount_sub_zero, constant_apply, Ideal.cmpf_def, Ideal.ofBits_zero_f32]
  have h : (0 : EReal) < nF := by rw [nF_eq]; exact EReal.coe_pos.mpr (by norm_num)
  simp [Ideal.cmp, h]

/-- The column variances: the guard holds, so entry k is the sum over the rows of the squared deviations of
    column k from its mean, divided by the row count. -/
theorem varRef_apply (x : FVec Ideal S50000x128 .f32) (k : Fin 128) :
    varRef x (ix1 k) = varDev (x : Arr2 50000 128) k := by
  unfold varRef
  dsimp only
  rw [select_apply, bcastScalar128_apply, bcastScalar128_apply, guard_eq_one, select_one, hostDivf_apply,
    bcastScalar128_apply, rowCount_sub_zero, sumRows_apply, zeroF_add]
  unfold varDev colSum
  refine congrArg (Ideal.div · nF) (Finset.sum_congr rfl fun r _ => ?_)
  rw [mulf_apply, subf_apply, bcastRows_apply, hostDivf_apply, bcastUnit_apply, sumRows_apply, zeroF_add,
    bcastScalar1x128_apply, constant_apply]
  rfl

/-- The host's reciprocal square root at an index is the reciprocal square root of the entry. -/
theorem hostRsqrt_apply {s : Shape} (a : FVec Ideal s .f32) (i : s.Idx) : Host.rsqrt a i = Ideal.rsqrt (a i) := rfl

/-- The normalised, rectified layer: at (r, c), the entry minus its column's mean, scaled by `g c` and by the
    reciprocal square root of the column's variance plus the stabiliser, shifted by `be c`, and rectified. -/
theorem bnRef_eq (x : FVec Ideal S50000x128 .f32) (g be : FVec Ideal S128 .f32) :
    bnRef x g be = bnDev (x : Arr2 50000 128) (fun k => g (ix1 k)) (fun k => be (ix1 k)) := by
  funext j
  obtain ⟨r, c, rfl⟩ : ∃ (r : Fin 50000) (c : Fin 128), j = ix2 r c := ⟨j 0, j 1, eq_ix2 j⟩
  unfold bnDev
  rw [bnrelu_apply]
  unfold bnRef
  rw [maximumf_apply, addf_apply, mulf_apply, mulf_apply, subf_apply, rowB_apply, rowB_apply, rowB_apply, rowB_apply,
    hostRsqrt_apply, addf_apply, meanRef_apply, varRef_apply, bcastScalar128_apply, constant_apply,
    bcastScalar50000x128_apply, constant_apply]
  rfl

end Cert.ReferenceIdeal.RefValue

end
-- ==== Proof.RefReal.lean ====
/-
  Every stage of the reference's graph aggregation keeps real entries real. The degree of a node is a zero
  plus ones added at the destinations, hence a real; its normalisation is the reciprocal square root where
  the degree is above zero and zero elsewhere, a real either way; an edge's weight is a product of two such
  entries read at the edge's ends, and reading an array at any index list keeps its entries real; the
  aggregation adds, into a zero array, the source rows scaled by the edge weights, and then adds the bias
  row: sums and products of reals are real.
-/
import proofs.«173831_j84808424227048_1_alg».proof.Proof.RefSpec
import proofs.«173831_j84808424227048_1_alg».proof.Proof.LibGcnAlgebra
import Idealize.ShloMosaic.Lib.ValueIdx

noncomputable section

namespace Cert.ReferenceIdeal.RefValue

open Idealize.ShloMosaic Idealize.ShloMosaic.ValueIdx Cert.ReferenceIdeal Cert.ReferenceIdeal.Gen Cert.Gcn

/-! ## The building blocks, over any shapes -/

/-- A broadcast reads its operand at a re-computed index, so it keeps every entry real. -/
theorem allReal_broadcastInDim {s t : Shape} (dims : Fin s.rank → Fin t.rank) (h : s.BroadcastsInDim t dims)
    (x : s.Idx → EReal) (hx : AllReal x) : AllReal (broadcastInDim t dims h x) := by
  intro j
  unfold broadcastInDim
  exact hx _

/-- A gather reads its operand at an index computed from the index list, so it keeps every entry real,
    whatever the list holds. -/
theorem allReal_gather {s si t : Shape} {w : ℕ} (D : GatherDims s si t) (x : s.Idx → EReal) (idx : IVec si w)
    (hx : AllReal x) : AllReal (Host.gather D x idx) := by
  intro j
  unfold Host.gather
  exact hx _

/-- The host's scatter-add on extended reals is the exact one: the operand's entry plus the sum of the
    updates that land on it. -/
theorem scatterAdd_eq {s si su : Shape} {w : ℕ} (D : ScatterDims s si su) (x : FVec Ideal s .f32) (idx : IVec si w)
    (u : FVec Ideal su .f32) : Host.scatterAdd D x idx u = Ideal.hostScatterAdd D x idx u := rfl

/-- A scatter-add of real updates into a real operand has real entries. -/
theorem allReal_scatterAdd {s si su : Shape} {w : ℕ} (D : ScatterDims s si su) (x : FVec Ideal s .f32) (idx : IVec si w)
    (u : FVec Ideal su .f32) (hx : AllReal x) (hu : AllReal u) : AllReal (Host.scatterAdd D x idx u) := by
  rw [scatterAdd_eq D x idx u]
  exact allReal_hostScatterAdd D x idx u hx hu

/-- An entrywise product of real arrays is real. -/
theorem allReal_mulf {s : Shape} (a b : FVec Ideal s .f32) (ha : AllReal a) (hb : AllReal b) : AllReal (mulf a b) := by
  intro j
  rw [mulf_apply]
  exact real_mul (ha j) (hb j)

/-- An entrywise sum of real arrays is real. -/
theorem allReal_addf {s : Shape} (a b : FVec Ideal s .f32) (ha : AllReal a) (hb : AllReal b) : AllReal (addf a b) := by
  intro j
  rw [addf_apply]
  exact real_add (ha j) (hb j)

/-- The constant array of the word of +0.0 is real: the word denotes zero. -/
theorem allReal_zero (s : Shape) : AllReal (constant (F := Ideal) s .f32 0x00000000#32) := by
  intro j
  rw [constant_apply, Ideal.ofBits_zero_f32]
  exact ⟨0, EReal.coe_zero.symm⟩

/-- The word of 1.0 denotes one. -/
theorem ofBits_one : Ideal.ofBits .f32 0x3F800000#32 = ((1 : ℝ) : EReal) := by
  simp [Ideal.ofBits, Ideal.ieee, -EReal.coe_mul]; norm_num

/-- The constant array of the word of 1.0 is real. -/
theorem allReal_one (s : Shape) : AllReal (constant (F := Ideal) s .f32 0x3F800000#32) := by
  intro j
  rw [constant_apply]
  exact ⟨1, ofBits_one⟩

/-- The reciprocal square root kept where a real array is above zero, zero elsewhere, is real. -/
theorem allReal_selectRsqrt {s : Shape} (deg z : FVec Ideal s .f32) (hz : ∀ i, z i = zeroF) (hdeg : AllReal deg) :
    AllReal (select (cmpf .ogt deg z) (Host.rsqrt deg) z) := by
  intro i
  show ∃ q : ℝ, Scalar.select (Ideal.cmp .ogt (deg i) (z i)) (Ideal.rsqrt (deg i)) (z i) = q
  rw [hz i]
  exact real_select_gt_rsqrt (deg i) (hdeg i)

/-! ## The reference's stages -/

/-- Every node's degree is a real. -/
theorem allReal_degOf (d : IVec S650000 32) : AllReal (degOf d) := by
  unfold degOf
  exact allReal_scatterAdd scatter_S50000_S650000x1_S650000_n_0_0_1
    (broadcastInDim S50000 ![] bcast_S_S50000 (constant (F := Ideal) S_ .f32 0x00000000#32)) (col d)
    (broadcastInDim S650000 ![] bcast_S_S650000 (constant (F := Ideal) S_ .f32 0x3F800000#32))
    (allReal_broadcastInDim ![] bcast_S_S50000 _ (allReal_zero S_))
    (allReal_broadcastInDim ![] bcast_S_S650000 _ (allReal_one S_))

/-- Every node's normalisation is a real. -/
theorem allReal_dinvOf (d : IVec S650000 32) : AllReal (dinvOf d) := by
  unfold dinvOf
  exact allReal_selectRsqrt (degOf d) (broadcastInDim S50000 ![] bcast_S_S50000 (constant (F := Ideal) S_ .f32 0x00000000#32))
    (fun _ => rfl) (allReal_degOf d)

/-- Every edge's weight is a real. -/
theorem allReal_normOf (s d : IVec S650000 32) : AllReal (normOf s d) := by
  unfold normOf
  exact allReal_mulf _ _
    (allReal_gather gather_S50000_S650000x1_S650000_n_0_n_n_0_1_1 (dinvOf d) (wrapCol s) (allReal_dinvOf d))
    (allReal_gather gather_S50000_S650000x1_S650000_n_0_n_n_0_1_1 (dinvOf d) (wrapCol d) (allReal_dinvOf d))

/-- The aggregation at width 128 of real rows by real weights with a real bias has real entries. -/
theorem allReal_aggr128 (s d : IVec S650000 32) (nm : FVec Ideal S650000 .f32) (h : FVec Ideal S50000x128 .f32)
    (b : FVec Ideal S128 .f32) (hnm : AllReal nm) (hh : AllReal h) (hb : AllReal b) : AllReal (aggr128 s d nm h b) := by
  unfold aggr128
  refine allReal_addf _ _ ?_ ?_
  · refine allReal_scatterAdd scatter_S50000x128_S650000x1_S650000x128_1_0_0_1
      (broadcastInDim S50000x128 ![] bcast_S_S50000x128 (constant (F := Ideal) S_ .f32 0x00000000#32)) (col d) _
      (allReal_broadcastInDim ![] bcast_S_S50000x128 _ (allReal_zero S_)) ?_
    refine allReal_mulf _ _ ?_ ?_
    · exact allReal_gather gather_S50000x128_S650000x1_S650000x128_1_0_n_n_0_1_1128 h (wrapCol s) hh
    · exact allReal_broadcastInDim ![0, 1] bcast_S650000x1_S650000x128_0_1 _
        (allReal_broadcastInDim ![0] bcast_S650000_S650000x1_0 nm hnm)
  · exact allReal_broadcastInDim ![0, 1] bcast_S1x128_S50000x128_0_1 _
      (allReal_broadcastInDim ![1] bcast_S128_S1x128_1 b hb)

/-- The aggregation at width 64 of real rows by real weights with a real bias has real entries. -/
theorem allReal_aggr64 (s d : IVec S650000 32) (nm : FVec Ideal S650000 .f32) (h : FVec Ideal S50000x64 .f32)
    (b : FVec Ideal S64 .f32) (hnm : AllReal nm) (hh : AllReal h) (hb : AllReal b) : AllReal (aggr64 s d nm h b) := by
  unfold aggr64
  refine allReal_addf _ _ ?_ ?_
  · refine allReal_scatterAdd scatter_S50000x64_S650000x1_S650000x64_1_0_0_1
      (broadcastInDim S50000x64 ![] bcast_S_S50000x64 (constant (F := Ideal) S_ .f32 0x00000000#32)) (col d) _
      (allReal_broadcastInDim ![] bcast_S_S50000x64 _ (allReal_zero S_)) ?_
    refine allReal_mulf _ _ ?_ ?_
    · exact allReal_gather gather_S50000x64_S650000x1_S650000x64_1_0_n_n_0_1_164 h (wrapCol s) hh
    · exact allReal_broadcastInDim ![0, 1] bcast_S650000x1_S650000x64_0_1 _
        (allReal_broadcastInDim ![0] bcast_S650000_S650000x1_0 nm hnm)
  · exact allReal_broadcastInDim ![0, 1] bcast_S1x64_S50000x64_0_1 _
      (allReal_broadcastInDim ![1] bcast_S64_S1x64_1 b hb)

end Cert.ReferenceIdeal.RefValue

end
-- ==== Proof.Bridge.lean ====
/-
  The bridge between the two programs' results, as functions of the twelve arguments. The stages the two
  programs share (the edge lists with self loops, the weight of every edge, the aggregations) are the same
  functions, spelt over equal shapes and equal dimension records under different names. The matrix products
  are the same finite sums. The normalised, rectified layers differ in how the variance is spelt, the mean
  of the squared deviations on one side and the mean of the squares minus the square of the mean on the
  other, and these agree on real entries; the entries are real because an aggregation of real rows with
  real weights and a real bias is real, layer after layer.
-/
import proofs.«173831_j84808424227048_1_alg».proof.Proof.RefMath
import proofs.«173831_j84808424227048_1_alg».proof.Proof.RefReal
import proofs.«173831_j84808424227048_1_alg».proof.Proof.KerRead
import proofs.«173831_j84808424227048_1_alg».proof.Proof.LibGcnAlgebra

noncomputable section

namespace Cert.Bridge

open Idealize.ShloMosaic Idealize.ShloMosaic.ValueIdx Cert.Gcn

attribute [local irreducible] Host.gather Host.scatterAdd

/-! ## The shared stages are the same functions

Both programs spell the edge lists, the edge weights and the aggregations with the same operations over
the same shapes and dimension records; only the names of the shapes and records differ. -/

/-- The source list is the same function of the edge list on both sides. -/
theorem srcIdx_eq : Cert.KernelIdeal.Val.srcIdx = Cert.ReferenceIdeal.RefValue.srcIdx := rfl
/-- The destination list is the same function of the edge list on both sides. -/
theorem dstIdx_eq : Cert.KernelIdeal.Val.dstIdx = Cert.ReferenceIdeal.RefValue.dstIdx := rfl
/-- The edge weights are the same function of the two index lists on both sides. -/
theorem normOf_eq : Cert.KernelIdeal.Val.normOf = Cert.ReferenceIdeal.RefValue.normOf := rfl
/-- The aggregation at width 128 is the same function on both sides. -/
theorem aggr128_eq : Cert.KernelIdeal.Val.aggr128 = Cert.ReferenceIdeal.RefValue.aggr128 := rfl
/-- The aggregation at width 64 is the same function on both sides. -/
theorem aggr64_eq : Cert.KernelIdeal.Val.aggr64 = Cert.ReferenceIdeal.RefValue.aggr64 := rfl

/-! ## The two results agree on real inputs -/

/-- On real inputs the reference's three layers and the kernel program's three layers are the same
    function: the shared stages agree as functions, the matrix products are the same finite sums, and in
    each normalised layer the two spellings of the variance agree because the layer's input, an
    aggregation of real entries with real weights and a real bias, has real entries. -/
theorem refOut_eq_outKer (x : FVec Ideal Cert.ReferenceIdeal.S50000x128 .f32) (ei : IVec Cert.ReferenceIdeal.S2x600000 32)
    (W1 : FVec Ideal Cert.ReferenceIdeal.S128x128 .f32) (b1 g1 be1 : FVec Ideal Cert.ReferenceIdeal.S128 .f32)
    (W2 : FVec Ideal Cert.ReferenceIdeal.S128x128 .f32) (b2 g2 be2 : FVec Ideal Cert.ReferenceIdeal.S128 .f32)
    (W3 : FVec Ideal Cert.ReferenceIdeal.S128x64 .f32) (b3 : FVec Ideal Cert.ReferenceIdeal.S64 .f32)
    (hx : AllReal x) (hW1 : AllReal W1) (hb1 : AllReal b1) (hg1 : AllReal g1) (hbe1 : AllReal be1)
    (hW2 : AllReal W2) (hb2 : AllReal b2) (hg2 : AllReal g2) (hbe2 : AllReal be2)
    (hW3 : AllReal W3) (hb3 : AllReal b3) :
    Cert.ReferenceIdeal.RefValue.refOut x ei W1 b1 g1 be1 W2 b2 g2 be2 W3 b3
      = Cert.KernelIdeal.Val.outKer x ei W1 b1 g1 be1 W2 b2 g2 be2 W3 b3 := by
  unfold Cert.ReferenceIdeal.RefValue.refOut Cert.KernelIdeal.Val.outKer
  rw [srcIdx_eq, dstIdx_eq, normOf_eq, aggr128_eq, aggr64_eq]
  simp only [Cert.ReferenceIdeal.RefValue.dot128_eq_lin, Cert.ReferenceIdeal.RefValue.dot64_eq_lin,
    Cert.ReferenceIdeal.RefValue.bnRef_eq, Cert.KernelIdeal.Val.bnStage_eq]
  generalize Cert.ReferenceIdeal.RefValue.srcIdx ei = s
  generalize Cert.ReferenceIdeal.RefValue.dstIdx ei = d
  have hn : AllReal (Cert.ReferenceIdeal.RefValue.normOf s d) := Cert.ReferenceIdeal.RefValue.allReal_normOf s d
  generalize Cert.ReferenceIdeal.RefValue.normOf s d = nm at hn ⊢
  have hg1' : AllReal (fun k : Fin 128 => g1 (ix1 k)) := AllReal.comp hg1 _
  have hbe1' : AllReal (fun k : Fin 128 => be1 (ix1 k)) := AllReal.comp hbe1 _
  have h1 : AllReal (Cert.ReferenceIdeal.RefValue.aggr128 s d nm (lin (x : Arr2 50000 128) (W1 : Arr2 128 128)) b1) :=
    Cert.ReferenceIdeal.RefValue.allReal_aggr128 s d nm _ b1 hn (AllReal.lin hx hW1) hb1
  rw [bnSq_eq_bnDev (B := 128) _ h1]
  have h2 : AllReal (Cert.ReferenceIdeal.RefValue.aggr128 s d nm
      (lin (bnDev (Cert.ReferenceIdeal.RefValue.aggr128 s d nm (lin (x : Arr2 50000 128) (W1 : Arr2 128 128)) b1 : Arr2 50000 128)
        (fun k => g1 (ix1 k)) (fun k => be1 (ix1 k))) (W2 : Arr2 128 128)) b2) :=
    Cert.ReferenceIdeal.RefValue.allReal_aggr128 s d nm _ b2 hn (AllReal.lin (AllReal.bnDev h1 hg1' hbe1') hW2) hb2
  rw [bnSq_eq_bnDev (B := 128) _ h2]

end Cert.Bridge

end
-- ==== Proof.LibFiniteTest.lean ====
/-
  A finiteness test, read back. A program tests that every entry of a single-precision array is finite by
  comparing the entry's absolute value with the word of +∞ and taking the conjunction of the one-bit answers over
  all entries. On the extended reals the word of +∞ denotes ⊤, the absolute value of x is max x (−x), and
  max x (−x) < ⊤ holds exactly when x is neither ⊤ nor ⊥, that is, when x is a real number. So a conjunction that
  came out 1 says that every entry of the array is a real number. Also here: the conjunction of two integer arrays
  read at an index. Nothing here mentions a program; the array's shape and the reduced axes are arbitrary.
-/
import Idealize.ShloMosaic.PureOps.Ideal
import Idealize.ShloMosaic.Lib.ReduceAll
import Idealize.ShloMosaic.Lib.ValueIdx

namespace Cert.Lib.FiniteTest

open Idealize.ShloMosaic

/-- The single-precision word `0x7F800000` (sign 0, exponent all ones, fraction 0) denotes `+∞`. -/
theorem ofBits_inf_f32 : Ideal.ofBits .f32 0x7F800000#32 = (⊤ : EReal) := by
  simp [Ideal.ofBits, Ideal.ieee]

/-- An extended real whose absolute value `max x (-x)` compares strictly below the word of `+∞` is a real number:
    at `⊤` the maximum is `⊤`, at `⊥` it is `-⊥ = ⊤`, and `⊤ < ⊤` is false. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | coe r => exact ⟨r, rfl⟩
  | top => simp [Ideal.cmp] at h

/-- The conjunction of two integer arrays, read at an index, is the conjunction of the two words there. -/
theorem andi_apply {s : Shape} {w : Nat} (x y : IVec s w) (i : s.Idx) : andi x y i = IntOp.andi (x i) (y i) := rfl

/-- The scalar shape has one index. -/
instance subsingleton_scalar_idx : Subsingleton (⟨0, ![]⟩ : Shape).Idx := ⟨fun a b => funext fun d => d.elim0⟩

/-- The conjunction over all entries of "the entry's absolute value is below the word of `+∞`", reduced into the
    scalar shape from the constant 1: if it is 1, every entry of the array is a real number. -/
theorem forall_real_of_all_abs_lt_inf {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf a)
            (broadcastInDim s ![] hb (constant (F := Ideal) (⟨0, ![]⟩ : Shape) .f32 0x7F800000#32)))
          (constantI (⟨0, ![]⟩ : Shape) 1 1#1) hr hu ValueIdx.ix0 = 1#1) :
    ∀ i : s.Idx, ∃ r : ℝ, a i = (r : EReal) := fun i =>
  real_of_abs_lt_inf (a i) (Host.reduce_andi_all _ _ hr hu _ e i)

end Cert.Lib.FiniteTest
-- ==== Proof.PreReal.lean ====
/-
  From the precondition to real inputs. The precondition computes, for each of the eleven single-precision
  arguments, the conjunction over all entries of "the entry's absolute value is below the word of +∞", and then the
  conjunction of the eleven one-bit answers, left to right; the claim's hypothesis says that the last bit is 1. A
  conjunction of two one-bit words is 1 exactly when both are, so each of the eleven answers is 1, and an answer
  that is 1 says that every entry of its array is a real number (a finiteness test read back on the extended
  reals: the word of +∞ is ⊤, and max x (−x) < ⊤ excludes both ⊤ and ⊥). The integer argument is not tested.
-/
import proofs.«173831_j84808424227048_1_alg».proof.Pre_finite_inputs
import proofs.«173831_j84808424227048_1_alg».proof.Proof.Gen.Pre_finite_inputs
import proofs.«173831_j84808424227048_1_alg».proof.Proof.GcnSpec
import proofs.«173831_j84808424227048_1_alg».proof.Proof.LibFiniteTest
import Idealize.ShloMosaic.PureOps.Ideal
import Idealize.ShloMosaic.Lib.ReduceAll
import Idealize.ShloMosaic.Lib.ValueIdx

namespace Cert.Pre_finite_inputs.Real

open Idealize.ShloMosaic Cert.Pre_finite_inputs Cert.Pre_finite_inputs.Gen Cert.Lib.FiniteTest

/-- Under the precondition every entry of every single-precision argument is a real number. -/
theorem allReal_of_fn (a0 : FVec Ideal S50000x128 .f32) (a1 : IVec S2x600000 32) (a2 : FVec Ideal S128x128 .f32)
    (a3 a4 a5 : FVec Ideal S128 .f32) (a6 : FVec Ideal S128x128 .f32) (a7 a8 a9 : FVec Ideal S128 .f32)
    (a10 : FVec Ideal S128x64 .f32) (a11 : FVec Ideal S64 .f32)
    (h : fn (F := Ideal) a0 a1 a2 a3 a4 a5 a6 a7 a8 a9 a10 a11 = fun _ => 1#1) :
    Cert.Gcn.AllReal a0 ∧ Cert.Gcn.AllReal a2 ∧ Cert.Gcn.AllReal a3 ∧ Cert.Gcn.AllReal a4 ∧ Cert.Gcn.AllReal a5
      ∧ Cert.Gcn.AllReal a6 ∧ Cert.Gcn.AllReal a7 ∧ Cert.Gcn.AllReal a8 ∧ Cert.Gcn.AllReal a9
      ∧ Cert.Gcn.AllReal a10 ∧ Cert.Gcn.AllReal a11 := by
  have e := congrFun h ValueIdx.ix0
  dsimp only [fn, fn_part1, fn_part2, fn_part3] at e
  -- the eleven answers, peeled off the left-to-right conjunction from the last to the first
  rw [andi_apply, IntOp.andi_eq_one] at e
  obtain ⟨e, e11⟩ := e
  rw [andi_apply, IntOp.andi_eq_one] at e
  obtain ⟨e, e10⟩ := e
  rw [andi_apply, IntOp.andi_eq_one] at e
  obtain ⟨e, e9⟩ := e
  rw [andi_apply, IntOp.andi_eq_one] at e
  obtain ⟨e, e8⟩ := e
  rw [andi_apply, IntOp.andi_eq_one] at e
  obtain ⟨e, e7⟩ := e
  rw [andi_apply, IntOp.andi_eq_one] at e
  obtain ⟨e, e6⟩ := e
  rw [andi_apply, IntOp.andi_eq_one] at e
  obtain ⟨e, e5⟩ := e
  rw [andi_apply, IntOp.andi_eq_one] at e
  obtain ⟨e, e4⟩ := e
  rw [andi_apply, IntOp.andi_eq_one] at e
  obtain ⟨e, e3⟩ := e
  rw [andi_apply, IntOp.andi_eq_one] at e
  obtain ⟨e0, e2⟩ := e
  exact ⟨forall_real_of_all_abs_lt_inf a0 _ _ _ e0, forall_real_of_all_abs_lt_inf a2 _ _ _ e2,
    forall_real_of_all_abs_lt_inf a3 _ _ _ e3, forall_real_of_all_abs_lt_inf a4 _ _ _ e4,
    forall_real_of_all_abs_lt_inf a5 _ _ _ e5, forall_real_of_all_abs_lt_inf a6 _ _ _ e6,
    forall_real_of_all_abs_lt_inf a7 _ _ _ e7, forall_real_of_all_abs_lt_inf a8 _ _ _ e8,
    forall_real_of_all_abs_lt_inf a9 _ _ _ e9, forall_real_of_all_abs_lt_inf a10 _ _ _ e10,
    forall_real_of_all_abs_lt_inf a11 _ _ _ e11⟩

end Cert.Pre_finite_inputs.Real
-- ==== Proof.lean ====
/-
  Three graph-convolution layers (matrix product, aggregation over the edges with symmetric degree
  normalisation, bias), the first two followed by batch normalisation over the nodes and a rectifier. The
  kernel program computes the products, the column statistics and the normalise-and-rectify step in tiled
  regions of 5000 rows and keeps the gather / scatter-add aggregation on the host; the reference is plain
  array code. At the ideal values both are the same function of the arguments:

  * a product tiled by row blocks is the product (each block's rows depend only on that block);
  * the column sums accumulated block after block are the column sums (addition on the extended reals is
    commutative and associative);
  * the kernel's variance, the mean of the squares minus the square of the mean, is the reference's, the
    mean of the squared deviations — for REAL entries, which is where the precondition enters: finite
    arguments keep every layer's array real (finite sums and products of reals; a degree is a count, its
    inverse square root a real; a variance plus the positive stabiliser is positive, so its inverse square
    root is real), and on real entries the identity is school algebra with exactly 50000 rows;
  * the aggregation, the bias and the index preparation are the same host operations on both sides.

  The three frames are the generated frame certificates of the two kernel programs and the reference's run
  with its result dropped; the idealization rewrote nothing, so its conjunct is trivial.
-/
import proofs.«173831_j84808424227048_1_alg».proof.Defs
import proofs.«173831_j84808424227048_1_alg».proof.Proof.Gen.Kernel
import proofs.«173831_j84808424227048_1_alg».proof.Proof.Gen.Kernel.Frame
import proofs.«173831_j84808424227048_1_alg».proof.Proof.Gen.KernelIdeal
import proofs.«173831_j84808424227048_1_alg».proof.Proof.Gen.KernelIdeal.Frame
import proofs.«173831_j84808424227048_1_alg».proof.Proof.Gen.ReferenceIdeal
import proofs.«173831_j84808424227048_1_alg».proof.Proof.Gen.Pre_finite_inputs
import proofs.«173831_j84808424227048_1_alg».proof.Proof.KerRun
import proofs.«173831_j84808424227048_1_alg».proof.Proof.KerChain
import proofs.«173831_j84808424227048_1_alg».proof.Proof.RefRead
import proofs.«173831_j84808424227048_1_alg».proof.Proof.Bridge
import proofs.«173831_j84808424227048_1_alg».proof.Proof.PreReal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.RefValue.run_value m ρ)

theorem preserves : Cert.preserves_Kernel_KernelIdeal := trivial

/-- Both runs end with the result at the same function of the arguments: the kernel's at `outKer` of its launch
    memory, the reference's at `refOut` of its own, which agrees with the kernel's on the arguments; the
    two functions agree on real arguments, and the precondition makes every float argument real. -/
theorem algebraic : Cert.algebraic_KernelIdeal_ReferenceIdeal := by
  intro m ρ m' ρ' hpre hagree
  refine ⟨fun c => Cert.KernelIdeal.Val.outK m c, ?_, ?_⟩
  · exact (θ_run (Cert.KernelIdeal.defs (F := Ideal)) _ _).mono
      (fun r h c => ⟨(h c).1.trans (Cert.KernelIdeal.Val.kernel_value m ρ c), (h c).2⟩)
      (Cert.KernelIdeal.Val.run_result (F := Ideal) m ρ)
  · refine (θ_run (Cert.ReferenceIdeal.defs (F := Ideal)) _ _).mono (fun r h c => ⟨(h c).1.trans ?_, (h c).2⟩)
      (Cert.ReferenceIdeal.RefValue.run_value m' ρ')
    obtain ⟨e0, e1, e2, e3, e4, e5, e6, e7, e8, e9, e10, e11⟩ := hagree c
    rw [e0, e1, e2, e3, e4, e5, e6, e7, e8, e9, e10, e11]
    show _ = Cert.KernelIdeal.Val.outK m c
    rw [Cert.KernelIdeal.Val.outK_eq]
    obtain ⟨r0, r2, r3, r4, r5, r6, r7, r8, r9, r10, r11⟩ := Cert.Pre_finite_inputs.Real.allReal_of_fn _ _ _ _ _ _ _ _ _ _ _ _ (hpre c)
    exact Cert.Bridge.refOut_eq_outKer _ _ _ _ _ _ _ _ _ _ _ _ r0 r2 r3 r4 r5 r6 r7 r8 r9 r10 r11

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
